-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v314) = v0 c
          ∧ r.2.mem ((c.tc : Thread Cert.ReferenceIdeal.nD Cert.ReferenceIdeal.τ).loc Cert.ReferenceIdeal.main_v307) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4x2048 : Shape := ⟨4, ![2, 4096, 4, 2048]⟩
abbrev S2x4096x2048 : Shape := ⟨3, ![2, 4096, 2048]⟩
abbrev S24x8192 : Shape := ⟨2, ![24, 8192]⟩
abbrev S3 : Shape := ⟨1, ![3]⟩
abbrev S24 : Shape := ⟨1, ![24]⟩
abbrev S_ : Shape := ⟨0, ![]⟩

class Facts : Prop where
  bcast_S_S2x4096x4x2048 : S_.BroadcastsInDim S2x4096x4x2048 (![] : Fin 0 → Fin S2x4096x4x2048.rank)
  reducesTo_S2x4096x4x2048_S_d0_1_2_3 : S2x4096x4x2048.ReducesTo [0, 1, 2, 3] S_
  h_S_ : 0 < S_.numel
  bcast_S_S2x4096x2048 : S_.BroadcastsInDim S2x4096x2048 (![] : Fin 0 → Fin S2x4096x2048.rank)
  reducesTo_S2x4096x2048_S_d0_1_2 : S2x4096x2048.ReducesTo [0, 1, 2] S_
  bcast_S_S24x8192 : S_.BroadcastsInDim S24x8192 (![] : Fin 0 → Fin S24x8192.rank)
  reducesTo_S24x8192_S_d0_1 : S24x8192.ReducesTo [0, 1] S_
  bcast_S_S3 : S_.BroadcastsInDim S3 (![] : Fin 0 → Fin S3.rank)
  reducesTo_S3_S_d0 : S3.ReducesTo [0] S_
  bcast_S_S24 : S_.BroadcastsInDim S24 (![] : Fin 0 → Fin S24.rank)
  reducesTo_S24_S_d0 : S24.ReducesTo [0] S_

variable [Facts]

def fn_part1 {F : FTy → Type} [FloatOps F] (main_arg4 : FVec F S24 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S24 .f32 := Host.absf main_arg4
  let main_cst_6 : FVec F S_ .f32 := constant S_ .f32 0x7F800000#32
  let main_v20 : FVec F S24 .f32 := broadcastInDim S24 ![] bcast_S_S24 main_cst_6
  let main_v21 : IVec S24 1 := cmpf .olt main_v19 main_v20
  let main_c_7 : IVec S_ 1 := constantI S_ 1 1#1
  let main_v22 : IVec S_ 1 := (fun x v => Host.reduce IntOp.andi x v reducesTo_S24_S_d0 h_S_) main_v21 main_c_7
  let main_v23 : IVec S_ 1 := andi main_v18 main_v22
  main_v23

def fn {F : FTy → Type} [FloatOps F] (main_arg0 : FVec F S2x4096x4x2048 .f32) (main_arg1 : FVec F S2x4096x2048 .f32) (main_arg2 : FVec F S24x8192 .f32) (main_arg3 : FVec F S3 .f32) (main_arg4 : FVec F S24 .f32) : IVec S_ 1 :=
  let main_v0 : FVec F S2x4096x4x2048 .f32 := Host.absf main_arg0
  let main_cst : FVec F S_ .f32 := constant S_ .f32 0x7F800000#32
  let main_v1 : FVec F S2x4096x4x2048 .f32 := broadcastInDim S2x4096x4x2048 ![] bcast_S_S2x4096x4x2048 main_cst
  let main_v2 : IVec S2x4096x4x2048 1 := cmpf .olt main_v0 main_v1
  let main_c : IVec S_ 1 := constantI S_ 1 1#1
  let main_v3 : IVec S_ 1 := (fun x v => Host.reduce IntOp.andi x v reducesTo_S2x4096x4x2048_S_d0_1_2_3 h_S_) main_v2 main_c
  let main_v4 : FVec F S2x4096x2048 .f32 := Host.absf main_arg1
  let main_cst_0 : FVec F S_ .f32 := constant S_ .f32 0x7F800000#32
  let main_v5 : FVec F S2x4096x2048 .f32 := broadcastInDim S2x4096x2048 ![] bcast_S_S2x4096x2048 main_cst_0
  let main_v6 : IVec S2x4096x2048 1 := cmpf .olt main_v4 main_v5
  let main_c_1 : IVec S_ 1 := constantI S_ 1 1#1
  let main_v7 : IVec S_ 1 := (fun x v => Host.reduce IntOp.andi x v reducesTo_S2x4096x2048_S_d0_1_2 h_S_) main_v6 main_c_1
  let main_v8 : IVec S_ 1 := andi main_v3 main_v7
  let main_v9 : FVec F S24x8192 .f32 := Host.absf main_arg2
  let main_cst_2 : FVec F S_ .f32 := constant S_ .f32 0x7F800000#32
  let main_v10 : FVec F S24x8192 .f32 := broadcastInDim S24x8192 ![] bcast_S_S24x8192 main_cst_2
  let main_v11 : IVec S24x8192 1 := cmpf .olt main_v9 main_v10
  let main_c_3 : IVec S_ 1 := constantI S_ 1 1#1
  let main_v12 : IVec S_ 1 := (fun x v => Host.reduce IntOp.andi x v reducesTo_S24x8192_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg4 main_v13 main_v16
-- ==== Kernel.lean ====
abbrev S2x4096x4x2048 : Shape := ⟨4, ![2, 4096, 4, 2048]⟩
abbrev S2x4096x2048 : Shape := ⟨3, ![2, 4096, 2048]⟩
abbrev S24x8192 : Shape := ⟨2, ![24, 8192]⟩
abbrev S3 : Shape := ⟨1, ![3]⟩
abbrev S24 : Shape := ⟨1, ![24]⟩
abbrev S8192x8192 : Shape := ⟨2, ![8192, 8192]⟩
abbrev S8192x2048 : Shape := ⟨2, ![8192, 2048]⟩
abbrev S1x3 : Shape := ⟨2, ![1, 3]⟩
abbrev S1x24 : Shape := ⟨2, ![1, 24]⟩
abbrev S64x8192 : Shape := ⟨2, ![64, 8192]⟩
abbrev S64x2048 : Shape := ⟨2, ![64, 2048]⟩
abbrev S64 : Shape := ⟨1, ![64]⟩
abbrev S64x1 : Shape := ⟨2, ![64, 1]⟩
abbrev S64x24 : Shape := ⟨2, ![64, 24]⟩
abbrev S1x1 : Shape := ⟨2, ![1, 1]⟩
abbrev S1x4 : Shape := ⟨2, ![1, 4]⟩
abbrev S4 : Shape := ⟨1, ![4]⟩
abbrev S1x16 : Shape := ⟨2, ![1, 16]⟩
abbrev S16 : Shape := ⟨1, ![16]⟩
abbrev S64x4 : Shape := ⟨2, ![64, 4]⟩
abbrev S64x16 : Shape := ⟨2, ![64, 16]⟩
abbrev S64x4x4 : Shape := ⟨3, ![64, 4, 4]⟩
abbrev S64x4x1 : Shape := ⟨3, ![64, 4, 1]⟩
abbrev S64x1x4 : Shape := ⟨3, ![64, 1, 4]⟩
abbrev S64x1x1 : Shape := ⟨3, ![64, 1, 1]⟩

abbrev nBuf : Space → Nat
  | .hbm => 13
  | .vmem => 11
  | .smem => 0
  | _ => 0

abbrev bufTy : (tb : Table) → Fin (tcTables nBuf tb) → BufTy
  | .hbm, ⟨0, _⟩ => ⟨S2x4096x4x2048, .f32⟩
  | .hbm, ⟨1, _⟩ => ⟨S2x4096x2048, .f32⟩
  | .hbm, ⟨2, _⟩ => ⟨S24x8192, .f32⟩
  | .hbm, ⟨3, _⟩ => ⟨S3, .f32⟩
  | .hbm, ⟨4, _⟩ => ⟨S24, .f32⟩
  | .hbm, ⟨5, _⟩ => ⟨S8192x8192, .f32⟩
  | .hbm, ⟨6, _⟩ => ⟨S8192x2048, .f32⟩
  | .hbm, ⟨7, _⟩ => ⟨S1x3, .f32⟩
  | .hbm, ⟨8, _⟩ => ⟨S1x24, .f32⟩
  | .hbm, ⟨9, _⟩ => ⟨S8192x8192, .f32⟩
  | .hbm, ⟨10, _⟩ => ⟨S8192x2048, .f32⟩
  | .hbm, ⟨11, _⟩ => ⟨S2x4096x4x2048, .f32⟩
  | .hbm, ⟨12, _⟩ => ⟨S2x4096x2048, .f32⟩
  | .local _ .vmem, ⟨0, _⟩ => ⟨S64x8192, .f32⟩
  | .local _ .vmem, ⟨1, _⟩ => ⟨S64x8192, .f32⟩
  | .local _ .vmem, ⟨2, _⟩ => ⟨S64x2048, .f32⟩
  | .local _ .vmem, ⟨3, _⟩ => ⟨S64x2048, .f32⟩
  | .local _ .vmem, ⟨4, _⟩ => ⟨S24x8192, .f32⟩
  | .local _ .vmem, ⟨5, _⟩ => ⟨S1x3, .f32⟩
  | .local _ .vmem, ⟨6, _⟩ => ⟨S1x24, .f32⟩
  | .local _ .vmem, ⟨7, _⟩ => ⟨S64x8192, .f32⟩
  | .local _ .vmem, ⟨8, _⟩ => ⟨S64x8192, .f32⟩
  | .local _ .vmem, ⟨9, _⟩ => ⟨S64x2048, .f32⟩
  | .local _ .vmem, ⟨10, _⟩ => ⟨S64x2048, .f32⟩
  | _, _ => ⟨S2x4096x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S2x4096x4x2048_S8192x8192 : S2x4096x4x2048.ShapeCasts S8192x8192
  shapeCasts_S2x4096x2048_S8192x2048 : S2x4096x2048.ShapeCasts S8192x2048
  shapeCasts_S3_S1x3 : S3.ShapeCasts S1x3
  shapeCasts_S24_S1x24 : S24.ShapeCasts S1x24
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  reduces_S64x8192_S64 : S64x8192.Reduces [1] S64
  shapeCasts_S64_S64x1 : S64.ShapeCasts S64x1
  broadcasts_S64x1_S64x8192 : S64x1.Broadcasts S64x8192
  bitsLt_bf16_f32 : FTy.bits .bf16 < FTy.bits .f32
  inb_S24x8192_S24x8192_0_0 : ∀ a, (![0, 0] : Fin 2 → Nat) a + S24x8192.size a ≤ S24x8192.size a
  h_S24x8192 : 0 < S24x8192.numel
  inb_S1x3_S1x1_0_0 : ∀ a, (![0, 0] : Fin 2 → Nat) a + S1x1.size a ≤ S1x3.size a
  h_S1x1 : 0 < S1x1.numel
  inpos_S1x1_p0_0 : ∀ a, (![0, 0] : Fin 2 → Nat) a < S1x1.size a
  inb_S1x3_S1x1_0_1 : ∀ a, (![0, 1] : Fin 2 → Nat) a + S1x1.size a ≤ S1x3.size a
  inb_S1x3_S1x1_0_2 : ∀ a, (![0, 2] : Fin 2 → Nat) a + S1x1.size a ≤ S1x3.size a
  inb_S1x24_S1x4_0_0 : ∀ a, (![0, 0] : Fin 2 → Nat) a + S1x4.size a ≤ S1x24.size a
  h_S1x4 : 0 < S1x4.numel
  shapeCasts_S1x4_S4 : S1x4.ShapeCasts S4
  inb_S1x24_S1x4_0_4 : ∀ a, (![0, 4] : Fin 2 → Nat) a + S1x4.size a ≤ S1x24.size a
  inb_S1x24_S1x16_0_8 : ∀ a, (![0, 8] : Fin 2 → Nat) a + S1x16.size a ≤ S1x24.size a
  h_S1x16 : 0 < S1x16.numel
  shapeCasts_S1x16_S16 : S1x16.ShapeCasts S16
  slices_S64x24_o0_0_S64x4 : S64x24.Slices ![0, 0] S64x4
  shapeCasts_S4_S1x4 : S4.ShapeCasts S1x4
  shapeCasts_S1x4_S1x4 : S1x4.ShapeCasts S1x4
  broadcasts_S1x4_S64x4 : S1x4.Broadcasts S64x4
  slices_S64x24_o0_4_S64x4 : S64x24.Slices ![0, 4] S64x4
  slices_S64x24_o0_8_S64x16 : S64x24.Slices ![0, 8] S64x16
  shapeCasts_S16_S1x16 : S16.ShapeCasts S1x16
  shapeCasts_S1x16_S1x16 : S1x16.ShapeCasts S1x16
  broadcasts_S1x16_S64x16 : S1x16.Broadcasts S64x16
  shapeCasts_S64x16_S64x4x4 : S64x16.ShapeCasts S64x4x4
  reduces_S64x4x4_S64x4 : S64x4x4.Reduces [2] S64x4
  shapeCasts_S64x4_S64x4x1 : S64x4.ShapeCasts S64x4x1
  broadcasts_S64x4x1_S64x4x4 : S64x4x1.Broadcasts S64x4x4
  reduces_S64x4x4_S64x4_2 : S64x4x4.Reduces [1] S64x4
  shapeCasts_S64x4_S64x1x4 : S64x4.ShapeCasts S64x1x4
  broadcasts_S64x1x4_S64x4x4 : S64x1x4.Broadcasts S64x4x4
  slices_S64x8192_o0_0_S64x2048 : S64x8192.Slices ![0, 0] S64x2048
  slices_S64x8192_o0_2048_S64x2048 : S64x8192.Slices ![0, 2048] S64x2048
  slices_S64x8192_o0_4096_S64x2048 : S64x8192.Slices ![0, 4096] S64x2048
  slices_S64x8192_o0_6144_S64x2048 : S64x8192.Slices ![0, 6144] S64x2048
  slices_S64x4_o0_0_S64x1 : S64x4.Slices ![0, 0] S64x1
  broadcasts_S64x1_S64x2048 : S64x1.Broadcasts S64x2048
  slices_S64x4_o0_1_S64x1 : S64x4.Slices ![0, 1] S64x1
  slices_S64x4_o0_2_S64x1 : S64x4.Slices ![0, 2] S64x1
  slices_S64x4_o0_3_S64x1 : S64x4.Slices ![0, 3] S64x1
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  slices_S64x4x4_o0_0_0_S64x1x1 : S64x4x4.Slices ![0, 0, 0] S64x1x1
  shapeCasts_S64x1x1_S64x1 : S64x1x1.ShapeCasts S64x1
  slices_S64x4x4_o0_0_1_S64x1x1 : S64x4x4.Slices ![0, 0, 1] S64x1x1
  slices_S64x4x4_o0_0_2_S64x1x1 : S64x4x4.Slices ![0, 0, 2] S64x1x1
  slices_S64x4x4_o0_0_3_S64x1x1 : S64x4x4.Slices ![0, 0, 3] S64x1x1
  inb_S64x8192_S64x2048_0_0 : ∀ a, (![0, 0] : Fin 2 → Nat) a + S64x2048.size a ≤ S64x8192.size a
  slices_S64x4x4_o0_1_0_S64x1x1 : S64x4x4.Slices ![0, 1, 0] S64x1x1
  slices_S64x4x4_o0_1_1_S64x1x1 : S64x4x4.Slices ![0, 1, 1] S64x1x1
  slices_S64x4x4_o0_1_2_S64x1x1 : S64x4x4.Slices ![0, 1, 2] S64x1x1
  slices_S64x4x4_o0_1_3_S64x1x1 : S64x4x4.Slices ![0, 1, 3] S64x1x1
  inb_S64x8192_S64x2048_0_2048 : ∀ a, (![0, 2048] : Fin 2 → Nat) a + S64x2048.size a ≤ S64x8192.size a
  slices_S64x4x4_o0_2_0_S64x1x1 : S64x4x4.Slices ![0, 2, 0] S64x1x1
  slices_S64x4x4_o0_2_1_S64x1x1 : S64x4x4.Slices ![0, 2, 1] S64x1x1
  slices_S64x4x4_o0_2_2_S64x1x1 : S64x4x4.Slices ![0, 2, 2] S64x1x1
  slices_S64x4x4_o0_2_3_S64x1x1 : S64x4x4.Slices ![0, 2, 3] S64x1x1
  inb_S64x8192_S64x2048_0_4096 : ∀ a, (![0, 4096] : Fin 2 → Nat) a + S64x2048.size a ≤ S64x8192.size a
  slices_S64x4x4_o0_3_0_S64x1x1 : S64x4x4.Slices ![0, 3, 0] S64x1x1
  slices_S64x4x4_o0_3_1_S64x1x1 : S64x4x4.Slices ![0, 3, 1] S64x1x1
  slices_S64x4x4_o0_3_2_S64x1x1 : S64x4x4.Slices ![0, 3, 2] S64x1x1
  slices_S64x4x4_o0_3_3_S64x1x1 : S64x4x4.Slices ![0, 3, 3] S64x1x1
  inb_S64x8192_S64x2048_0_6144 : ∀ a, (![0, 6144] : Fin 2 → Nat) a + S64x2048.size a ≤ S64x8192.size a
  shapeCasts_S8192x8192_S2x4096x4x2048 : S8192x8192.ShapeCasts S2x4096x4x2048
  shapeCasts_S8192x2048_S2x4096x2048 : S8192x2048.ShapeCasts S2x4096x2048
  dot_S64x8192_S24x8192_S64x24_1_1_0_0_n_n_wf : DotDims.WF S64x8192 S24x8192 S64x24 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S8192x8192.size a
  hwx0_0 : ∀ i : grid0.Coords, EltTy.bits .f32 = 32 ∨ (Rect.block (s := S8192x8192) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S8192x2048.size a
  hwx0_1 : ∀ i : grid0.Coords, EltTy.bits .f32 = 32 ∨ (Rect.block (s := S8192x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24x8192.size a ≤ S24x8192.size a
  hwx0_2 : ∀ i : grid0.Coords, EltTy.bits .f32 = 32 ∨ (Rect.block (s := S24x8192) S24x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3.size a ≤ S1x3.size a
  hwx0_3 : ∀ i : grid0.Coords, EltTy.bits .f32 = 32 ∨ (Rect.block (s := S1x3) S1x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x24.size a ≤ S1x24.size a
  hwx0_4 : ∀ i : grid0.Coords, EltTy.bits .f32 = 32 ∨ (Rect.block (s := S1x24) S1x24.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x8192.size a ≤ S8192x8192.size a
  hwx0_5 : ∀ i : grid0.Coords, EltTy.bits .f32 = 32 ∨ (Rect.block (s := S8192x8192) S64x8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x2048.size a ≤ S8192x2048.size a
  hwx0_6 : ∀ i : grid0.Coords, EltTy.bits .f32 = 32 ∨ (Rect.block (s := S8192x2048) S64x2048.size (cc0_transform_6 i) (hinb0_6 i)).WholeWords (EltTy.packing .f32)

variable [Facts₀]

def dot_S64x8192_S24x8192_S64x24_1_1_0_0_n_n : DotDims S64x8192 S24x8192 S64x24 where
  lhsContracting := [1]
  rhsContracting := [1]
  lhsNonContracting := [0]
  rhsNonContracting := [0]
  lhsBatch := []
  rhsBatch := []
  wf := dot_S64x8192_S24x8192_S64x24_1_1_0_0_n_n_wf

abbrev win0_0 : Pipeline.Window sig grid0 :=
  Pipeline.Window.ofSpec (Memref.whole main_v0) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S24x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x24.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S64x8192.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S64x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x4096x4x2048 : Shape := ⟨4, ![2, 4096, 4, 2048]⟩
abbrev S2x4096x2048 : Shape := ⟨3, ![2, 4096, 2048]⟩
abbrev S24x8192 : Shape := ⟨2, ![24, 8192]⟩
abbrev S3 : Shape := ⟨1, ![3]⟩
abbrev S24 : Shape := ⟨1, ![24]⟩
abbrev S2x4096x8192 : Shape := ⟨3, ![2, 4096, 8192]⟩
abbrev S_ : Shape := ⟨0, ![]⟩
abbrev S2x4096 : Shape := ⟨2, ![2, 4096]⟩
abbrev S2x4096x1 : Shape := ⟨3, ![2, 4096, 1]⟩
abbrev S2x4096x24 : Shape := ⟨3, ![2, 4096, 24]⟩
abbrev S2x4096x4 : Shape := ⟨3, ![2, 4096, 4]⟩
abbrev S1 : Shape := ⟨1, ![1]⟩
abbrev S4 : Shape := ⟨1, ![4]⟩
abbrev S1x1x4 : Shape := ⟨3, ![1, 1, 4]⟩
abbrev S2x4096x16 : Shape := ⟨3, ![2, 4096, 16]⟩
abbrev S2x4096x4x4 : Shape := ⟨4, ![2, 4096, 4, 4]⟩
abbrev S16 : Shape := ⟨1, ![16]⟩
abbrev S4x4 : Shape := ⟨2, ![4, 4]⟩
abbrev S1x1x4x4 : Shape := ⟨4, ![1, 1, 4, 4]⟩
abbrev S2x4096x4x1 : Shape := ⟨4, ![2, 4096, 4, 1]⟩
abbrev S2x4096x1x4 : Shape := ⟨4, ![2, 4096, 1, 4]⟩
abbrev S2x4096x1x2048 : Shape := ⟨4, ![2, 4096, 1, 2048]⟩

abbrev nBuf : Space → Nat
  | .hbm => 412
  | .vmem => 0
  | .smem => 0
  | _ => 0

abbrev hbmTy0_0 (i : Nat) : BufTy := match i % 128 with
  | 0 => ⟨S2x4096x4x2048, .f32⟩
  | 1 => ⟨S2x4096x2048, .f32⟩
  | 2 => ⟨S24x8192, .f32⟩
  | 3 => ⟨S3, .f32⟩
  | 4 => ⟨S24, .f32⟩
  | 5 => ⟨S2x4096x8192, .f32⟩
  | 6 => ⟨S2x4096x8192, .f32⟩
  | 7 => ⟨S_, .f32⟩
  | 8 => ⟨S2x4096, .f32⟩
  | 9 => ⟨S2x4096x1, .f32⟩
  | 10 => ⟨S_, .f32⟩
  | 11 => ⟨S2x4096x1, .f32⟩
  | 12 => ⟨S2x4096x1, .f32⟩
  | 13 => ⟨S_, .f32⟩
  | 14 => ⟨S2x4096x1, .f32⟩
  | 15 => ⟨S2x4096x1, .f32⟩
  | 16 => ⟨S2x4096x1, .f32⟩
  | 17 => ⟨S2x4096x8192, .f32⟩
  | 18 => ⟨S2x4096x8192, .f32⟩
  | 19 => ⟨S2x4096x24, .f32⟩
  | 20 => ⟨S2x4096x4, .f32⟩
  | 21 => ⟨S1, .f32⟩
  | 22 => ⟨S_, .f32⟩
  | 23 => ⟨S2x4096x4, .f32⟩
  | 24 => ⟨S2x4096x4, .f32⟩
  | 25 => ⟨S4, .f32⟩
  | 26 => ⟨S1x1x4, .f32⟩
  | 27 => ⟨S2x4096x4, .f32⟩
  | 28 => ⟨S2x4096x4, .f32⟩
  | 29 => ⟨S2x4096x4, .f32⟩
  | 30 => ⟨S1, .f32⟩
  | 31 => ⟨S_, .f32⟩
  | 32 => ⟨S2x4096x4, .f32⟩
  | 33 => ⟨S2x4096x4, .f32⟩
  | 34 => ⟨S4, .f32⟩
  | 35 => ⟨S1x1x4, .f32⟩
  | 36 => ⟨S2x4096x4, .f32⟩
  | 37 => ⟨S2x4096x4, .f32⟩
  | 38 => ⟨S2x4096x16, .f32⟩
  | 39 => ⟨S2x4096x4x4, .f32⟩
  | 40 => ⟨S1, .f32⟩
  | 41 => ⟨S_, .f32⟩
  | 42 => ⟨S2x4096x4x4, .f32⟩
  | 43 => ⟨S2x4096x4x4, .f32⟩
  | 44 => ⟨S16, .f32⟩
  | 45 => ⟨S4x4, .f32⟩
  | 46 => ⟨S1x1x4x4, .f32⟩
  | 47 => ⟨S2x4096x4x4, .f32⟩
  | 48 => ⟨S2x4096x4x4, .f32⟩
  | 49 => ⟨S2x4096x4, .f32⟩
  | 50 => ⟨S2x4096x4, .f32⟩
  | 51 => ⟨S_, .f32⟩
  | 52 => ⟨S2x4096x4, .f32⟩
  | 53 => ⟨S2x4096x4, .f32⟩
  | 54 => ⟨S_, .f32⟩
  | 55 => ⟨S2x4096x4, .f32⟩
  | 56 => ⟨S2x4096x4, .f32⟩
  | 57 => ⟨S_, .f32⟩
  | 58 => ⟨S2x4096x4, .f32⟩
  | 59 => ⟨S2x4096x4, .f32⟩
  | 60 => ⟨S2x4096x4, .f32⟩
  | 61 => ⟨S2x4096x4, .f32⟩
  | 62 => ⟨S_, .f32⟩
  | 63 => ⟨S2x4096x4, .f32⟩
  | 64 => ⟨S2x4096x4, .f32⟩
  | 65 => ⟨S_, .f32⟩
  | 66 => ⟨S2x4096x4, .f32⟩
  | 67 => ⟨S2x4096x4, .f32⟩
  | 68 => ⟨S_, .f32⟩
  | 69 => ⟨S2x4096x4, .f32⟩
  | 70 => ⟨S2x4096x4, .f32⟩
  | 71 => ⟨S_, .f32⟩
  | 72 => ⟨S2x4096x4, .f32⟩
  | 73 => ⟨S_, .f32⟩
  | 74 => ⟨S2x4096x4, .f32⟩
  | 75 => ⟨S2x4096x4, .f32⟩
  | 76 => ⟨S2x4096x4x1, .f32⟩
  | 77 => ⟨S2x4096x4x4, .f32⟩
  | 78 => ⟨S2x4096x4x4, .f32⟩
  | 79 => ⟨S2x4096x4x4, .f32⟩
  | 80 => ⟨S_, .f32⟩
  | 81 => ⟨S2x4096x4, .f32⟩
  | 82 => ⟨S2x4096x4x1, .f32⟩
  | 83 => ⟨S2x4096x4x4, .f32⟩
  | 84 => ⟨S2x4096x4x4, .f32⟩
  | 85 => ⟨S_, .f32⟩
  | 86 => ⟨S2x4096x4x4, .f32⟩
  | 87 => ⟨S2x4096x4x4, .f32⟩
  | 88 => ⟨S_, .f32⟩
  | 89 => ⟨S2x4096x4, .f32⟩
  | 90 => ⟨S2x4096x1x4, .f32⟩
  | 91 => ⟨S_, .f32⟩
  | 92 => ⟨S2x4096x1x4, .f32⟩
  | 93 => ⟨S2x4096x1x4, .f32⟩
  | 94 => ⟨S2x4096x4x4, .f32⟩
  | 95 => ⟨S2x4096x4x4, .f32⟩
  | 96 => ⟨S_, .f32⟩
  | 97 => ⟨S2x4096x4, .f32⟩
  | 98 => ⟨S2x4096x4x1, .f32⟩
  | 99 => ⟨S_, .f32⟩
  | 100 => ⟨S2x4096x4x1, .f32⟩
  | 101 => ⟨S2x4096x4x1, .f32⟩
  | 102 => ⟨S2x4096x4x4, .f32⟩
  | 103 => ⟨S2x4096x4x4, .f32⟩
  | 104 => ⟨S_, .f32⟩
  | 105 => ⟨S2x4096x4, .f32⟩
  | 106 => ⟨S2x4096x1x4, .f32⟩
  | 107 => ⟨S_, .f32⟩
  | 108 => ⟨S2x4096x1x4, .f32⟩
  | 109 => ⟨S2x4096x1x4, .f32⟩
  | 110 => ⟨S2x4096x4x4, .f32⟩
  | 111 => ⟨S2x4096x4x4, .f32⟩
  | 112 => ⟨S_, .f32⟩
  | 113 => ⟨S2x4096x4, .f32⟩
  | 114 => ⟨S2x4096x4x1, .f32⟩
  | 115 => ⟨S_, .f32⟩
  | 116 => ⟨S2x4096x4x1, .f32⟩
  | 117 => ⟨S2x4096x4x1, .f32⟩
  | 118 => ⟨S2x4096x4x4, .f32⟩
  | 119 => ⟨S2x4096x4x4, .f32⟩
  | 120 => ⟨S_, .f32⟩
  | 121 => ⟨S2x4096x4, .f32⟩
  | 122 => ⟨S2x4096x1x4, .f32⟩
  | 123 => ⟨S_, .f32⟩
  | 124 => ⟨S2x4096x1x4, .f32⟩
  | 125 => ⟨S2x4096x1x4, .f32⟩
  | 126 => ⟨S2x4096x4x4, .f32⟩
  | 127 => ⟨S2x4096x4x4, .f32⟩
  | _ => ⟨S2x4096x4x2048, .f32⟩

abbrev hbmTy0_1 (i : Nat) : BufTy := match i % 128 with
  | 0 => ⟨S_, .f32⟩
  | 1 => ⟨S2x4096x4, .f32⟩
  | 2 => ⟨S2x4096x4x1, .f32⟩
  | 3 => ⟨S_, .f32⟩
  | 4 => ⟨S2x4096x4x1, .f32⟩
  | 5 => ⟨S2x4096x4x1, .f32⟩
  | 6 => ⟨S2x4096x4x4, .f32⟩
  | 7 => ⟨S2x4096x4x4, .f32⟩
  | 8 => ⟨S_, .f32⟩
  | 9 => ⟨S2x4096x4, .f32⟩
  | 10 => ⟨S2x4096x1x4, .f32⟩
  | 11 => ⟨S_, .f32⟩
  | 12 => ⟨S2x4096x1x4, .f32⟩
  | 13 => ⟨S2x4096x1x4, .f32⟩
  | 14 => ⟨S2x4096x4x4, .f32⟩
  | 15 => ⟨S2x4096x4x4, .f32⟩
  | 16 => ⟨S_, .f32⟩
  | 17 => ⟨S2x4096x4, .f32⟩
  | 18 => ⟨S2x4096x4x1, .f32⟩
  | 19 => ⟨S_, .f32⟩
  | 20 => ⟨S2x4096x4x1, .f32⟩
  | 21 => ⟨S2x4096x4x1, .f32⟩
  | 22 => ⟨S2x4096x4x4, .f32⟩
  | 23 => ⟨S2x4096x4x4, .f32⟩
  | 24 => ⟨S_, .f32⟩
  | 25 => ⟨S2x4096x4, .f32⟩
  | 26 => ⟨S2x4096x1x4, .f32⟩
  | 27 => ⟨S_, .f32⟩
  | 28 => ⟨S2x4096x1x4, .f32⟩
  | 29 => ⟨S2x4096x1x4, .f32⟩
  | 30 => ⟨S2x4096x4x4, .f32⟩
  | 31 => ⟨S2x4096x4x4, .f32⟩
  | 32 => ⟨S_, .f32⟩
  | 33 => ⟨S2x4096x4, .f32⟩
  | 34 => ⟨S2x4096x4x1, .f32⟩
  | 35 => ⟨S_, .f32⟩
  | 36 => ⟨S2x4096x4x1, .f32⟩
  | 37 => ⟨S2x4096x4x1, .f32⟩
  | 38 => ⟨S2x4096x4x4, .f32⟩
  | 39 => ⟨S2x4096x4x4, .f32⟩
  | 40 => ⟨S_, .f32⟩
  | 41 => ⟨S2x4096x4, .f32⟩
  | 42 => ⟨S2x4096x1x4, .f32⟩
  | 43 => ⟨S_, .f32⟩
  | 44 => ⟨S2x4096x1x4, .f32⟩
  | 45 => ⟨S2x4096x1x4, .f32⟩
  | 46 => ⟨S2x4096x4x4, .f32⟩
  | 47 => ⟨S2x4096x4x4, .f32⟩
  | 48 => ⟨S_, .f32⟩
  | 49 => ⟨S2x4096x4, .f32⟩
  | 50 => ⟨S2x4096x4x1, .f32⟩
  | 51 => ⟨S_, .f32⟩
  | 52 => ⟨S2x4096x4x1, .f32⟩
  | 53 => ⟨S2x4096x4x1, .f32⟩
  | 54 => ⟨S2x4096x4x4, .f32⟩
  | 55 => ⟨S2x4096x4x4, .f32⟩
  | 56 => ⟨S_, .f32⟩
  | 57 => ⟨S2x4096x4, .f32⟩
  | 58 => ⟨S2x4096x1x4, .f32⟩
  | 59 => ⟨S_, .f32⟩
  | 60 => ⟨S2x4096x1x4, .f32⟩
  | 61 => ⟨S2x4096x1x4, .f32⟩
  | 62 => ⟨S2x4096x4x4, .f32⟩
  | 63 => ⟨S2x4096x4x4, .f32⟩
  | 64 => ⟨S_, .f32⟩
  | 65 => ⟨S2x4096x4, .f32⟩
  | 66 => ⟨S2x4096x4x1, .f32⟩
  | 67 => ⟨S_, .f32⟩
  | 68 => ⟨S2x4096x4x1, .f32⟩
  | 69 => ⟨S2x4096x4x1, .f32⟩
  | 70 => ⟨S2x4096x4x4, .f32⟩
  | 71 => ⟨S2x4096x4x4, .f32⟩
  | 72 => ⟨S_, .f32⟩
  | 73 => ⟨S2x4096x4, .f32⟩
  | 74 => ⟨S2x4096x1x4, .f32⟩
  | 75 => ⟨S_, .f32⟩
  | 76 => ⟨S2x4096x1x4, .f32⟩
  | 77 => ⟨S2x4096x1x4, .f32⟩
  | 78 => ⟨S2x4096x4x4, .f32⟩
  | 79 => ⟨S2x4096x4x4, .f32⟩
  | 80 => ⟨S_, .f32⟩
  | 81 => ⟨S2x4096x4, .f32⟩
  | 82 => ⟨S2x4096x4x1, .f32⟩
  | 83 => ⟨S_, .f32⟩
  | 84 => ⟨S2x4096x4x1, .f32⟩
  | 85 => ⟨S2x4096x4x1, .f32⟩
  | 86 => ⟨S2x4096x4x4, .f32⟩
  | 87 => ⟨S2x4096x4x4, .f32⟩
  | 88 => ⟨S_, .f32⟩
  | 89 => ⟨S2x4096x4, .f32⟩
  | 90 => ⟨S2x4096x1x4, .f32⟩
  | 91 => ⟨S_, .f32⟩
  | 92 => ⟨S2x4096x1x4, .f32⟩
  | 93 => ⟨S2x4096x1x4, .f32⟩
  | 94 => ⟨S2x4096x4x4, .f32⟩
  | 95 => ⟨S2x4096x4x4, .f32⟩
  | 96 => ⟨S_, .f32⟩
  | 97 => ⟨S2x4096x4, .f32⟩
  | 98 => ⟨S2x4096x4x1, .f32⟩
  | 99 => ⟨S_, .f32⟩
  | 100 => ⟨S2x4096x4x1, .f32⟩
  | 101 => ⟨S2x4096x4x1, .f32⟩
  | 102 => ⟨S2x4096x4x4, .f32⟩
  | 103 => ⟨S2x4096x4x4, .f32⟩
  | 104 => ⟨S_, .f32⟩
  | 105 => ⟨S2x4096x4, .f32⟩
  | 106 => ⟨S2x4096x1x4, .f32⟩
  | 107 => ⟨S_, .f32⟩
  | 108 => ⟨S2x4096x1x4, .f32⟩
  | 109 => ⟨S2x4096x1x4, .f32⟩
  | 110 => ⟨S2x4096x4x4, .f32⟩
  | 111 => ⟨S2x4096x4x4, .f32⟩
  | 112 => ⟨S_, .f32⟩
  | 113 => ⟨S2x4096x4, .f32⟩
  | 114 => ⟨S2x4096x4x1, .f32⟩
  | 115 => ⟨S_, .f32⟩
  | 116 => ⟨S2x4096x4x1, .f32⟩
  | 117 => ⟨S2x4096x4x1, .f32⟩
  | 118 => ⟨S2x4096x4x4, .f32⟩
  | 119 => ⟨S2x4096x4x4, .f32⟩
  | 120 => ⟨S_, .f32⟩
  | 121 => ⟨S2x4096x4, .f32⟩
  | 122 => ⟨S2x4096x1x4, .f32⟩
  | 123 => ⟨S_, .f32⟩
  | 124 => ⟨S2x4096x1x4, .f32⟩
  | 125 => ⟨S2x4096x1x4, .f32⟩
  | 126 => ⟨S2x4096x4x4, .f32⟩
  | 127 => ⟨S2x4096x4x4, .f32⟩
  | _ => ⟨S2x4096x4x2048, .f32⟩

abbrev hbmTy0_2 (i : Nat) : BufTy := match i % 128 with
  | 0 => ⟨S_, .f32⟩
  | 1 => ⟨S2x4096x4, .f32⟩
  | 2 => ⟨S2x4096x4x1, .f32⟩
  | 3 => ⟨S_, .f32⟩
  | 4 => ⟨S2x4096x4x1, .f32⟩
  | 5 => ⟨S2x4096x4x1, .f32⟩
  | 6 => ⟨S2x4096x4x4, .f32⟩
  | 7 => ⟨S2x4096x4x4, .f32⟩
  | 8 => ⟨S_, .f32⟩
  | 9 => ⟨S2x4096x4, .f32⟩
  | 10 => ⟨S2x4096x1x4, .f32⟩
  | 11 => ⟨S_, .f32⟩
  | 12 => ⟨S2x4096x1x4, .f32⟩
  | 13 => ⟨S2x4096x1x4, .f32⟩
  | 14 => ⟨S2x4096x4x4, .f32⟩
  | 15 => ⟨S2x4096x4x4, .f32⟩
  | 16 => ⟨S_, .f32⟩
  | 17 => ⟨S2x4096x4, .f32⟩
  | 18 => ⟨S2x4096x4x1, .f32⟩
  | 19 => ⟨S_, .f32⟩
  | 20 => ⟨S2x4096x4x1, .f32⟩
  | 21 => ⟨S2x4096x4x1, .f32⟩
  | 22 => ⟨S2x4096x4x4, .f32⟩
  | 23 => ⟨S2x4096x4x4, .f32⟩
  | 24 => ⟨S_, .f32⟩
  | 25 => ⟨S2x4096x4, .f32⟩
  | 26 => ⟨S2x4096x1x4, .f32⟩
  | 27 => ⟨S_, .f32⟩
  | 28 => ⟨S2x4096x1x4, .f32⟩
  | 29 => ⟨S2x4096x1x4, .f32⟩
  | 30 => ⟨S2x4096x4x4, .f32⟩
  | 31 => ⟨S2x4096x4x4, .f32⟩
  | 32 => ⟨S_, .f32⟩
  | 33 => ⟨S2x4096x4, .f32⟩
  | 34 => ⟨S2x4096x4x1, .f32⟩
  | 35 => ⟨S_, .f32⟩
  | 36 => ⟨S2x4096x4x1, .f32⟩
  | 37 => ⟨S2x4096x4x1, .f32⟩
  | 38 => ⟨S2x4096x4x4, .f32⟩
  | 39 => ⟨S2x4096x4x4, .f32⟩
  | 40 => ⟨S_, .f32⟩
  | 41 => ⟨S2x4096x4, .f32⟩
  | 42 => ⟨S2x4096x1x4, .f32⟩
  | 43 => ⟨S_, .f32⟩
  | 44 => ⟨S2x4096x1x4, .f32⟩
  | 45 => ⟨S2x4096x1x4, .f32⟩
  | 46 => ⟨S2x4096x4x4, .f32⟩
  | 47 => ⟨S2x4096x4x4, .f32⟩
  | 48 => ⟨S_, .f32⟩
  | 49 => ⟨S2x4096x4, .f32⟩
  | 50 => ⟨S2x4096x4x1, .f32⟩
  | 51 => ⟨S_, .f32⟩
  | 52 => ⟨S2x4096x4x1, .f32⟩
  | 53 => ⟨S2x4096x4x1, .f32⟩
  | 54 => ⟨S2x4096x4x4, .f32⟩
  | 55 => ⟨S2x4096x4x4, .f32⟩
  | 56 => ⟨S_, .f32⟩
  | 57 => ⟨S2x4096x4, .f32⟩
  | 58 => ⟨S2x4096x1x4, .f32⟩
  | 59 => ⟨S_, .f32⟩
  | 60 => ⟨S2x4096x1x4, .f32⟩
  | 61 => ⟨S2x4096x1x4, .f32⟩
  | 62 => ⟨S2x4096x4x4, .f32⟩
  | 63 => ⟨S2x4096x4x4, .f32⟩
  | 64 => ⟨S_, .f32⟩
  | 65 => ⟨S2x4096x4, .f32⟩
  | 66 => ⟨S2x4096x4x1, .f32⟩
  | 67 => ⟨S_, .f32⟩
  | 68 => ⟨S2x4096x4x1, .f32⟩
  | 69 => ⟨S2x4096x4x1, .f32⟩
  | 70 => ⟨S2x4096x4x4, .f32⟩
  | 71 => ⟨S2x4096x4x4, .f32⟩
  | 72 => ⟨S_, .f32⟩
  | 73 => ⟨S2x4096x4, .f32⟩
  | 74 => ⟨S2x4096x1x4, .f32⟩
  | 75 => ⟨S_, .f32⟩
  | 76 => ⟨S2x4096x1x4, .f32⟩
  | 77 => ⟨S2x4096x1x4, .f32⟩
  | 78 => ⟨S2x4096x4x4, .f32⟩
  | 79 => ⟨S2x4096x4x4, .f32⟩
  | 80 => ⟨S_, .f32⟩
  | 81 => ⟨S2x4096x4, .f32⟩
  | 82 => ⟨S2x4096x4x1, .f32⟩
  | 83 => ⟨S_, .f32⟩
  | 84 => ⟨S2x4096x4x1, .f32⟩
  | 85 => ⟨S2x4096x4x1, .f32⟩
  | 86 => ⟨S2x4096x4x4, .f32⟩
  | 87 => ⟨S2x4096x4x4, .f32⟩
  | 88 => ⟨S_, .f32⟩
  | 89 => ⟨S2x4096x4, .f32⟩
  | 90 => ⟨S2x4096x1x4, .f32⟩
  | 91 => ⟨S_, .f32⟩
  | 92 => ⟨S2x4096x1x4, .f32⟩
  | 93 => ⟨S2x4096x1x4, .f32⟩
  | 94 => ⟨S2x4096x4x4, .f32⟩
  | 95 => ⟨S2x4096x4x4, .f32⟩
  | 96 => ⟨S_, .f32⟩
  | 97 => ⟨S2x4096x4, .f32⟩
  | 98 => ⟨S2x4096x4x1, .f32⟩
  | 99 => ⟨S_, .f32⟩
  | 100 => ⟨S2x4096x4x1, .f32⟩
  | 101 => ⟨S2x4096x4x1, .f32⟩
  | 102 => ⟨S2x4096x4x4, .f32⟩
  | 103 => ⟨S2x4096x4x4, .f32⟩
  | 104 => ⟨S_, .f32⟩
  | 105 => ⟨S2x4096x4, .f32⟩
  | 106 => ⟨S2x4096x1x4, .f32⟩
  | 107 => ⟨S_, .f32⟩
  | 108 => ⟨S2x4096x1x4, .f32⟩
  | 109 => ⟨S2x4096x1x4, .f32⟩
  | 110 => ⟨S2x4096x4x4, .f32⟩
  | 111 => ⟨S2x4096x4x4, .f32⟩
  | 112 => ⟨S_, .f32⟩
  | 113 => ⟨S2x4096x4, .f32⟩
  | 114 => ⟨S2x4096x4x1, .f32⟩
  | 115 => ⟨S_, .f32⟩
  | 116 => ⟨S2x4096x4x1, .f32⟩
  | 117 => ⟨S2x4096x4x1, .f32⟩
  | 118 => ⟨S2x4096x4x4, .f32⟩
  | 119 => ⟨S2x4096x4x4, .f32⟩
  | 120 => ⟨S_, .f32⟩
  | 121 => ⟨S2x4096x4, .f32⟩
  | 122 => ⟨S2x4096x1x4, .f32⟩
  | 123 => ⟨S_, .f32⟩
  | 124 => ⟨S2x4096x1x4, .f32⟩
  | 125 => ⟨S2x4096x1x4, .f32⟩
  | 126 => ⟨S2x4096x4x4, .f32⟩
  | 127 => ⟨S2x4096x4x4, .f32⟩
  | _ => ⟨S2x4096x4x2048, .f32⟩

abbrev hbmTy0_3 (i : Nat) : BufTy := match i % 128 with
  | 0 => ⟨S_, .f32⟩
  | 1 => ⟨S2x4096x4, .f32⟩
  | 2 => ⟨S2x4096x4x1, .f32⟩
  | 3 => ⟨S_, .f32⟩
  | 4 => ⟨S2x4096x4x1, .f32⟩
  | 5 => ⟨S2x4096x4x1, .f32⟩
  | 6 => ⟨S2x4096x4x4, .f32⟩
  | 7 => ⟨S2x4096x4x4, .f32⟩
  | 8 => ⟨S_, .f32⟩
  | 9 => ⟨S2x4096x4, .f32⟩
  | 10 => ⟨S2x4096x1x4, .f32⟩
  | 11 => ⟨S_, .f32⟩
  | 12 => ⟨S2x4096x1x4, .f32⟩
  | 13 => ⟨S2x4096x1x4, .f32⟩
  | 14 => ⟨S2x4096x4x4, .f32⟩
  | 15 => ⟨S2x4096x4x4, .f32⟩
  | 16 => ⟨S2x4096x4x1, .f32⟩
  | 17 => ⟨S2x4096x4x2048, .f32⟩
  | 18 => ⟨S2x4096x4x2048, .f32⟩
  | 19 => ⟨S_, .f32⟩
  | 20 => ⟨S2x4096x2048, .f32⟩
  | 21 => ⟨S2x4096x4x1, .f32⟩
  | 22 => ⟨S2x4096x1x2048, .f32⟩
  | 23 => ⟨S2x4096x4x2048, .f32⟩
  | 24 => ⟨S2x4096x4x2048, .f32⟩
  | 25 => ⟨S2x4096x4x2048, .f32⟩
  | 26 => ⟨S2x4096x4x2048, .f32⟩
  | 27 => ⟨S2x4096x4x2048, .f32⟩
  | _ => ⟨S2x4096x4x2048, .f32⟩

abbrev hbmTy (i : Nat) : BufTy := match i / 128 with
  | 0 => hbmTy0_0 i
  | 1 => hbmTy0_1 i
  | 2 => hbmTy0_2 i
  | 3 => hbmTy0_3 i
  | _ => ⟨S2x4096x4x2048, .f32⟩

abbrev bufTy : (tb : Table) → Fin (tcTables nBuf tb) → BufTy
  | .hbm, ⟨i, _⟩ => hbmTy i
  | _, _ => ⟨S2x4096x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_v44 : Ref sig .tc := ⟨.hbm, 53, rfl⟩
abbrev main_cst_3 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_11 : Ref sig .tc := ⟨.hbm, 85, rfl⟩
abbrev main_v68 : Ref sig .tc := ⟨.hbm, 86, rfl⟩
abbrev main_v69 : Ref sig .tc := ⟨.hbm, 87, rfl⟩
abbrev main_cst_12 : Ref sig .tc := ⟨.hbm, 88, rfl⟩
abbrev main_v70 : Ref sig .tc := ⟨.hbm, 89, rfl⟩
abbrev main_v71 : Ref sig .tc := ⟨.hbm, 90, rfl⟩
abbrev main_cst_13 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_14 : Ref sig .tc := ⟨.hbm, 96, rfl⟩
abbrev main_v76 : Ref sig .tc := ⟨.hbm, 97, rfl⟩
abbrev main_v77 : Ref sig .tc := ⟨.hbm, 98, rfl⟩
abbrev main_cst_15 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_16 : Ref sig .tc := ⟨.hbm, 104, rfl⟩
abbrev main_v82 : Ref sig .tc := ⟨.hbm, 105, rfl⟩
abbrev main_v83 : Ref sig .tc := ⟨.hbm, 106, rfl⟩
abbrev main_cst_17 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_18 : Ref sig .tc := ⟨.hbm, 112, rfl⟩
abbrev main_v88 : Ref sig .tc := ⟨.hbm, 113, rfl⟩
abbrev main_v89 : Ref sig .tc := ⟨.hbm, 114, rfl⟩
abbrev main_cst_19 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_20 : Ref sig .tc := ⟨.hbm, 120, rfl⟩
abbrev main_v94 : Ref sig .tc := ⟨.hbm, 121, rfl⟩
abbrev main_v95 : Ref sig .tc := ⟨.hbm, 122, rfl⟩
abbrev main_cst_21 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_22 : Ref sig .tc := ⟨.hbm, 128, rfl⟩
abbrev main_v100 : Ref sig .tc := ⟨.hbm, 129, rfl⟩
abbrev main_v101 : Ref sig .tc := ⟨.hbm, 130, rfl⟩
abbrev main_cst_23 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_24 : Ref sig .tc := ⟨.hbm, 136, rfl⟩
abbrev main_v106 : Ref sig .tc := ⟨.hbm, 137, rfl⟩
abbrev main_v107 : Ref sig .tc := ⟨.hbm, 138, rfl⟩
abbrev main_cst_25 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_26 : Ref sig .tc := ⟨.hbm, 144, rfl⟩
abbrev main_v112 : Ref sig .tc := ⟨.hbm, 145, rfl⟩
abbrev main_v113 : Ref sig .tc := ⟨.hbm, 146, rfl⟩
abbrev main_cst_27 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_28 : Ref sig .tc := ⟨.hbm, 152, rfl⟩
abbrev main_v118 : Ref sig .tc := ⟨.hbm, 153, rfl⟩
abbrev main_v119 : Ref sig .tc := ⟨.hbm, 154, rfl⟩
abbrev main_cst_29 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_30 : Ref sig .tc := ⟨.hbm, 160, rfl⟩
abbrev main_v124 : Ref sig .tc := ⟨.hbm, 161, rfl⟩
abbrev main_v125 : Ref sig .tc := ⟨.hbm, 162, rfl⟩
abbrev main_cst_31 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_32 : Ref sig .tc := ⟨.hbm, 168, rfl⟩
abbrev main_v130 : Ref sig .tc := ⟨.hbm, 169, rfl⟩
abbrev main_v131 : Ref sig .tc := ⟨.hbm, 170, rfl⟩
abbrev main_cst_33 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_34 : Ref sig .tc := ⟨.hbm, 176, rfl⟩
abbrev main_v136 : Ref sig .tc := ⟨.hbm, 177, rfl⟩
abbrev main_v137 : Ref sig .tc := ⟨.hbm, 178, rfl⟩
abbrev main_cst_35 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_cst_36 : Ref sig .tc := ⟨.hbm, 184, rfl⟩
abbrev main_v142 : Ref sig .tc := ⟨.hbm, 185, rfl⟩
abbrev main_v143 : Ref sig .tc := ⟨.hbm, 186, rfl⟩
abbrev main_cst_37 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_cst_38 : Ref sig .tc := ⟨.hbm, 192, rfl⟩
abbrev main_v148 : Ref sig .tc := ⟨.hbm, 193, rfl⟩
abbrev main_v149 : Ref sig .tc := ⟨.hbm, 194, rfl⟩
abbrev main_cst_39 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_cst_40 : Ref sig .tc := ⟨.hbm, 200, rfl⟩
abbrev main_v154 : Ref sig .tc := ⟨.hbm, 201, rfl⟩
abbrev main_v155 : Ref sig .tc := ⟨.hbm, 202, rfl⟩
abbrev main_cst_41 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_cst_42 : Ref sig .tc := ⟨.hbm, 208, rfl⟩
abbrev main_v160 : Ref sig .tc := ⟨.hbm, 209, rfl⟩
abbrev main_v161 : Ref sig .tc := ⟨.hbm, 210, rfl⟩
abbrev main_cst_43 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_cst_44 : Ref sig .tc := ⟨.hbm, 216, rfl⟩
abbrev main_v166 : Ref sig .tc := ⟨.hbm, 217, rfl⟩
abbrev main_v167 : Ref sig .tc := ⟨.hbm, 218, rfl⟩
abbrev main_cst_45 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_cst_46 : Ref sig .tc := ⟨.hbm, 224, rfl⟩
abbrev main_v172 : Ref sig .tc := ⟨.hbm, 225, rfl⟩
abbrev main_v173 : Ref sig .tc := ⟨.hbm, 226, rfl⟩
abbrev main_cst_47 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_cst_48 : Ref sig .tc := ⟨.hbm, 232, rfl⟩
abbrev main_v178 : Ref sig .tc := ⟨.hbm, 233, rfl⟩
abbrev main_v179 : Ref sig .tc := ⟨.hbm, 234, rfl⟩
abbrev main_cst_49 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_cst_50 : Ref sig .tc := ⟨.hbm, 240, rfl⟩
abbrev main_v184 : Ref sig .tc := ⟨.hbm, 241, rfl⟩
abbrev main_v185 : Ref sig .tc := ⟨.hbm, 242, rfl⟩
abbrev main_cst_51 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_cst_52 : Ref sig .tc := ⟨.hbm, 248, rfl⟩
abbrev main_v190 : Ref sig .tc := ⟨.hbm, 249, rfl⟩
abbrev main_v191 : Ref sig .tc := ⟨.hbm, 250, rfl⟩
abbrev main_cst_53 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_cst_54 : Ref sig .tc := ⟨.hbm, 256, rfl⟩
abbrev main_v196 : Ref sig .tc := ⟨.hbm, 257, rfl⟩
abbrev main_v197 : Ref sig .tc := ⟨.hbm, 258, rfl⟩
abbrev main_cst_55 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_cst_56 : Ref sig .tc := ⟨.hbm, 264, rfl⟩
abbrev main_v202 : Ref sig .tc := ⟨.hbm, 265, rfl⟩
abbrev main_v203 : Ref sig .tc := ⟨.hbm, 266, rfl⟩
abbrev main_cst_57 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_cst_58 : Ref sig .tc := ⟨.hbm, 272, rfl⟩
abbrev main_v208 : Ref sig .tc := ⟨.hbm, 273, rfl⟩
abbrev main_v209 : Ref sig .tc := ⟨.hbm, 274, rfl⟩
abbrev main_cst_59 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_cst_60 : Ref sig .tc := ⟨.hbm, 280, rfl⟩
abbrev main_v214 : Ref sig .tc := ⟨.hbm, 281, rfl⟩
abbrev main_v215 : Ref sig .tc := ⟨.hbm, 282, rfl⟩
abbrev main_cst_61 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_cst_62 : Ref sig .tc := ⟨.hbm, 288, rfl⟩
abbrev main_v220 : Ref sig .tc := ⟨.hbm, 289, rfl⟩
abbrev main_v221 : Ref sig .tc := ⟨.hbm, 290, rfl⟩
abbrev main_cst_63 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_cst_64 : Ref sig .tc := ⟨.hbm, 296, rfl⟩
abbrev main_v226 : Ref sig .tc := ⟨.hbm, 297, rfl⟩
abbrev main_v227 : Ref sig .tc := ⟨.hbm, 298, rfl⟩
abbrev main_cst_65 : Ref sig .tc := ⟨.hbm, 299, rfl⟩
abbrev main_v228 : Ref sig .tc := ⟨.hbm, 300, rfl⟩
abbrev main_v229 : Ref sig .tc := ⟨.hbm, 301, rfl⟩
abbrev main_v230 : Ref sig .tc := ⟨.hbm, 302, rfl⟩
abbrev main_v231 : Ref sig .tc := ⟨.hbm, 303, rfl⟩
abbrev main_cst_66 : Ref sig .tc := ⟨.hbm, 304, rfl⟩
abbrev main_v232 : Ref sig .tc := ⟨.hbm, 305, rfl⟩
abbrev main_v233 : Ref sig .tc := ⟨.hbm, 306, rfl⟩
abbrev main_cst_67 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_cst_68 : Ref sig .tc := ⟨.hbm, 312, rfl⟩
abbrev main_v238 : Ref sig .tc := ⟨.hbm, 313, rfl⟩
abbrev main_v239 : Ref sig .tc := ⟨.hbm, 314, rfl⟩
abbrev main_cst_69 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_cst_70 : Ref sig .tc := ⟨.hbm, 320, rfl⟩
abbrev main_v244 : Ref sig .tc := ⟨.hbm, 321, rfl⟩
abbrev main_v245 : Ref sig .tc := ⟨.hbm, 322, rfl⟩
abbrev main_cst_71 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_cst_72 : Ref sig .tc := ⟨.hbm, 328, rfl⟩
abbrev main_v250 : Ref sig .tc := ⟨.hbm, 329, rfl⟩
abbrev main_v251 : Ref sig .tc := ⟨.hbm, 330, rfl⟩
abbrev main_cst_73 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_cst_74 : Ref sig .tc := ⟨.hbm, 336, rfl⟩
abbrev main_v256 : Ref sig .tc := ⟨.hbm, 337, rfl⟩
abbrev main_v257 : Ref sig .tc := ⟨.hbm, 338, rfl⟩
abbrev main_cst_75 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_v261 : Ref sig .tc := ⟨.hbm, 343, rfl⟩
abbrev main_cst_76 : Ref sig .tc := ⟨.hbm, 344, rfl⟩
abbrev main_v262 : Ref sig .tc := ⟨.hbm, 345, rfl⟩
abbrev main_v263 : Ref sig .tc := ⟨.hbm, 346, rfl⟩
abbrev main_cst_77 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_cst_78 : Ref sig .tc := ⟨.hbm, 352, rfl⟩
abbrev main_v268 : Ref sig .tc := ⟨.hbm, 353, rfl⟩
abbrev main_v269 : Ref sig .tc := ⟨.hbm, 354, rfl⟩
abbrev main_cst_79 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_cst_80 : Ref sig .tc := ⟨.hbm, 360, rfl⟩
abbrev main_v274 : Ref sig .tc := ⟨.hbm, 361, rfl⟩
abbrev main_v275 : Ref sig .tc := ⟨.hbm, 362, rfl⟩
abbrev main_cst_81 : Ref sig .tc := ⟨.hbm, 363, rfl⟩
abbrev main_v276 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_cst_82 : Ref sig .tc := ⟨.hbm, 368, rfl⟩
abbrev main_v280 : Ref sig .tc := ⟨.hbm, 369, rfl⟩
abbrev main_v281 : Ref sig .tc := ⟨.hbm, 370, rfl⟩
abbrev main_cst_83 : Ref sig .tc := ⟨.hbm, 371, rfl⟩
abbrev main_v282 : Ref sig .tc := ⟨.hbm, 372, rfl⟩
abbrev main_v283 : Ref sig .tc := ⟨.hbm, 373, rfl⟩
abbrev main_v284 : Ref sig .tc := ⟨.hbm, 374, rfl⟩
abbrev main_v285 : Ref sig .tc := ⟨.hbm, 375, rfl⟩
abbrev main_cst_84 : Ref sig .tc := ⟨.hbm, 376, rfl⟩
abbrev main_v286 : Ref sig .tc := ⟨.hbm, 377, rfl⟩
abbrev main_v287 : Ref sig .tc := ⟨.hbm, 378, rfl⟩
abbrev main_cst_85 : Ref sig .tc := ⟨.hbm, 379, rfl⟩
abbrev main_v288 : Ref sig .tc := ⟨.hbm, 380, rfl⟩
abbrev main_v289 : Ref sig .tc := ⟨.hbm, 381, rfl⟩
abbrev main_v290 : Ref sig .tc := ⟨.hbm, 382, rfl⟩
abbrev main_v291 : Ref sig .tc := ⟨.hbm, 383, rfl⟩
abbrev main_cst_86 : Ref sig .tc := ⟨.hbm, 384, rfl⟩
abbrev main_v292 : Ref sig .tc := ⟨.hbm, 385, rfl⟩
abbrev main_v293 : Ref sig .tc := ⟨.hbm, 386, rfl⟩
abbrev main_cst_87 : Ref sig .tc := ⟨.hbm, 387, rfl⟩
abbrev main_v294 : Ref sig .tc := ⟨.hbm, 388, rfl⟩
abbrev main_v295 : Ref sig .tc := ⟨.hbm, 389, rfl⟩
abbrev main_v296 : Ref sig .tc := ⟨.hbm, 390, rfl⟩
abbrev main_v297 : Ref sig .tc := ⟨.hbm, 391, rfl⟩
abbrev main_cst_88 : Ref sig .tc := ⟨.hbm, 392, rfl⟩
abbrev main_v298 : Ref sig .tc := ⟨.hbm, 393, rfl⟩
abbrev main_v299 : Ref sig .tc := ⟨.hbm, 394, rfl⟩
abbrev main_cst_89 : Ref sig .tc := ⟨.hbm, 395, rfl⟩
abbrev main_v300 : Ref sig .tc := ⟨.hbm, 396, rfl⟩
abbrev main_v301 : Ref sig .tc := ⟨.hbm, 397, rfl⟩
abbrev main_v302 : Ref sig .tc := ⟨.hbm, 398, rfl⟩
abbrev main_v303 : Ref sig .tc := ⟨.hbm, 399, rfl⟩
abbrev main_v304 : Ref sig .tc := ⟨.hbm, 400, rfl⟩
abbrev main_v305 : Ref sig .tc := ⟨.hbm, 401, rfl⟩
abbrev main_v306 : Ref sig .tc := ⟨.hbm, 402, rfl⟩
abbrev main_cst_90 : Ref sig .tc := ⟨.hbm, 403, rfl⟩
abbrev main_v307 : Ref sig .tc := ⟨.hbm, 404, rfl⟩
abbrev main_v308 : Ref sig .tc := ⟨.hbm, 405, rfl⟩
abbrev main_v309 : Ref sig .tc := ⟨.hbm, 406, rfl⟩
abbrev main_v310 : Ref sig .tc := ⟨.hbm, 407, rfl⟩
abbrev main_v311 : Ref sig .tc := ⟨.hbm, 408, rfl⟩
abbrev main_v312 : Ref sig .tc := ⟨.hbm, 409, rfl⟩
abbrev main_v313 : Ref sig .tc := ⟨.hbm, 410, rfl⟩
abbrev main_v314 : Ref sig .tc := ⟨.hbm, 411, rfl⟩

abbrev nD : Nat := 1
abbrev τ : Topo := Topo.v7x

variable {F : FTy → Type} [FloatOps F]

class Facts₀ : Prop where
  shapeCasts_S2x4096x4x2048_S2x4096x8192 : S2x4096x4x2048.ShapeCasts S2x4096x8192
  reducesTo_S2x4096x8192_S2x4096_d2 : S2x4096x8192.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x8192_0_1_2 : S2x4096x1.BroadcastsInDim S2x4096x8192 (![0, 1, 2] : Fin 3 → Fin S2x4096x8192.rank)
  slices_S2x4096x24_S2x4096x4_0_0_0 : S2x4096x24.Slices ![0, 0, 0] S2x4096x4
  slices_S3_S1_0 : S3.Slices ![0] S1
  shapeCasts_S1_S_ : S1.ShapeCasts S_
  bcast_S_S2x4096x4 : S_.BroadcastsInDim S2x4096x4 (![] : Fin 0 → Fin S2x4096x4.rank)
  slices_S24_S4_0 : S24.Slices ![0] S4
  bcast_S4_S1x1x4_2 : S4.BroadcastsInDim S1x1x4 (![2] : Fin 1 → Fin S1x1x4.rank)
  bcast_S1x1x4_S2x4096x4_0_1_2 : S1x1x4.BroadcastsInDim S2x4096x4 (![0, 1, 2] : Fin 3 → Fin S2x4096x4.rank)
  slices_S2x4096x24_S2x4096x4_0_0_4 : S2x4096x24.Slices ![0, 0, 4] S2x4096x4
  slices_S3_S1_1 : S3.Slices ![1] S1
  slices_S24_S4_4 : S24.Slices ![4] S4
  slices_S2x4096x24_S2x4096x16_0_0_8 : S2x4096x24.Slices ![0, 0, 8] S2x4096x16
  shapeCasts_S2x4096x16_S2x4096x4x4 : S2x4096x16.ShapeCasts S2x4096x4x4
  slices_S3_S1_2 : S3.Slices ![2] S1
  bcast_S_S2x4096x4x4 : S_.BroadcastsInDim S2x4096x4x4 (![] : Fin 0 → Fin S2x4096x4x4.rank)
  slices_S24_S16_8 : S24.Slices ![8] S16
  shapeCasts_S16_S4x4 : S16.ShapeCasts S4x4
  bcast_S4x4_S1x1x4x4_2_3 : S4x4.BroadcastsInDim S1x1x4x4 (![2, 3] : Fin 2 → Fin S1x1x4x4.rank)
  bcast_S1x1x4x4_S2x4096x4x4_0_1_2_3 : S1x1x4x4.BroadcastsInDim S2x4096x4x4 (![0, 1, 2, 3] : Fin 4 → Fin S2x4096x4x4.rank)
  reducesTo_S2x4096x4x4_S2x4096x4_d3 : S2x4096x4x4.ReducesTo [3] S2x4096x4
  bcast_S2x4096x4_S2x4096x4x1_0_1_2 : S2x4096x4.BroadcastsInDim S2x4096x4x1 (![0, 1, 2] : Fin 3 → Fin S2x4096x4x1.rank)
  bcast_S2x4096x4x1_S2x4096x4x4_0_1_2_3 : S2x4096x4x1.BroadcastsInDim S2x4096x4x4 (![0, 1, 2, 3] : Fin 4 → Fin S2x4096x4x4.rank)
  reducesTo_S2x4096x4x4_S2x4096x4_d2 : S2x4096x4x4.ReducesTo [2] S2x4096x4
  bcast_S2x4096x4_S2x4096x1x4_0_1_3 : S2x4096x4.BroadcastsInDim S2x4096x1x4 (![0, 1, 3] : Fin 3 → Fin S2x4096x1x4.rank)
  bcast_S_S2x4096x1x4 : S_.BroadcastsInDim S2x4096x1x4 (![] : Fin 0 → Fin S2x4096x1x4.rank)
  bcast_S2x4096x1x4_S2x4096x4x4_0_1_2_3 : S2x4096x1x4.BroadcastsInDim S2x4096x4x4 (![0, 1, 2, 3] : Fin 4 → Fin S2x4096x4x4.rank)
  bcast_S_S2x4096x4x1 : S_.BroadcastsInDim S2x4096x4x1 (![] : Fin 0 → Fin S2x4096x4x1.rank)
  bcast_S2x4096x4x1_S2x4096x4x2048_0_1_2_3 : S2x4096x4x1.BroadcastsInDim S2x4096x4x2048 (![0, 1, 2, 3] : Fin 4 → Fin S2x4096x4x2048.rank)
  reducesTo_S2x4096x4x2048_S2x4096x2048_d2 : S2x4096x4x2048.ReducesTo [2] S2x4096x2048
  bcast_S2x4096x2048_S2x4096x1x2048_0_1_3 : S2x4096x2048.BroadcastsInDim S2x4096x1x2048 (![0, 1, 3] : Fin 3 → Fin S2x4096x1x2048.rank)
  bcast_S2x4096x1x2048_S2x4096x4x2048_0_1_2_3 : S2x4096x1x2048.BroadcastsInDim S2x4096x4x2048 (![0, 1, 2, 3] : Fin 4 → Fin S2x4096x4x2048.rank)
  dot_S2x4096x8192_S24x8192_S2x4096x24_2_1_01_0_n_n_wf : DotDims.WF S2x4096x8192 S24x8192 S2x4096x24 [2] [1] [0, 1] [0] [] []
  dot_S2x4096x4x4_S2x4096x4x2048_S2x4096x4x2048_3_2_2_3_01_01_wf : DotDims.WF S2x4096x4x4 S2x4096x4x2048 S2x4096x4x2048 [3] [2] [2] [3] [0, 1] [0, 1]

variable [Facts₀]

def dot_S2x4096x8192_S24x8192_S2x4096x24_2_1_01_0_n_n : DotDims S2x4096x8192 S24x8192 S2x4096x24 where
  lhsContracting := [2]
  rhsContracting := [1]
  lhsNonContracting := [0, 1]
  rhsNonContracting := [0]
  lhsBatch := []
  rhsBatch := []
  wf := dot_S2x4096x8192_S24x8192_S2x4096x24_2_1_01_0_n_n_wf
def dot_S2x4096x4x4_S2x4096x4x2048_S2x4096x4x2048_3_2_2_3_01_01 : DotDims S2x4096x4x4 S2x4096x4x2048 S2x4096x4x2048 where
  lhsContracting := [3]
  rhsContracting := [2]
  lhsNonContracting := [2]
  rhsNonContracting := [3]
  lhsBatch := [0, 1]
  rhsBatch := [0, 1]
  wf := dot_S2x4096x4x4_S2x4096x4x2048_S2x4096x4x2048_3_2_2_3_01_01_wf

class Facts : Prop extends Facts₀ where

variable [Facts]
-- ==== Proof.Spec.lean ====
/-
  The mathematics both programs compute, one token row at a time.

  A row carries four streams of 2048 numbers, flattened to 8192 entries x f (stream k, position d at
  f = 2048 k + d), and one row o of 2048 entries of the sub-block output.  With the weights W (24 rows of
  8192), three scales and 24 biases:

    r        = rsqrt ((sum_f x_f^2) / 8192 + eps)                      the RMS normaliser
    logit_j  = sum_f (x_f r) W_{j f}                                   24 projections
    pre_k    = sigmoid (logit_k s_0 + b_k) + eps                       k < 4
    post_h   = 2 sigmoid (logit_{4+h} s_1 + b_{4+h})                   h < 4
    A_{hk}   = logit_{8+4h+k} s_2 + b_{8+4h+k}                         a 4 x 4 matrix
    C        = thirty-nine alternating column / row normalisations of (softmax of A's rows + eps)
    collapsed_d = sum_k pre_k x_{k d}
    y_{h d}     = post_h o_d + sum_k C_{hk} x_{k d}

  Every operation is the extended reals' (no finiteness is used anywhere: the two programs apply the same
  operations to the same numbers, in different array layouts).
-/
import Idealize.ShloMosaic.PureOps.Ideal
import Idealize.ShloMosaic.Lib.ValueIdx

noncomputable section

namespace Cert.Mix

open Idealize.ShloMosaic Idealize.ShloMosaic.ValueIdx

/-- A 4 x 4 matrix of extended reals: one row's stream-mixing weights. -/
abbrev Mat := Fin 4 → Fin 4 → EReal

/-- The literal 1e-6 of both programs, as the extended real its binary32 word denotes. -/
def eps : EReal := Ideal.ofBits .f32 0x358637BD#32
/-- The word of minus infinity, the initial value of both programs' row maximum. -/
def negInf : EReal := Ideal.ofBits .f32 0xFF800000#32
/-- 8192.0, 2.0 and 1.0 as their binary32 words denote them. -/
def n8192 : EReal := Ideal.ofBits .f32 0x46000000#32
def two : EReal := Ideal.ofBits .f32 0x40000000#32

/-- Divide every entry by its column's sum plus eps (the sum runs over the first index). -/
def colStep (a : Mat) : Mat := fun h k => Ideal.div (a h k) ((∑ h' : Fin 4, a h' k) + eps)
/-- Divide every entry by its row's sum plus eps (the sum runs over the second index). -/
def rowStep (a : Mat) : Mat := fun h k => Ideal.div (a h k) ((∑ k' : Fin 4, a h k') + eps)
/-- One row normalisation followed by one column normalisation. -/
def cycle (a : Mat) : Mat := colStep (rowStep a)

/-- The Sinkhorn iteration of both programs: one priming column normalisation, then nineteen cycles. -/
def sinkhorn (a : Mat) : Mat :=
  cycle (cycle (cycle (cycle (cycle (cycle (cycle (cycle (cycle (cycle (cycle (cycle (cycle (cycle (cycle (cycle
    (cycle (cycle (cycle (colStep a)))))))))))))))))))

/-- A row's maximum, folded from minus infinity. -/
def rowMax (a : Mat) (h : Fin 4) : EReal := (Finset.univ : Finset (Fin 4)).fold max negInf (fun k => a h k)
/-- exp (entry - its row's maximum). -/
def expShift (a : Mat) : Mat := fun h k => Ideal.exp (a h k - rowMax a h)
/-- The softmax of each row, plus eps. -/
def softmaxEps (a : Mat) : Mat := fun h k => Ideal.div (expShift a h k) (∑ k' : Fin 4, expShift a h k') + eps

section Row
variable (x : Fin 8192 → EReal) (o : Fin 2048 → EReal) (W : Fin 24 → Fin 8192 → EReal)
  (sc : Fin 3 → EReal) (bs : Fin 24 → EReal)

/-- The RMS normaliser of the row. -/
def rinv : EReal := Ideal.rsqrt (Ideal.div (∑ f : Fin 8192, x f * x f) n8192 + eps)
/-- Projection j of the normalised row. -/
def logit (j : Fin 24) : EReal := ∑ f : Fin 8192, (x f * rinv x) * W j f

/-- The collapse weights. -/
def pre (k : Fin 4) : EReal :=
  Ideal.logistic (logit x W ⟨k.val, by omega⟩ * sc 0 + bs ⟨k.val, by omega⟩) + eps
/-- The write-back weights. -/
def post (h : Fin 4) : EReal :=
  two * Ideal.logistic (logit x W ⟨4 + h.val, by omega⟩ * sc 1 + bs ⟨4 + h.val, by omega⟩)
/-- The mixing logits. -/
def combLogit : Mat := fun h k =>
  logit x W ⟨8 + (4 * h.val + k.val), by omega⟩ * sc 2 + bs ⟨8 + (4 * h.val + k.val), by omega⟩
/-- The mixing matrix. -/
def comb : Mat := sinkhorn (softmaxEps (combLogit x W sc bs))

/-- Stream k of the flattened row at position d. -/
def stream (k : Fin 4) (d : Fin 2048) : EReal := x ⟨2048 * k.val + d.val, by omega⟩

/-- The collapsed row. -/
def collapsed (d : Fin 2048) : EReal := ∑ k : Fin 4, pre x W sc bs k * stream x k d
/-- The expanded rows. -/
def expand (h : Fin 4) (d : Fin 2048) : EReal :=
  post x W sc bs h * o d + ∑ k : Fin 4, comb x W sc bs h k * stream x k d

end Row

/-! ## The two results as whole-array functions of the five argument arrays -/

/-- Row (b, s) of the first argument, flattened: entry f is stream f / 2048 at position f % 2048. -/
def xrow (a0 : (⟨4, ![2, 4096, 4, 2048]⟩ : Shape).Idx → EReal) (b : Fin 2) (s : Fin 4096) : Fin 8192 → EReal :=
  fun f => a0 (ix4 b s ⟨f.val / 2048, by omega⟩ ⟨f.val % 2048, Nat.mod_lt _ (by norm_num)⟩)
/-- Row (b, s) of the second argument. -/
def orow (a1 : (⟨3, ![2, 4096, 2048]⟩ : Shape).Idx → EReal) (b : Fin 2) (s : Fin 4096) : Fin 2048 → EReal :=
  fun d => a1 (ix3 b s d)
/-- The weights, scales and biases as functions of coordinates. -/
def wmat (a2 : (⟨2, ![24, 8192]⟩ : Shape).Idx → EReal) : Fin 24 → Fin 8192 → EReal := fun j f => a2 (ix2 j f)
def vec3 (a3 : (⟨1, ![3]⟩ : Shape).Idx → EReal) : Fin 3 → EReal := fun i => a3 (ix1 i)
def vec24 (a4 : (⟨1, ![24]⟩ : Shape).Idx → EReal) : Fin 24 → EReal := fun j => a4 (ix1 j)

/-- The first result, y, at (b, s, h, d). -/
def Gy (a0 : (⟨4, ![2, 4096, 4, 2048]⟩ : Shape).Idx → EReal) (a1 : (⟨3, ![2, 4096, 2048]⟩ : Shape).Idx → EReal)
    (a2 : (⟨2, ![24, 8192]⟩ : Shape).Idx → EReal) (a3 : (⟨1, ![3]⟩ : Shape).Idx → EReal)
    (a4 : (⟨1, ![24]⟩ : Shape).Idx → EReal) : (⟨4, ![2, 4096, 4, 2048]⟩ : Shape).Idx → EReal :=
  fun i => expand (xrow a0 (i 0) (i 1)) (orow a1 (i 0) (i 1)) (wmat a2) (vec3 a3) (vec24 a4) (i 2) (i 3)

/-- The second result, collapsed, at (b, s, d). -/
def Gc (a0 : (⟨4, ![2, 4096, 4, 2048]⟩ : Shape).Idx → EReal)
    (a2 : (⟨2, ![24, 8192]⟩ : Shape).Idx → EReal) (a3 : (⟨1, ![3]⟩ : Shape).Idx → EReal)
    (a4 : (⟨1, ![24]⟩ : Shape).Idx → EReal) : (⟨3, ![2, 4096, 2048]⟩ : Shape).Idx → EReal :=
  fun i => collapsed (xrow a0 (i 0) (i 1)) (wmat a2) (vec3 a3) (vec24 a4) (i 2)

end Cert.Mix

end
-- ==== Proof.KStep.lean ====
/-
  One Sinkhorn normalisation of the kernel's 64 x 4 x 4 array of mixing weights, row by row.

  The kernel divides the array by the broadcast of (its sums along the middle axis, plus eps) — a column
  normalisation of every row's 4 x 4 matrix — or by the broadcast of (its sums along the last axis, plus
  eps) — a row normalisation.  Read at token row t, each is the corresponding step on that row's matrix.
-/
import proofs.«117766_j9637906612574_2_alg».proof.Proof.Gen.KernelIdeal.Skeleton
import proofs.«117766_j9637906612574_2_alg».proof.Proof.Spec
import Idealize.ShloMosaic.Lib.Pipeline.Value
import Idealize.ShloMosaic.PureOps.Ideal.Laws

noncomputable section

namespace Cert.KernelIdeal.Bridge

open Idealize.ShloMosaic Idealize.ShloMosaic.ValueIdx Cert.KernelIdeal Cert.KernelIdeal.Facts₀ Cert.Mix

/-- Divide by the column sums plus eps: the sums run along the middle axis. -/
def kCol (A : FVec Ideal S64x4x4 .f32) : FVec Ideal S64x4x4 .f32 :=
  divf A (broadcastTo S64x4x4
    (addf (shapeCast S64x1x4 (multiReduction (F := Ideal) .add [1] S64x4 A 0x00000000#32 reduces_S64x4x4_S64x4_2 (.inl rfl) rfl)
        shapeCasts_S64x4_S64x1x4)
      (broadcast S64x1x4 (Scalar.ofBits (F := Ideal) .f32 0x358637BD#32)))
    broadcasts_S64x1x4_S64x4x4)

/-- Divide by the row sums plus eps: the sums run along the last axis. -/
def kRow (A : FVec Ideal S64x4x4 .f32) : FVec Ideal S64x4x4 .f32 :=
  divf A (broadcastTo S64x4x4
    (addf (shapeCast S64x4x1 (multiReduction (F := Ideal) .add [2] S64x4 A 0x00000000#32 reduces_S64x4x4_S64x4 (.inl rfl) rfl)
        shapeCasts_S64x4_S64x4x1)
      (broadcast S64x4x1 (Scalar.ofBits (F := Ideal) .f32 0x358637BD#32)))
    broadcasts_S64x4x1_S64x4x4)

/-- Token row t's 4 x 4 matrix. -/
def cur (A : FVec Ideal S64x4x4 .f32) (t : Fin 64) : Mat := fun h k => A (ix3 t h k)

/-- The sums along the middle axis, at (t, k). -/
theorem sumMid_apply (A : FVec Ideal S64x4x4 .f32) (t : Fin 64) (k : Fin 4) :
    multiReduction (F := Ideal) .add [1] S64x4 A 0x00000000#32 reduces_S64x4x4_S64x4_2 (.inl rfl) rfl (ix2 t k)
      = ∑ h' : Fin 4, A (ix3 t h' k) := by
  refine (Ideal.multiReduction_add_single A 0x00000000#32 reduces_S64x4x4_S64x4_2 (.inl rfl) rfl (ix2 t k)).trans ?_
  refine Finset.sum_congr rfl fun h' _ => congrArg A (funext fun a => Fin.ext ?_)
  match a with
  | ⟨0, _⟩ => rfl
  | ⟨1, _⟩ => rfl
  | ⟨2, _⟩ => rfl

/-- The sums along the last axis, at (t, h). -/
theorem sumLast_apply (A : FVec Ideal S64x4x4 .f32) (t : Fin 64) (h : Fin 4) :
    multiReduction (F := Ideal) .add [2] S64x4 A 0x00000000#32 reduces_S64x4x4_S64x4 (.inl rfl) rfl (ix2 t h)
      = ∑ k' : Fin 4, A (ix3 t h k') := by
  refine (Ideal.multiReduction_add_single A 0x00000000#32 reduces_S64x4x4_S64x4 (.inl rfl) rfl (ix2 t h)).trans ?_
  refine Finset.sum_congr rfl fun k' _ => congrArg A (funext fun a => Fin.ext ?_)
  match a with
  | ⟨0, _⟩ => rfl
  | ⟨1, _⟩ => rfl
  | ⟨2, _⟩ => rfl

theorem cur_kCol (A : FVec Ideal S64x4x4 .f32) (t : Fin 64) : cur (kCol A) t = colStep (cur A t) := by
  funext h k
  show Ideal.div (A (ix3 t h k)) _ = Ideal.div (A (ix3 t h k)) _
  congr 1
  rw [broadcastTo_apply _ broadcasts_S64x1x4_S64x4x4 (ix3 t h k) (ix3 t 0 k) (fun a => by
    match a with
    | ⟨0, _⟩ => rfl
    | ⟨1, _⟩ => rfl
    | ⟨2, _⟩ => rfl)]
  rw [addf_apply, broadcast_apply]
  rw [shapeCast_apply _ shapeCasts_S64x4_S64x1x4 (ix3 t 0 k) (ix2 t k) (by
    rw [Shape.rowMajor_val_two, Shape.rowMajor_val_three]
    show t.val * 4 + k.val = (t.val * 1 + 0) * 4 + k.val
    omega)]
  rw [sumMid_apply]
  rfl

theorem cur_kRow (A : FVec Ideal S64x4x4 .f32) (t : Fin 64) : cur (kRow A) t = rowStep (cur A t) := by
  funext h k
  show Ideal.div (A (ix3 t h k)) _ = Ideal.div (A (ix3 t h k)) _
  congr 1
  rw [broadcastTo_apply _ broadcasts_S64x4x1_S64x4x4 (ix3 t h k) (ix3 t h 0) (fun a => by
    match a with
    | ⟨0, _⟩ => rfl
    | ⟨1, _⟩ => rfl
    | ⟨2, _⟩ => rfl)]
  rw [addf_apply, broadcast_apply]
  rw [shapeCast_apply _ shapeCasts_S64x4_S64x4x1 (ix3 t h 0) (ix2 t h) (by
    rw [Shape.rowMajor_val_two, Shape.rowMajor_val_three]
    show t.val * 4 + h.val = (t.val * 4 + h.val) * 1 + 0
    omega)]
  rw [sumLast_apply]
  rfl

end Cert.KernelIdeal.Bridge

end
-- ==== Proof.KChain.lean ====
/-
  The kernel's thirty-nine Sinkhorn normalisations as one chain of the two steps.

  The printed body carries the 64 x 4 x 4 array through its parts together with a half-finished step (a
  step's sums, or its denominators); every part's result is, by unfolding, a run of column and row steps.
-/
import proofs.«117766_j9637906612574_2_alg».proof.Proof.KStep

noncomputable section

namespace Cert.KernelIdeal.Bridge

open Idealize.ShloMosaic Idealize.ShloMosaic.ValueIdx Cert.KernelIdeal Cert.KernelIdeal.Facts₀ Cert.Mix

/-- The sums along the last axis, kept as a 64 x 4 x 1 array. -/
def rowSums (A : FVec Ideal S64x4x4 .f32) : FVec Ideal S64x4x1 .f32 :=
  shapeCast S64x4x1 (multiReduction (F := Ideal) .add [2] S64x4 A 0x00000000#32 reduces_S64x4x4_S64x4 (.inl rfl) rfl) shapeCasts_S64x4_S64x4x1
/-- The sums along the middle axis, kept as a 64 x 1 x 4 array. -/
def colSums (A : FVec Ideal S64x4x4 .f32) : FVec Ideal S64x1x4 .f32 :=
  shapeCast S64x1x4 (multiReduction (F := Ideal) .add [1] S64x4 A 0x00000000#32 reduces_S64x4x4_S64x4_2 (.inl rfl) rfl) shapeCasts_S64x4_S64x1x4
/-- A row step's denominators, broadcast back. -/
def rowDen (A : FVec Ideal S64x4x4 .f32) : FVec Ideal S64x4x4 .f32 :=
  broadcastTo S64x4x4 (addf (rowSums A) (broadcast S64x4x1 (Scalar.ofBits (F := Ideal) .f32 0x358637BD#32))) broadcasts_S64x4x1_S64x4x4
/-- A column step's denominators, broadcast back. -/
def colDen (A : FVec Ideal S64x4x4 .f32) : FVec Ideal S64x4x4 .f32 :=
  broadcastTo S64x4x4 (addf (colSums A) (broadcast S64x1x4 (Scalar.ofBits (F := Ideal) .f32 0x358637BD#32))) broadcasts_S64x1x4_S64x4x4

theorem kRow_eq (A : FVec Ideal S64x4x4 .f32) : kRow A = divf A (rowDen A) := rfl
theorem kCol_eq (A : FVec Ideal S64x4x4 .f32) : kCol A = divf A (colDen A) := rfl

/-- The mixing logits as the kernel lays them out: columns 8 .. 23 of the projections, scaled, biased, and
    cut into 4 x 4 matrices. -/
def kLogit (v15 : FVec Ideal S64x24 .f32) (v21 : Ideal .f32) (v27 : FVec Ideal S16 .f32) : FVec Ideal S64x4x4 .f32 :=
  shapeCast S64x4x4
    (addf (mulf (extractStridedSlice S64x16 ![0, 8] v15 slices_S64x24_o0_8_S64x16) (broadcast S64x16 v21))
      (broadcastTo S64x16 (shapeCast S1x16 (shapeCast S1x16 v27 shapeCasts_S16_S1x16) shapeCasts_S1x16_S1x16) broadcasts_S1x16_S64x16))
    shapeCasts_S64x16_S64x4x4

/-- exp (entry - its row's maximum). -/
def kExp (A : FVec Ideal S64x4x4 .f32) : FVec Ideal S64x4x4 .f32 :=
  exp (subf A (broadcastTo S64x4x4
    (shapeCast S64x4x1 (multiReduction (F := Ideal) .maximumf [2] S64x4 A 0xFF800000#32 reduces_S64x4x4_S64x4 (.inl rfl) rfl) shapeCasts_S64x4_S64x4x1)
    broadcasts_S64x4x1_S64x4x4))

/-- The softmax of every row, plus eps. -/
def kSoft (A : FVec Ideal S64x4x4 .f32) : FVec Ideal S64x4x4 .f32 :=
  addf (divf (kExp A) (broadcastTo S64x4x4 (rowSums (kExp A)) broadcasts_S64x4x1_S64x4x4))
    (broadcast S64x4x4 (Scalar.ofBits (F := Ideal) .f32 0x358637BD#32))

theorem pay10_eq (v15 : FVec Ideal S64x24 .f32) (v21 : Ideal .f32) (v27 : FVec Ideal S16 .f32) :
    Gen.k0_pay10 (F := Ideal) v15 v21 v27 = kCol (kRow (kCol (kSoft (kLogit v15 v21 v27)))) := rfl

theorem pay11_eq (v15 : FVec Ideal S64x24 .f32) (v21 : Ideal .f32) (v27 : FVec Ideal S16 .f32) :
    Gen.k0_pay11 (F := Ideal) v15 v21 v27 = rowSums (Gen.k0_pay10 (F := Ideal) v15 v21 v27) := rfl

theorem pay12_eq (A : FVec Ideal S64x4x4 .f32) :
    Gen.k0_pay12 (F := Ideal) A (rowSums A) = kRow (kCol (kRow (kCol (kRow (kCol (kRow A)))))) := rfl

theorem pay13_eq (A : FVec Ideal S64x4x4 .f32) (D : FVec Ideal S64x4x1 .f32) :
    Gen.k0_pay13 (F := Ideal) A D = colDen (Gen.k0_pay12 (F := Ideal) A D) := rfl

theorem pay14_eq (A : FVec Ideal S64x4x4 .f32) :
    Gen.k0_pay14 (F := Ideal) A (colDen A) = kRow (kCol (kRow (kCol (kRow (kCol (kRow (kCol A))))))) := rfl

theorem pay15_eq (A D : FVec Ideal S64x4x4 .f32) :
    Gen.k0_pay15 (F := Ideal) A D = colSums (Gen.k0_pay14 (F := Ideal) A D) := rfl

theorem pay16_eq (A : FVec Ideal S64x4x4 .f32) :
    Gen.k0_pay16 (F := Ideal) A (colSums A) = kCol (kRow (kCol (kRow (kCol (kRow (kCol A)))))) := rfl

theorem pay17_eq (A : FVec Ideal S64x4x4 .f32) (D : FVec Ideal S64x1x4 .f32) :
    Gen.k0_pay17 (F := Ideal) A D = rowDen (Gen.k0_pay16 (F := Ideal) A D) := rfl

theorem pay18_eq (A : FVec Ideal S64x4x4 .f32) :
    Gen.k0_pay18 (F := Ideal) A (rowDen A) = kCol (kRow (kCol (kRow (kCol (kRow (kCol (kRow A))))))) := rfl

theorem pay19_eq (A D : FVec Ideal S64x4x4 .f32) :
    Gen.k0_pay19 (F := Ideal) A D = rowSums (Gen.k0_pay18 (F := Ideal) A D) := rfl

theorem pay20_eq (A : FVec Ideal S64x4x4 .f32) :
    Gen.k0_pay20 (F := Ideal) A (rowSums A) = kCol (kRow (kCol (kRow (kCol (kRow A))))) := rfl

/-- The array the kernel mixes with: thirty-nine steps from the softmax array. -/
def kFinal (S : FVec Ideal S64x4x4 .f32) : FVec Ideal S64x4x4 .f32 :=
  let a10 := kCol (kRow (kCol S))
  let a12 := kRow (kCol (kRow (kCol (kRow (kCol (kRow a10))))))
  let a14 := kRow (kCol (kRow (kCol (kRow (kCol (kRow (kCol a12)))))))
  let a16 := kCol (kRow (kCol (kRow (kCol (kRow (kCol a14))))))
  let a18 := kCol (kRow (kCol (kRow (kCol (kRow (kCol (kRow a16)))))))
  kCol (kRow (kCol (kRow (kCol (kRow a18)))))

/-- Row by row, those steps are the specification's Sinkhorn iteration. -/
theorem cur_kFinal (S : FVec Ideal S64x4x4 .f32) (t : Fin 64) : cur (kFinal S) t = sinkhorn (cur S t) := by
  simp only [kFinal, cur_kCol, cur_kRow, sinkhorn, cycle]

/-! The generated payloads, stage by stage, over the projections, the third scale and the last sixteen biases. -/
section Stages
variable (v15 : FVec Ideal S64x24 .f32) (v21 : Ideal .f32) (v27 : FVec Ideal S16 .f32)

def p10 : FVec Ideal S64x4x4 .f32 := Gen.k0_pay10 (F := Ideal) v15 v21 v27
def p11 : FVec Ideal S64x4x1 .f32 := Gen.k0_pay11 (F := Ideal) v15 v21 v27
def p12 : FVec Ideal S64x4x4 .f32 := Gen.k0_pay12 (F := Ideal) (p10 v15 v21 v27) (p11 v15 v21 v27)
def p13 : FVec Ideal S64x4x4 .f32 := Gen.k0_pay13 (F := Ideal) (p10 v15 v21 v27) (p11 v15 v21 v27)
def p14 : FVec Ideal S64x4x4 .f32 := Gen.k0_pay14 (F := Ideal) (p12 v15 v21 v27) (p13 v15 v21 v27)
def p15 : FVec Ideal S64x1x4 .f32 := Gen.k0_pay15 (F := Ideal) (p12 v15 v21 v27) (p13 v15 v21 v27)
def p16 : FVec Ideal S64x4x4 .f32 := Gen.k0_pay16 (F := Ideal) (p14 v15 v21 v27) (p15 v15 v21 v27)
def p17 : FVec Ideal S64x4x4 .f32 := Gen.k0_pay17 (F := Ideal) (p14 v15 v21 v27) (p15 v15 v21 v27)
def p18 : FVec Ideal S64x4x4 .f32 := Gen.k0_pay18 (F := Ideal) (p16 v15 v21 v27) (p17 v15 v21 v27)
def p19 : FVec Ideal S64x4x1 .f32 := Gen.k0_pay19 (F := Ideal) (p16 v15 v21 v27) (p17 v15 v21 v27)
def p20 : FVec Ideal S64x4x4 .f32 := Gen.k0_pay20 (F := Ideal) (p18 v15 v21 v27) (p19 v15 v21 v27)

theorem p10_eq : p10 v15 v21 v27 = kCol (kRow (kCol (kSoft (kLogit v15 v21 v27)))) := pay10_eq v15 v21 v27
theorem p11_eq : p11 v15 v21 v27 = rowSums (p10 v15 v21 v27) := pay11_eq v15 v21 v27
theorem p12_eq : p12 v15 v21 v27 = kRow (kCol (kRow (kCol (kRow (kCol (kRow (p10 v15 v21 v27))))))) := by
  unfold p12; rw [p11_eq]; exact pay12_eq _
theorem p13_eq : p13 v15 v21 v27 = colDen (p12 v15 v21 v27) := pay13_eq _ _
theorem p14_eq : p14 v15 v21 v27 = kRow (kCol (kRow (kCol (kRow (kCol (kRow (kCol (p12 v15 v21 v27)))))))) := by
  unfold p14; rw [p13_eq]; exact pay14_eq _
theorem p15_eq : p15 v15 v21 v27 = colSums (p14 v15 v21 v27) := pay15_eq _ _
theorem p16_eq : p16 v15 v21 v27 = kCol (kRow (kCol (kRow (kCol (kRow (kCol (p14 v15 v21 v27))))))) := by
  unfold p16; rw [p15_eq]; exact pay16_eq _
theorem p17_eq : p17 v15 v21 v27 = rowDen (p16 v15 v21 v27) := pay17_eq _ _
theorem p18_eq : p18 v15 v21 v27 = kCol (kRow (kCol (kRow (kCol (kRow (kCol (kRow (p16 v15 v21 v27)))))))) := by
  unfold p18; rw [p17_eq]; exact pay18_eq _
theorem p19_eq : p19 v15 v21 v27 = rowSums (p18 v15 v21 v27) := pay19_eq _ _
theorem p20_eq' : p20 v15 v21 v27 = kCol (kRow (kCol (kRow (kCol (kRow (p18 v15 v21 v27)))))) := by
  unfold p20; rw [p19_eq]; exact pay20_eq _

/-- The chain of the generated payloads is thirty-nine steps from the softmax array. -/
theorem p20_eq : p20 v15 v21 v27 = kFinal (kSoft (kLogit v15 v21 v27)) := by
  rw [p20_eq', p18_eq, p16_eq, p14_eq, p12_eq, p10_eq]
  rfl

end Stages

end Cert.KernelIdeal.Bridge

end
-- ==== Proof.KPayStmt.lean ====
/-
  What one grid point of the kernel leaves in its two output blocks, stated entry by entry against the
  row specification: row t of the 64 x 2048 block is the collapsed row of row t of the inputs' blocks, and
  columns 2048 h .. 2048 h + 2047 of row t of the 64 x 8192 block are expanded row h.
-/
import proofs.«117766_j9637906612574_2_alg».proof.Proof.Gen.KernelIdeal.Frame
import proofs.«117766_j9637906612574_2_alg».proof.Proof.Spec

noncomputable section

namespace Cert.KernelIdeal.Bridge

open Idealize.ShloMosaic Idealize.ShloMosaic.ValueIdx Cert.KernelIdeal Cert.KernelIdeal.Gen

/-- Row t of a 64 x 8192 block. -/
def xblockRow (x0 : Vec Ideal S64x8192 .f32) (t : Fin 64) : Fin 8192 → EReal := fun f => x0 (ix2 t f)
/-- Row t of a 64 x 2048 block. -/
def oblockRow (x1 : Vec Ideal S64x2048 .f32) (t : Fin 64) : Fin 2048 → EReal := fun d => x1 (ix2 t d)
/-- The weights' block (the whole matrix), the scales' and the biases' one-row blocks, by coordinates. -/
def wblock (x2 : Vec Ideal S24x8192 .f32) : Fin 24 → Fin 8192 → EReal := fun j f => x2 (ix2 j f)
def sblock (x3 : Vec Ideal S1x3 .f32) : Fin 3 → EReal := fun i => x3 (ix2 0 i)
def bblock (x4 : Vec Ideal S1x24 .f32) : Fin 24 → EReal := fun j => x4 (ix2 0 j)

/-- The 64 x 2048 output block, row by row, is the collapsed row. -/
def PayC : Prop :=
  ∀ (x0 : Vec Ideal S64x8192 .f32) (x1 : Vec Ideal S64x2048 .f32) (x2 : Vec Ideal S24x8192 .f32)
    (x3 : Vec Ideal S1x3 .f32) (x4 : Vec Ideal S1x24 .f32) (t : Fin 64) (d : Fin 2048),
    out0_6 (F := Ideal) x0 x1 x2 x3 x4 (ix2 t d)
      = Cert.Mix.collapsed (xblockRow x0 t) (wblock x2) (sblock x3) (bblock x4) d

/-- The 64 x 8192 output block, row by row and slab by slab, is the expanded rows. -/
def PayY : Prop :=
  ∀ (x0 : Vec Ideal S64x8192 .f32) (x1 : Vec Ideal S64x2048 .f32) (x2 : Vec Ideal S24x8192 .f32)
    (x3 : Vec Ideal S1x3 .f32) (x4 : Vec Ideal S1x24 .f32) (t : Fin 64) (h : Fin 4) (d : Fin 2048),
    out0_5 (F := Ideal) x0 x1 x2 x3 x4 (ix2 t ⟨2048 * h.val + d.val, by omega⟩)
      = Cert.Mix.expand (xblockRow x0 t) (oblockRow x1 t) (wblock x2) (sblock x3) (bblock x4) h d

end Cert.KernelIdeal.Bridge

end
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.LibMatmulT.lean ====
/-
  A matrix product with the right operand contracted on its LAST axis, read at an entry, over the extended reals, at any
  extents.

  The product of an `[M, K]` matrix with an `[N, K]` matrix (both contracted on their second axis, no batch axis:
  `L · Rᵀ`) accumulated into the zero matrix is, at `(p, e)`, the sum over the contracted coordinate `f` of the left
  operand at `(p, f)` times the right operand at `(e, f)`: the operand indices the product names at an output index and
  a contraction index are `(p, f)` and `(e, f)`, and the one-axis contraction index is its one coordinate.
-/
import Idealize.ShloMosaic.Lib.ValueIdx
import Idealize.ShloMosaic.PureOps.Ideal.Laws

open scoped BigOperators

noncomputable section

namespace Cert.Lib.MatmulT

open Idealize.ShloMosaic Idealize.ShloMosaic.ValueIdx

variable {M K N : ℕ}

theorem trhs_lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem trhs_lhs1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

theorem trhs_rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem trhs_rhs1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The sum over the product's contraction index, re-indexed by the contracted coordinate. -/
theorem trhs_sum {φ₁ φ₂ : FTy} (L : FVec Ideal ⟨2, ![M, K]⟩ φ₁) (R : FVec Ideal ⟨2, ![N, K]⟩ φ₂) (p : Fin M) (e : Fin N) :
    (∑ k : (DotDims.transposedRhs M K N).contr.Idx,
        L ((DotDims.transposedRhs M K N).lhsIdx (ix2 p e) k) * R ((DotDims.transposedRhs M K N).rhsIdx (ix2 p e) k))
      = ∑ f : Fin K, L (ix2 p f) * R (ix2 e f) := by
  rw [← Equiv.sum_comp (contrEquiv1 (DotDims.transposedRhs M K N) K rfl rfl).symm]
  refine Finset.sum_congr rfl fun f _ => ?_
  have hk := contrEquiv1_symm_val (DotDims.transposedRhs M K N) K rfl rfl f
  have el : (DotDims.transposedRhs M K N).lhsIdx (ix2 p e) ((contrEquiv1 (DotDims.transposedRhs M K N) K rfl rfl).symm f) = ix2 p f :=
    funext fun a => Fin.ext (by
      match a with
      | ⟨0, _⟩ => exact trhs_lhs0 _ _
      | ⟨1, _⟩ => exact (trhs_lhs1 _ _).trans hk)
  have er : (DotDims.transposedRhs M K N).rhsIdx (ix2 p e) ((contrEquiv1 (DotDims.transposedRhs M K N) K rfl rfl).symm f) = ix2 e f :=
    funext fun a => Fin.ext (by
      match a with
      | ⟨0, _⟩ => exact trhs_rhs0 _ _
      | ⟨1, _⟩ => exact (trhs_rhs1 _ _).trans hk)
  rw [el, er]

/-- An `[M, K]` by `[N, K]` product (right operand contracted on its last axis) into the zero accumulator, at `(p, e)`. -/
theorem matmul_trhs_zero_apply {φ₁ φ₂ : FTy} (prec : Option ContractPrecision) (L : FVec Ideal ⟨2, ![M, K]⟩ φ₁)
    (R : FVec Ideal ⟨2, ![N, K]⟩ φ₂) (p : Fin M) (e : Fin N) :
    matmul (DotDims.transposedRhs M K N) prec L R (constant ⟨2, ![M, N]⟩ .f32 0x00000000#32) (ix2 p e)
      = ∑ f : Fin K, L (ix2 p f) * R (ix2 e f) :=
  (Ideal.matmul_constant_zero_apply (DotDims.transposedRhs M K N) prec L R (ix2 p e)).trans (trhs_sum L R p e)

end Cert.Lib.MatmulT

end
-- ==== Proof.KHead.lean ====
/-
  The head of the kernel's body read one token row at a time: the RMS normaliser, the 24 projections, the
  collapse and write-back weights, the mixing logits and their softmax.
-/
import proofs.«117766_j9637906612574_2_alg».proof.Proof.KChain
import proofs.«117766_j9637906612574_2_alg».proof.Proof.KPayStmt
import proofs.«117766_j9637906612574_2_alg».proof.Proof.LibColumns
import proofs.«117766_j9637906612574_2_alg».proof.Proof.LibMatmulT
import Idealize.ShloMosaic.Lib.ValueLayout

noncomputable section

namespace Cert.KernelIdeal.Bridge

open Idealize.ShloMosaic Idealize.ShloMosaic.ValueIdx Cert.KernelIdeal Cert.KernelIdeal.Facts₀ Cert.Mix

/-! ## The normaliser and the projections -/

/-- Each row's sum of squares, kept as a column, at row t. -/
theorem sumsq_apply (X : FVec Ideal S64x8192 .f32) (t : Fin 64) :
    shapeCast S64x1 (multiReduction (F := Ideal) .add [1] S64 (mulf X X) 0x00000000#32 reduces_S64x8192_S64 (.inl rfl) rfl)
        shapeCasts_S64_S64x1 (ix2 t 0)
      = ∑ f : Fin 8192, X (ix2 t f) * X (ix2 t f) :=
  (Cert.Lib.Columns.shapeCast_a_a1_apply _ shapeCasts_S64_S64x1 t 0).trans
    (Cert.Lib.Columns.multiReduction_add_ab_a_apply (mulf X X) 0x00000000#32 reduces_S64x8192_S64 (.inl rfl) rfl t)

/-- rsqrt (mean of squares + eps), one per row. -/
def kNorm (X : FVec Ideal S64x8192 .f32) : FVec Ideal S64x1 .f32 :=
  rsqrt (addf
    (divf (shapeCast S64x1 (multiReduction (F := Ideal) .add [1] S64 (mulf X X) 0x00000000#32 reduces_S64x8192_S64 (.inl rfl) rfl)
        shapeCasts_S64_S64x1)
      (broadcast S64x1 (Scalar.ofBits (F := Ideal) .f32 0x46000000#32)))
    (broadcast S64x1 (Scalar.ofBits (F := Ideal) .f32 0x358637BD#32)))

theorem kNorm_apply (X : FVec Ideal S64x8192 .f32) (t : Fin 64) :
    kNorm X (ix2 t 0) = rinv (fun f => X (ix2 t f)) :=
  congrArg (fun s => Ideal.rsqrt (Ideal.div s n8192 + eps)) (sumsq_apply X t)

/-- The normalised block times the transposed weights. -/
def kProj (X : FVec Ideal S64x8192 .f32) (W : FVec Ideal S24x8192 .f32) : FVec Ideal S64x24 .f32 :=
  matmul dot_S64x8192_S24x8192_S64x24_1_1_0_0_n_n none
    (truncf .bf16 (mulf X (broadcastTo S64x8192 (kNorm X) broadcasts_S64x1_S64x8192)) bitsLt_bf16_f32)
    (truncf .bf16 W bitsLt_bf16_f32) (constant (F := Ideal) S64x24 .f32 0x00000000#32)

theorem kProj_apply (X : FVec Ideal S64x8192 .f32) (W : FVec Ideal S24x8192 .f32) (t : Fin 64) (j : Fin 24) :
    kProj X W (ix2 t j) = logit (fun f => X (ix2 t f)) (fun j f => W (ix2 j f)) j := by
  refine (Cert.Lib.MatmulT.matmul_trhs_zero_apply (M := 64) (K := 8192) (N := 24) none
    (truncf .bf16 (mulf X (broadcastTo S64x8192 (kNorm X) broadcasts_S64x1_S64x8192)) bitsLt_bf16_f32)
    (truncf .bf16 W bitsLt_bf16_f32) t j).trans ?_
  refine Finset.sum_congr rfl fun f _ => ?_
  show (X (ix2 t f) * broadcastTo S64x8192 (kNorm X) broadcasts_S64x1_S64x8192 (ix2 t f)) * W (ix2 j f) = _
  rw [Cert.Lib.Columns.broadcastTo_a1_ab_apply, kNorm_apply]

theorem pay1_eq (x0 : Vec Ideal S64x8192 .f32) : Gen.k0_pay1 (F := Ideal) x0 = x0 := shapeCast_self _ _

theorem pay2_eq (x0 : Vec Ideal S64x8192 .f32) (x2 : Vec Ideal S24x8192 .f32) :
    Gen.k0_pay2 (F := Ideal) x0 x2 = kProj x0 x2 := by
  show kProj (Gen.k0_pay1 (F := Ideal) x0) x2 = _
  rw [pay1_eq]

/-- Projection j of row t of the block. -/
theorem pay2_apply (x0 : Vec Ideal S64x8192 .f32) (x2 : Vec Ideal S24x8192 .f32) (t : Fin 64) (j : Fin 24) :
    Gen.k0_pay2 (F := Ideal) x0 x2 (ix2 t j) = logit (xblockRow x0 t) (wblock x2) j := by
  rw [pay2_eq]; exact kProj_apply x0 x2 t j

/-! ## Columns of the projections, and the one-row blocks of scales and biases -/

/-- Column o + k of the projections, cut out in a slab of n columns starting at o. -/
theorem slab_apply (L : FVec Ideal S64x24 .f32) (o n : Nat) (h : S64x24.Slices ![0, o] ⟨2, ![64, n]⟩) (t : Fin 64) (k : Fin n)
    (ho : o + k.val < 24) : extractStridedSlice ⟨2, ![64, n]⟩ ![0, o] L h (ix2 t k) = L (ix2 t ⟨o + k.val, ho⟩) :=
  extractStridedSlice_apply _ L h _ _ fun a => by
    match a with
    | ⟨0, _⟩ => show t.val = 0 + t.val; omega
    | ⟨1, _⟩ => rfl

/-- A one-row block of n entries read back after its two recasts and its broadcast over the 64 rows. -/
theorem rowBcast_apply {n : Nat} (B : FVec Ideal ⟨2, ![1, n]⟩ .f32) (h : (⟨2, ![1, n]⟩ : Shape).Broadcasts ⟨2, ![64, n]⟩)
    (t : Fin 64) (k : Fin n) : broadcastTo ⟨2, ![64, n]⟩ B h (ix2 t k) = B (ix2 0 k) :=
  broadcastTo_1b_ab_apply B h t k

theorem s0_eq (x3 : Vec Ideal S1x3 .f32) :
    extractAt ![0, 0] (View.ld x3 Gen.r0_2) inpos_S1x1_p0_0 = sblock x3 0 :=
  congrArg x3 (funext fun a => Fin.ext (by match a with | ⟨0, _⟩ => rfl | ⟨1, _⟩ => rfl))
theorem s1_eq (x3 : Vec Ideal S1x3 .f32) :
    extractAt ![0, 0] (View.ld x3 Gen.r0_3) inpos_S1x1_p0_0 = sblock x3 1 :=
  congrArg x3 (funext fun a => Fin.ext (by match a with | ⟨0, _⟩ => rfl | ⟨1, _⟩ => rfl))
theorem s2_eq (x3 : Vec Ideal S1x3 .f32) :
    extractAt ![0, 0] (View.ld x3 Gen.r0_4) inpos_S1x1_p0_0 = sblock x3 2 :=
  congrArg x3 (funext fun a => Fin.ext (by match a with | ⟨0, _⟩ => rfl | ⟨1, _⟩ => rfl))

theorem b0_apply (x4 : Vec Ideal S1x24 .f32) (k : Fin 4) :
    View.ld x4 Gen.r0_5 (ix2 0 k) = bblock x4 ⟨k.val, by omega⟩ :=
  congrArg x4 (funext fun a => Fin.ext (by
    match a with
    | ⟨0, _⟩ => rfl
    | ⟨1, _⟩ => show 0 + 1 * k.val = k.val; omega))
theorem b1_apply (x4 : Vec Ideal S1x24 .f32) (k : Fin 4) :
    View.ld x4 Gen.r0_6 (ix2 0 k) = bblock x4 ⟨4 + k.val, by omega⟩ :=
  congrArg x4 (funext fun a => Fin.ext (by
    match a with
    | ⟨0, _⟩ => rfl
    | ⟨1, _⟩ => show 4 + 1 * k.val = 4 + k.val; omega))
theorem b2_apply (x4 : Vec Ideal S1x24 .f32) (c : Fin 16) :
    View.ld x4 Gen.r0_7 (ix2 0 c) = bblock x4 ⟨8 + c.val, by omega⟩ :=
  congrArg x4 (funext fun a => Fin.ext (by
    match a with
    | ⟨0, _⟩ => rfl
    | ⟨1, _⟩ => show 8 + 1 * c.val = 8 + c.val; omega))

/-! ## The collapse and write-back weights -/

theorem pay5_apply (x0 : Vec Ideal S64x8192 .f32) (x2 : Vec Ideal S24x8192 .f32) (x3 : Vec Ideal S1x3 .f32)
    (x4 : Vec Ideal S1x24 .f32) (t : Fin 64) (k : Fin 4) :
    Gen.k0_pay5 (F := Ideal) x0 x2 (View.ld x3 Gen.r0_2) (View.ld x4 Gen.r0_5) (ix2 t k)
      = logit (xblockRow x0 t) (wblock x2) ⟨k.val, by omega⟩ * sblock x3 0 + bblock x4 ⟨k.val, by omega⟩ := by
  have e1 : extractStridedSlice S64x4 ![0, 0] (Gen.k0_pay2 (F := Ideal) x0 x2) slices_S64x24_o0_0_S64x4 (ix2 t k)
      = logit (xblockRow x0 t) (wblock x2) ⟨k.val, by omega⟩ :=
    (slab_apply _ 0 4 slices_S64x24_o0_0_S64x4 t k (by omega)).trans
      ((pay2_apply x0 x2 t ⟨0 + k.val, by omega⟩).trans (congrArg _ (Fin.ext (Nat.zero_add _))))
  have e3 : broadcastTo S64x4 (shapeCast S1x4 (shapeCast S1x4 (shapeCast S4 (View.ld x4 Gen.r0_5) shapeCasts_S1x4_S4)
      shapeCasts_S4_S1x4) shapeCasts_S1x4_S1x4) broadcasts_S1x4_S64x4 (ix2 t k) = bblock x4 ⟨k.val, by omega⟩ := by
    rw [shapeCast_self, shapeCast_shapeCast]
    exact (rowBcast_apply _ broadcasts_S1x4_S64x4 t k).trans (b0_apply x4 k)
  exact congrArg₂ (· + ·) (congrArg₂ (· * ·) e1 (s0_eq x3)) e3

/-- The collapse weights of row t. -/
theorem pre_apply (x0 : Vec Ideal S64x8192 .f32) (x2 : Vec Ideal S24x8192 .f32) (x3 : Vec Ideal S1x3 .f32)
    (x4 : Vec Ideal S1x24 .f32) (t : Fin 64) (k : Fin 4) :
    Gen.k0_pay8 (F := Ideal) (Gen.k0_pay5 x0 x2 (View.ld x3 Gen.r0_2) (View.ld x4 Gen.r0_5)) (ix2 t k)
      = pre (xblockRow x0 t) (wblock x2) (sblock x3) (bblock x4) k :=
  congrArg (fun z => Ideal.logistic z + eps) (pay5_apply x0 x2 x3 x4 t k)

theorem pay6_apply (x0 : Vec Ideal S64x8192 .f32) (x2 : Vec Ideal S24x8192 .f32) (x3 : Vec Ideal S1x3 .f32)
    (t : Fin 64) (h : Fin 4) :
    Gen.k0_pay6 (F := Ideal) x0 x2 (View.ld x3 Gen.r0_3) (ix2 t h)
      = logit (xblockRow x0 t) (wblock x2) ⟨4 + h.val, by omega⟩ * sblock x3 1 := by
  have e1 : extractStridedSlice S64x4 ![0, 4] (Gen.k0_pay2 (F := Ideal) x0 x2) slices_S64x24_o0_4_S64x4 (ix2 t h)
      = logit (xblockRow x0 t) (wblock x2) ⟨4 + h.val, by omega⟩ :=
    (slab_apply _ 4 4 slices_S64x24_o0_4_S64x4 t h (by omega)).trans (pay2_apply x0 x2 t _)
  exact congrArg₂ (· * ·) e1 (s1_eq x3)

/-- The write-back weights of row t. -/
theorem post_apply (x0 : Vec Ideal S64x8192 .f32) (x2 : Vec Ideal S24x8192 .f32) (x3 : Vec Ideal S1x3 .f32)
    (x4 : Vec Ideal S1x24 .f32) (t : Fin 64) (h : Fin 4) :
    Gen.k0_pay9 (F := Ideal) (Gen.k0_pay6 x0 x2 (View.ld x3 Gen.r0_3)) (Gen.k0_pay7 (View.ld x4 Gen.r0_6)) (ix2 t h)
      = post (xblockRow x0 t) (wblock x2) (sblock x3) (bblock x4) h := by
  have e3 : broadcastTo S64x4 (shapeCast S1x4 (Gen.k0_pay7 (F := Ideal) (View.ld x4 Gen.r0_6)) shapeCasts_S1x4_S1x4)
      broadcasts_S1x4_S64x4 (ix2 t h) = bblock x4 ⟨4 + h.val, by omega⟩ := by
    rw [shapeCast_self]
    show broadcastTo S64x4 (shapeCast S1x4 (shapeCast S4 (View.ld x4 Gen.r0_6) shapeCasts_S1x4_S4) shapeCasts_S4_S1x4)
      broadcasts_S1x4_S64x4 (ix2 t h) = _
    rw [shapeCast_shapeCast]
    exact (rowBcast_apply _ broadcasts_S1x4_S64x4 t h).trans (b1_apply x4 h)
  exact congrArg (fun z => two * Ideal.logistic z) (congrArg₂ (· + ·) (pay6_apply x0 x2 x3 t h) e3)

/-! ## The mixing logits and their softmax -/

/-- The mixing logits of row t. -/
theorem kLogit_apply (x0 : Vec Ideal S64x8192 .f32) (x2 : Vec Ideal S24x8192 .f32) (x3 : Vec Ideal S1x3 .f32)
    (x4 : Vec Ideal S1x24 .f32) (t : Fin 64) :
    cur (kLogit (Gen.k0_pay2 (F := Ideal) x0 x2) (Gen.k0_pay3 (View.ld x3 Gen.r0_4)) (Gen.k0_pay4 (View.ld x4 Gen.r0_7))) t
      = combLogit (xblockRow x0 t) (wblock x2) (sblock x3) (bblock x4) := by
  funext h k
  have hc : 4 * h.val + k.val < 16 := by omega
  refine (shapeCast_apply _ shapeCasts_S64x16_S64x4x4 (ix3 t h k) (ix2 t ⟨4 * h.val + k.val, hc⟩) (by
    rw [Shape.rowMajor_val_two, Shape.rowMajor_val_three]
    show t.val * 16 + (4 * h.val + k.val) = (t.val * 4 + h.val) * 4 + k.val
    omega)).trans ?_
  have e1 : extractStridedSlice S64x16 ![0, 8] (Gen.k0_pay2 (F := Ideal) x0 x2) slices_S64x24_o0_8_S64x16
      (ix2 t ⟨4 * h.val + k.val, hc⟩) = logit (xblockRow x0 t) (wblock x2) ⟨8 + (4 * h.val + k.val), by omega⟩ :=
    (slab_apply _ 8 16 slices_S64x24_o0_8_S64x16 t ⟨4 * h.val + k.val, hc⟩ (by show 8 + (4 * h.val + k.val) < 24; omega)).trans
      (pay2_apply x0 x2 t _)
  have e3 : broadcastTo S64x16 (shapeCast S1x16 (shapeCast S1x16 (Gen.k0_pay4 (F := Ideal) (View.ld x4 Gen.r0_7)) shapeCasts_S16_S1x16)
      shapeCasts_S1x16_S1x16) broadcasts_S1x16_S64x16 (ix2 t ⟨4 * h.val + k.val, hc⟩)
        = bblock x4 ⟨8 + (4 * h.val + k.val), by omega⟩ := by
    rw [shapeCast_self]
    show broadcastTo S64x16 (shapeCast S1x16 (shapeCast S16 (View.ld x4 Gen.r0_7) shapeCasts_S1x16_S16) shapeCasts_S16_S1x16)
      broadcasts_S1x16_S64x16 (ix2 t ⟨4 * h.val + k.val, hc⟩) = _
    rw [shapeCast_shapeCast]
    exact (rowBcast_apply _ broadcasts_S1x16_S64x16 t _).trans (b2_apply x4 _)
  exact congrArg₂ (· + ·) (congrArg₂ (· * ·) e1 (s2_eq x3)) e3

/-- The sums along the last axis, broadcast back, at (t, h, k). -/
theorem rowSumsB_apply (E : FVec Ideal S64x4x4 .f32) (t : Fin 64) (h k : Fin 4) :
    broadcastTo S64x4x4 (rowSums E) broadcasts_S64x4x1_S64x4x4 (ix3 t h k) = ∑ k' : Fin 4, E (ix3 t h k') := by
  refine (broadcastTo_apply _ broadcasts_S64x4x1_S64x4x4 (ix3 t h k) (ix3 t h 0) (fun a => by
    match a with
    | ⟨0, _⟩ => rfl
    | ⟨1, _⟩ => rfl
    | ⟨2, _⟩ => rfl)).trans ?_
  refine (shapeCast_apply _ shapeCasts_S64x4_S64x4x1 (ix3 t h 0) (ix2 t h) (by
    rw [Shape.rowMajor_val_two, Shape.rowMajor_val_three]
    show t.val * 4 + h.val = (t.val * 4 + h.val) * 1 + 0
    omega)).trans ?_
  exact sumLast_apply E t h

/-- Row t of exp (entry - row maximum). -/
theorem cur_kExp (A : FVec Ideal S64x4x4 .f32) (t : Fin 64) : cur (kExp A) t = expShift (cur A t) := by
  funext h k
  have em : broadcastTo S64x4x4 (shapeCast S64x4x1 (multiReduction (F := Ideal) .maximumf [2] S64x4 A 0xFF800000#32
      reduces_S64x4x4_S64x4 (.inl rfl) rfl) shapeCasts_S64x4_S64x4x1) broadcasts_S64x4x1_S64x4x4 (ix3 t h k) = rowMax (cur A t) h := by
    refine (broadcastTo_apply _ broadcasts_S64x4x1_S64x4x4 (ix3 t h k) (ix3 t h 0) (fun a => by
      match a with
      | ⟨0, _⟩ => rfl
      | ⟨1, _⟩ => rfl
      | ⟨2, _⟩ => rfl)).trans ?_
    refine (shapeCast_apply _ shapeCasts_S64x4_S64x4x1 (ix3 t h 0) (ix2 t h) (by
      rw [Shape.rowMajor_val_two, Shape.rowMajor_val_three]
      show t.val * 4 + h.val = (t.val * 4 + h.val) * 1 + 0
      omega)).trans ?_
    refine (Ideal.multiReduction_maximumf_single A 0xFF800000#32 reduces_S64x4x4_S64x4 (.inl rfl) rfl (ix2 t h)).trans ?_
    refine congrArg (fun g : Fin 4 → EReal => (Finset.univ : Finset (Fin 4)).fold max negInf g) (funext fun k' => ?_)
    exact congrArg A (funext fun a => Fin.ext (by
      match a with
      | ⟨0, _⟩ => rfl
      | ⟨1, _⟩ => rfl
      | ⟨2, _⟩ => rfl))
  exact congrArg (fun z => Ideal.exp (A (ix3 t h k) - z)) em

/-- Row t of the softmax array. -/
theorem cur_kSoft (A : FVec Ideal S64x4x4 .f32) (t : Fin 64) : cur (kSoft A) t = softmaxEps (cur A t) := by
  funext h k
  have e1 : kExp A (ix3 t h k) = expShift (cur A t) h k := congrFun (congrFun (cur_kExp A t) h) k
  have e2 : broadcastTo S64x4x4 (rowSums (kExp A)) broadcasts_S64x4x1_S64x4x4 (ix3 t h k) = ∑ k' : Fin 4, expShift (cur A t) h k' :=
    (rowSumsB_apply (kExp A) t h k).trans (Finset.sum_congr rfl fun k' _ => congrFun (congrFun (cur_kExp A t) h) k')
  exact congrArg (· + eps) (congrArg₂ Ideal.div e1 e2)

end Cert.KernelIdeal.Bridge

end
-- ==== Proof.KTail.lean ====
/-
  The tail of the kernel's body read one token row at a time: the four streams of the block, the collapsed
  row, the four expanded rows — and with them what the body leaves in its two output blocks.
-/
import proofs.«117766_j9637906612574_2_alg».proof.Proof.KHead

noncomputable section

namespace Cert.KernelIdeal.Bridge

open Idealize.ShloMosaic Idealize.ShloMosaic.ValueIdx Cert.KernelIdeal Cert.KernelIdeal.Facts₀ Cert.Mix

theorem hz2 : (![0, 0] : Fin 2 → Nat) = fun _ => 0 := by
  funext a; match a with | ⟨0, _⟩ => rfl | ⟨1, _⟩ => rfl

/-! ## Streams and weights at (t, d) -/

/-- Column o + d of the block, cut out in a slab of 2048 columns starting at o. -/
theorem cols_apply (X : FVec Ideal S64x8192 .f32) (o : Nat) (h : S64x8192.Slices ![0, o] S64x2048) (t : Fin 64) (d : Fin 2048)
    (ho : o + d.val < 8192) : extractStridedSlice S64x2048 ![0, o] X h (ix2 t d) = X (ix2 t ⟨o + d.val, ho⟩) :=
  extractStridedSlice_apply _ X h _ _ fun a => by
    match a with
    | ⟨0, _⟩ => show t.val = 0 + t.val; omega
    | ⟨1, _⟩ => rfl

/-- Stream k of row t of the block. -/
theorem stream_eq (x0 : Vec Ideal S64x8192 .f32) (t : Fin 64) (k : Fin 4) (d : Fin 2048) (o : Nat) (ho : o = 2048 * k.val)
    (hlt : o + d.val < 8192) : x0 (ix2 t ⟨o + d.val, hlt⟩) = stream (xblockRow x0 t) k d := by
  subst ho; rfl

/-- Column k of a 64 x 4 array of weights, spread over the 2048 positions. -/
theorem wcol_apply (Pw : FVec Ideal S64x4 .f32) (k : Nat) (hk : k < 4) (hs : S64x4.Slices ![0, k] S64x1)
    (t : Fin 64) (d : Fin 2048) :
    broadcastTo S64x2048 (extractStridedSlice S64x1 ![0, k] Pw hs) broadcasts_S64x1_S64x2048 (ix2 t d) = Pw (ix2 t ⟨k, hk⟩) :=
  (Cert.Lib.Columns.broadcastTo_a1_ab_apply _ broadcasts_S64x1_S64x2048 t d).trans
    (extractStridedSlice_apply _ Pw hs (ix2 t (0 : Fin 1)) (ix2 t ⟨k, hk⟩) fun a => by
      match a with
      | ⟨0, _⟩ => show t.val = 0 + t.val; omega
      | ⟨1, _⟩ => show k = k + 0; omega)

/-- Entry (h, k) of each row's mixing matrix, spread over the 2048 positions. -/
theorem wmix_apply (C : FVec Ideal S64x4x4 .f32) (h k : Nat) (hh : h < 4) (hk : k < 4) (hs : S64x4x4.Slices ![0, h, k] S64x1x1)
    (t : Fin 64) (d : Fin 2048) :
    broadcastTo S64x2048 (shapeCast S64x1 (extractStridedSlice S64x1x1 ![0, h, k] C hs) shapeCasts_S64x1x1_S64x1)
      broadcasts_S64x1_S64x2048 (ix2 t d) = C (ix3 t ⟨h, hh⟩ ⟨k, hk⟩) :=
  (Cert.Lib.Columns.broadcastTo_a1_ab_apply _ broadcasts_S64x1_S64x2048 t d).trans
    ((shapeCast_apply _ shapeCasts_S64x1x1_S64x1 (ix2 t (0 : Fin 1)) (ix3 t (0 : Fin 1) (0 : Fin 1)) (by
        rw [Shape.rowMajor_val_two, Shape.rowMajor_val_three]
        show (t.val * 1 + 0) * 1 + 0 = t.val * 1 + 0
        omega)).trans
      (extractStridedSlice_apply _ C hs (ix3 t (0 : Fin 1) (0 : Fin 1)) (ix3 t ⟨h, hh⟩ ⟨k, hk⟩) fun a => by
        match a with
        | ⟨0, _⟩ => show t.val = 0 + t.val; omega
        | ⟨1, _⟩ => show h = h + 0; omega
        | ⟨2, _⟩ => show k = k + 0; omega))

/-! ## The collapsed block -/

theorem pay26_apply (Pw : FVec Ideal S64x4 .f32) (X : FVec Ideal S64x8192 .f32) (t : Fin 64) (d : Fin 2048) :
    Gen.k0_pay26 (F := Ideal) Pw (Gen.k0_pay24 X) (Gen.k0_pay25 X Pw) (ix2 t d)
      = Pw (ix2 t 0) * X (ix2 t ⟨0 + d.val, by omega⟩) + Pw (ix2 t 1) * X (ix2 t ⟨2048 + d.val, by omega⟩)
        + Pw (ix2 t 2) * X (ix2 t ⟨4096 + d.val, by omega⟩) + Pw (ix2 t 3) * X (ix2 t ⟨6144 + d.val, by omega⟩) :=
  congrArg₂ (· + ·)
    (congrArg₂ (· + ·)
      (congrArg₂ (· + ·)
        (congrArg₂ (· * ·) (wcol_apply Pw 0 (by omega) slices_S64x4_o0_0_S64x1 t d) (cols_apply X 0 slices_S64x8192_o0_0_S64x2048 t d (by omega)))
        (congrArg₂ (· * ·) (wcol_apply Pw 1 (by omega) slices_S64x4_o0_1_S64x1 t d) (cols_apply X 2048 slices_S64x8192_o0_2048_S64x2048 t d (by omega))))
      (congrArg₂ (· * ·) (wcol_apply Pw 2 (by omega) slices_S64x4_o0_2_S64x1 t d) (cols_apply X 4096 slices_S64x8192_o0_4096_S64x2048 t d (by omega))))
    (congrArg₂ (· * ·) (wcol_apply Pw 3 (by omega) slices_S64x4_o0_3_S64x1 t d) (cols_apply X 6144 slices_S64x8192_o0_6144_S64x2048 t d (by omega)))

/-- The 64 x 2048 output block, row by row, is the collapsed row. -/
theorem payC : PayC := by
  intro x0 x1 x2 x3 x4 t d
  have hx0 : View.ld x0 Gen.r0_0 = x0 := View.ld_unit_zero hz2 _ x0
  have hx2 : View.ld x2 Gen.r0_1 = x2 := View.ld_unit_zero hz2 _ x2
  unfold Gen.out0_6
  refine (congrFun (View.canon_unit_zero hz2 _ _) (ix2 t d)).trans ?_
  rw [hx0, hx2, pay1_eq]
  refine (pay26_apply _ x0 t d).trans ?_
  rw [show (0 : Fin 4) = ⟨0, by omega⟩ from rfl]
  simp only [pre_apply x0 x2 x3 x4 t]
  unfold collapsed
  rw [Fin.sum_univ_four]
  rfl

/-! ## The expanded block -/

section Slabs
variable (Po : FVec Ideal S64x4 .f32) (C : FVec Ideal S64x4x4 .f32) (a0 a1 a2 a3 : FVec Ideal S64x2048 .f32)
  (O : FVec Ideal S64x2048 .f32) (x1 : Vec Ideal S64x2048 .f32) (t : Fin 64) (d : Fin 2048)

theorem pay27_eq : Gen.k0_pay27 (F := Ideal) x1 = x1 := shapeCast_self _ _

theorem pay28_apply :
    Gen.k0_pay28 (F := Ideal) Po C a0 a1 a2 a3 x1 (ix2 t d)
      = Po (ix2 t 0) * x1 (ix2 t d)
        + (C (ix3 t 0 0) * a0 (ix2 t d) + C (ix3 t 0 1) * a1 (ix2 t d) + C (ix3 t 0 2) * a2 (ix2 t d) + C (ix3 t 0 3) * a3 (ix2 t d)) :=
  congrArg₂ (· + ·)
    (congrArg₂ (· * ·) (wcol_apply Po 0 (by omega) slices_S64x4_o0_0_S64x1 t d) (congrFun (pay27_eq x1) (ix2 t d)))
    (congrArg₂ (· + ·) (congrArg₂ (· + ·) (congrArg₂ (· + ·)
      (congrArg₂ (· * ·) (wmix_apply C 0 0 (by omega) (by omega) slices_S64x4x4_o0_0_0_S64x1x1 t d) rfl)
      (congrArg₂ (· * ·) (wmix_apply C 0 1 (by omega) (by omega) slices_S64x4x4_o0_0_1_S64x1x1 t d) rfl))
      (congrArg₂ (· * ·) (wmix_apply C 0 2 (by omega) (by omega) slices_S64x4x4_o0_0_2_S64x1x1 t d) rfl))
      (congrArg₂ (· * ·) (wmix_apply C 0 3 (by omega) (by omega) slices_S64x4x4_o0_0_3_S64x1x1 t d) rfl))

theorem pay32_apply :
    Gen.k0_pay32 (F := Ideal) (Gen.k0_pay29 Po x1) (Gen.k0_pay30 C a0 a1 a2) (Gen.k0_pay31 C a3) (ix2 t d)
      = Po (ix2 t 1) * x1 (ix2 t d)
        + (C (ix3 t 1 0) * a0 (ix2 t d) + C (ix3 t 1 1) * a1 (ix2 t d) + C (ix3 t 1 2) * a2 (ix2 t d) + C (ix3 t 1 3) * a3 (ix2 t d)) :=
  congrArg₂ (· + ·)
    (congrArg₂ (· * ·) (wcol_apply Po 1 (by omega) slices_S64x4_o0_1_S64x1 t d) (congrFun (pay27_eq x1) (ix2 t d)))
    (congrArg₂ (· + ·) (congrArg₂ (· + ·) (congrArg₂ (· + ·)
      (congrArg₂ (· * ·) (wmix_apply C 1 0 (by omega) (by omega) slices_S64x4x4_o0_1_0_S64x1x1 t d) rfl)
      (congrArg₂ (· * ·) (wmix_apply C 1 1 (by omega) (by omega) slices_S64x4x4_o0_1_1_S64x1x1 t d) rfl))
      (congrArg₂ (· * ·) (wmix_apply C 1 2 (by omega) (by omega) slices_S64x4x4_o0_1_2_S64x1x1 t d) rfl))
      (congrArg₂ (· * ·) (wmix_apply C 1 3 (by omega) (by omega) slices_S64x4x4_o0_1_3_S64x1x1 t d) rfl))

theorem pay33_apply :
    Gen.k0_pay33 (F := Ideal) Po C a0 a1 a2 a3 O (ix2 t d)
      = Po (ix2 t 2) * O (ix2 t d)
        + (C (ix3 t 2 0) * a0 (ix2 t d) + C (ix3 t 2 1) * a1 (ix2 t d) + C (ix3 t 2 2) * a2 (ix2 t d) + C (ix3 t 2 3) * a3 (ix2 t d)) :=
  congrArg₂ (· + ·)
    (congrArg₂ (· * ·) (wcol_apply Po 2 (by omega) slices_S64x4_o0_2_S64x1 t d) rfl)
    (congrArg₂ (· + ·) (congrArg₂ (· + ·) (congrArg₂ (· + ·)
      (congrArg₂ (· * ·) (wmix_apply C 2 0 (by omega) (by omega) slices_S64x4x4_o0_2_0_S64x1x1 t d) rfl)
      (congrArg₂ (· * ·) (wmix_apply C 2 1 (by omega) (by omega) slices_S64x4x4_o0_2_1_S64x1x1 t d) rfl))
      (congrArg₂ (· * ·) (wmix_apply C 2 2 (by omega) (by omega) slices_S64x4x4_o0_2_2_S64x1x1 t d) rfl))
      (congrArg₂ (· * ·) (wmix_apply C 2 3 (by omega) (by omega) slices_S64x4x4_o0_2_3_S64x1x1 t d) rfl))

theorem pay34_apply :
    Gen.k0_pay34 (F := Ideal) Po C a0 a1 a2 a3 O (ix2 t d)
      = Po (ix2 t 3) * O (ix2 t d)
        + (C (ix3 t 3 0) * a0 (ix2 t d) + C (ix3 t 3 1) * a1 (ix2 t d) + C (ix3 t 3 2) * a2 (ix2 t d) + C (ix3 t 3 3) * a3 (ix2 t d)) :=
  congrArg₂ (· + ·)
    (congrArg₂ (· * ·) (wcol_apply Po 3 (by omega) slices_S64x4_o0_3_S64x1 t d) rfl)
    (congrArg₂ (· + ·) (congrArg₂ (· + ·) (congrArg₂ (· + ·)
      (congrArg₂ (· * ·) (wmix_apply C 3 0 (by omega) (by omega) slices_S64x4x4_o0_3_0_S64x1x1 t d) rfl)
      (congrArg₂ (· * ·) (wmix_apply C 3 1 (by omega) (by omega) slices_S64x4x4_o0_3_1_S64x1x1 t d) rfl))
      (congrArg₂ (· * ·) (wmix_apply C 3 2 (by omega) (by omega) slices_S64x4x4_o0_3_2_S64x1x1 t d) rfl))
      (congrArg₂ (· * ·) (wmix_apply C 3 3 (by omega) (by omega) slices_S64x4x4_o0_3_3_S64x1x1 t d) rfl))

end Slabs

/-! ## The expanded block, slab by slab -/

section Expand
variable (x0 : Vec Ideal S64x8192 .f32) (x1 : Vec Ideal S64x2048 .f32) (x2 : Vec Ideal S24x8192 .f32)
  (x3 : Vec Ideal S1x3 .f32) (x4 : Vec Ideal S1x24 .f32)

/-- The write-back weights, the mixing array and the four streams, as the body computes them from the blocks. -/
def postB : FVec Ideal S64x4 .f32 :=
  Gen.k0_pay9 (F := Ideal) (Gen.k0_pay6 x0 x2 (View.ld x3 Gen.r0_3)) (Gen.k0_pay7 (View.ld x4 Gen.r0_6))
def mixB : FVec Ideal S64x4x4 .f32 :=
  p20 (Gen.k0_pay2 (F := Ideal) x0 x2) (Gen.k0_pay3 (View.ld x3 Gen.r0_4)) (Gen.k0_pay4 (View.ld x4 Gen.r0_7))
def str0 : FVec Ideal S64x2048 .f32 := Gen.k0_pay21 (F := Ideal) (Gen.k0_pay1 x0)
def str1 : FVec Ideal S64x2048 .f32 := Gen.k0_pay22 (F := Ideal) (Gen.k0_pay1 x0)
def str2 : FVec Ideal S64x2048 .f32 := Gen.k0_pay23 (F := Ideal) (Gen.k0_pay1 x0)
def str3 : FVec Ideal S64x2048 .f32 := Gen.k0_pay24 (F := Ideal) (Gen.k0_pay1 x0)

variable (t : Fin 64) (d : Fin 2048)

theorem str0_apply : str0 x0 (ix2 t d) = stream (xblockRow x0 t) 0 d :=
  (cols_apply _ 0 slices_S64x8192_o0_0_S64x2048 t d (by omega)).trans
    ((congrFun (pay1_eq x0) _).trans (stream_eq x0 t 0 d 0 rfl _))
theorem str1_apply : str1 x0 (ix2 t d) = stream (xblockRow x0 t) 1 d :=
  (cols_apply _ 2048 slices_S64x8192_o0_2048_S64x2048 t d (by omega)).trans
    ((congrFun (pay1_eq x0) _).trans (stream_eq x0 t 1 d 2048 rfl _))
theorem str2_apply : str2 x0 (ix2 t d) = stream (xblockRow x0 t) 2 d :=
  (cols_apply _ 4096 slices_S64x8192_o0_4096_S64x2048 t d (by omega)).trans
    ((congrFun (pay1_eq x0) _).trans (stream_eq x0 t 2 d 4096 rfl _))
theorem str3_apply : str3 x0 (ix2 t d) = stream (xblockRow x0 t) 3 d :=
  (cols_apply _ 6144 slices_S64x8192_o0_6144_S64x2048 t d (by omega)).trans
    ((congrFun (pay1_eq x0) _).trans (stream_eq x0 t 3 d 6144 rfl _))

/-- Row t of the mixing array is the specification's mixing matrix. -/
theorem mixB_apply : cur (mixB x0 x2 x3 x4) t = comb (xblockRow x0 t) (wblock x2) (sblock x3) (bblock x4) := by
  unfold mixB
  rw [p20_eq, cur_kFinal, cur_kSoft, kLogit_apply]
  rfl

theorem mixB_at (h k : Fin 4) : mixB x0 x2 x3 x4 (ix3 t h k) = comb (xblockRow x0 t) (wblock x2) (sblock x3) (bblock x4) h k :=
  congrFun (congrFun (mixB_apply x0 x2 x3 x4 t) h) k

theorem postB_at (h : Fin 4) : postB x0 x2 x3 x4 (ix2 t h) = post (xblockRow x0 t) (wblock x2) (sblock x3) (bblock x4) h :=
  post_apply x0 x2 x3 x4 t h

/-- What expanded row h reads once its sum over the four streams is written out. -/
theorem expand_eq (h : Fin 4) :
    expand (xblockRow x0 t) (oblockRow x1 t) (wblock x2) (sblock x3) (bblock x4) h d
      = post (xblockRow x0 t) (wblock x2) (sblock x3) (bblock x4) h * x1 (ix2 t d)
        + (comb (xblockRow x0 t) (wblock x2) (sblock x3) (bblock x4) h 0 * stream (xblockRow x0 t) 0 d
          + comb (xblockRow x0 t) (wblock x2) (sblock x3) (bblock x4) h 1 * stream (xblockRow x0 t) 1 d
          + comb (xblockRow x0 t) (wblock x2) (sblock x3) (bblock x4) h 2 * stream (xblockRow x0 t) 2 d
          + comb (xblockRow x0 t) (wblock x2) (sblock x3) (bblock x4) h 3 * stream (xblockRow x0 t) 3 d) := by
  unfold expand
  rw [Fin.sum_univ_four]
  rfl

/-- The sum a slab's payload reads, against the specification's entries. -/
theorem slab_sum (h : Fin 4) (O : FVec Ideal S64x2048 .f32) (hO : O (ix2 t d) = x1 (ix2 t d)) :
    postB x0 x2 x3 x4 (ix2 t h) * O (ix2 t d)
        + (mixB x0 x2 x3 x4 (ix3 t h 0) * str0 x0 (ix2 t d) + mixB x0 x2 x3 x4 (ix3 t h 1) * str1 x0 (ix2 t d)
          + mixB x0 x2 x3 x4 (ix3 t h 2) * str2 x0 (ix2 t d) + mixB x0 x2 x3 x4 (ix3 t h 3) * str3 x0 (ix2 t d))
      = expand (xblockRow x0 t) (oblockRow x1 t) (wblock x2) (sblock x3) (bblock x4) h d := by
  rw [expand_eq, postB_at, hO, mixB_at, mixB_at, mixB_at, mixB_at, str0_apply, str1_apply, str2_apply, str3_apply]

theorem slab0_eq :
    Gen.k0_pay28 (F := Ideal) (postB x0 x2 x3 x4) (mixB x0 x2 x3 x4) (str0 x0) (str1 x0) (str2 x0) (str3 x0) x1 (ix2 t d)
      = expand (xblockRow x0 t) (oblockRow x1 t) (wblock x2) (sblock x3) (bblock x4) 0 d :=
  (pay28_apply _ _ _ _ _ _ x1 t d).trans (slab_sum x0 x1 x2 x3 x4 t d 0 x1 rfl)

theorem slab1_eq :
    Gen.k0_pay32 (F := Ideal) (Gen.k0_pay29 (postB x0 x2 x3 x4) x1) (Gen.k0_pay30 (mixB x0 x2 x3 x4) (str0 x0) (str1 x0) (str2 x0))
        (Gen.k0_pay31 (mixB x0 x2 x3 x4) (str3 x0)) (ix2 t d)
      = expand (xblockRow x0 t) (oblockRow x1 t) (wblock x2) (sblock x3) (bblock x4) 1 d :=
  (pay32_apply _ _ _ _ _ _ x1 t d).trans (slab_sum x0 x1 x2 x3 x4 t d 1 x1 rfl)

theorem slab2_eq :
    Gen.k0_pay33 (F := Ideal) (postB x0 x2 x3 x4) (mixB x0 x2 x3 x4) (str0 x0) (str1 x0) (str2 x0) (str3 x0) (Gen.k0_pay27 x1) (ix2 t d)
      = expand (xblockRow x0 t) (oblockRow x1 t) (wblock x2) (sblock x3) (bblock x4) 2 d :=
  (pay33_apply _ _ _ _ _ _ _ t d).trans (slab_sum x0 x1 x2 x3 x4 t d 2 _ (congrFun (pay27_eq x1) _))

theorem slab3_eq :
    Gen.k0_pay34 (F := Ideal) (postB x0 x2 x3 x4) (mixB x0 x2 x3 x4) (str0 x0) (str1 x0) (str2 x0) (str3 x0) (Gen.k0_pay27 x1) (ix2 t d)
      = expand (xblockRow x0 t) (oblockRow x1 t) (wblock x2) (sblock x3) (bblock x4) 3 d :=
  (pay34_apply _ _ _ _ _ _ _ t d).trans (slab_sum x0 x1 x2 x3 x4 t d 3 _ (congrFun (pay27_eq x1) _))

/-- The expanded block as one function of the block's index: row i₀, slab i₁ / 2048, position i₁ % 2048. -/
def Gexp : S64x8192.Idx → EReal := fun i =>
  expand (xblockRow x0 (i 0)) (oblockRow x1 (i 0)) (wblock x2) (sblock x3) (bblock x4)
    ⟨(i 1).val / 2048, Nat.div_lt_of_lt_mul (show (i 1).val < 2048 * 4 from (i 1).isLt)⟩
    ⟨(i 1).val % 2048, Nat.mod_lt _ (by norm_num)⟩

theorem Gexp_at (h : Fin 4) (c : Fin 8192) (hc : c.val = 2048 * h.val + d.val) :
    Gexp x0 x1 x2 x3 x4 (ix2 t c) = expand (xblockRow x0 t) (oblockRow x1 t) (wblock x2) (sblock x3) (bblock x4) h d :=
  congrArg₂ (expand (xblockRow x0 t) (oblockRow x1 t) (wblock x2) (sblock x3) (bblock x4))
    (Fin.ext (by show c.val / 2048 = h.val; omega)) (Fin.ext (by show c.val % 2048 = d.val; omega))

end Expand

/-- A slab's rectangle places (t, d) at (t, o + d). -/
theorem slabRect_emb (o : Nat) (inb : ∀ a, (![0, o] : Fin 2 → Nat) a + S64x2048.size a ≤ S64x8192.size a) (t : Fin 64) (d : Fin 2048)
    (ho : o + d.val < 8192) :
    (Rect.unit (s := S64x8192) ![0, o] S64x2048.size inb).emb (ix2 t d) = ix2 t ⟨o + d.val, ho⟩ :=
  funext fun a => Fin.ext (by
    match a with
    | ⟨0, _⟩ => show 0 + 1 * t.val = t.val; omega
    | ⟨1, _⟩ => show o + 1 * d.val = o + d.val; omega)

/-- The 64 x 8192 output block, row by row and slab by slab, is the expanded rows. -/
theorem payY : PayY := by
  intro x0 x1 x2 x3 x4 t h d
  have hx0 : View.ld x0 Gen.r0_0 = x0 := View.ld_unit_zero hz2 _ x0
  have hx2 : View.ld x2 Gen.r0_1 = x2 := View.ld_unit_zero hz2 _ x2
  have hx1 : View.ld x1 Gen.r0_8 = x1 := View.ld_unit_zero hz2 _ x1
  unfold Gen.out0_5
  rw [hx0, hx2, hx1]
  refine (View.canon_apply_of_pieces (Gexp x0 x1 x2 x3 x4) _ ?_ _ (Gen.cover0_5 _ _ _ _ _)).trans
    (Gexp_at x0 x1 x2 x3 x4 t d h _ rfl)
  intro p hp x
  simp only [List.mem_cons, List.mem_nil_iff, or_false] at hp
  rcases hp with rfl | rfl | rfl | rfl
  · obtain ⟨t', d', rfl⟩ : ∃ (t' : Fin 64) (d' : Fin 2048), x = ix2 t' d' := ⟨x 0, x 1, eq_ix2 x⟩
    show Gen.k0_pay34 (F := Ideal) (postB x0 x2 x3 x4) (mixB x0 x2 x3 x4) (str0 x0) (str1 x0) (str2 x0) (str3 x0) (Gen.k0_pay27 x1) (ix2 t' d')
      = Gexp x0 x1 x2 x3 x4 (Gen.r0_12.emb (ix2 t' d'))
    rw [slabRect_emb 6144 _ t' d' (by omega), Gexp_at x0 x1 x2 x3 x4 t' d' 3 _ rfl]
    exact slab3_eq x0 x1 x2 x3 x4 t' d'
  · obtain ⟨t', d', rfl⟩ : ∃ (t' : Fin 64) (d' : Fin 2048), x = ix2 t' d' := ⟨x 0, x 1, eq_ix2 x⟩
    show Gen.k0_pay33 (F := Ideal) (postB x0 x2 x3 x4) (mixB x0 x2 x3 x4) (str0 x0) (str1 x0) (str2 x0) (str3 x0) (Gen.k0_pay27 x1) (ix2 t' d')
      = Gexp x0 x1 x2 x3 x4 (Gen.r0_11.emb (ix2 t' d'))
    rw [slabRect_emb 4096 _ t' d' (by omega), Gexp_at x0 x1 x2 x3 x4 t' d' 2 _ rfl]
    exact slab2_eq x0 x1 x2 x3 x4 t' d'
  · obtain ⟨t', d', rfl⟩ : ∃ (t' : Fin 64) (d' : Fin 2048), x = ix2 t' d' := ⟨x 0, x 1, eq_ix2 x⟩
    show Gen.k0_pay32 (F := Ideal) (Gen.k0_pay29 (postB x0 x2 x3 x4) x1) (Gen.k0_pay30 (mixB x0 x2 x3 x4) (str0 x0) (str1 x0) (str2 x0))
        (Gen.k0_pay31 (mixB x0 x2 x3 x4) (str3 x0)) (ix2 t' d')
      = Gexp x0 x1 x2 x3 x4 (Gen.r0_10.emb (ix2 t' d'))
    rw [slabRect_emb 2048 _ t' d' (by omega), Gexp_at x0 x1 x2 x3 x4 t' d' 1 _ rfl]
    exact slab1_eq x0 x1 x2 x3 x4 t' d'
  · obtain ⟨t', d', rfl⟩ : ∃ (t' : Fin 64) (d' : Fin 2048), x = ix2 t' d' := ⟨x 0, x 1, eq_ix2 x⟩
    show Gen.k0_pay28 (F := Ideal) (postB x0 x2 x3 x4) (mixB x0 x2 x3 x4) (str0 x0) (str1 x0) (str2 x0) (str3 x0) x1 (ix2 t' d')
      = Gexp x0 x1 x2 x3 x4 (Gen.r0_9.emb (ix2 t' d'))
    rw [slabRect_emb 0 _ t' d' (by omega), Gexp_at x0 x1 x2 x3 x4 t' d' 0 _ rfl]
    exact slab0_eq x0 x1 x2 x3 x4 t' d'

end Cert.KernelIdeal.Bridge

end
-- ==== Proof.BlkFn.lean ====
/-
  The kernel's two result arrays as whole-array functions of the five arrays its body reads blocks of:
  row n of the 8192 x 8192 result is the four expanded rows of row n of the inputs laid side by side
  (stream h at columns 2048 h .. 2048 h + 2047), and row n of the 8192 x 2048 result is the collapsed row.
-/
import proofs.«117766_j9637906612574_2_alg».proof.Proof.KPayStmt

noncomputable section

namespace Cert.KernelIdeal.Bridge

open Idealize.ShloMosaic Idealize.ShloMosaic.ValueIdx Idealize.ShloMosaic.TcCoe Idealize.SL.Sem
open Cert.KernelIdeal Cert.KernelIdeal.Gen
open Idealize.ShloMosaic.Pipeline (Dat)

/-- Row n of an 8192 x 8192 array. -/
def rowsX (A0 : S8192x8192.Idx → EReal) (n : Fin 8192) : Fin 8192 → EReal := fun f => A0 (ix2 n f)
/-- Row n of an 8192 x 2048 array. -/
def rowsO (A1 : S8192x2048.Idx → EReal) (n : Fin 8192) : Fin 2048 → EReal := fun d => A1 (ix2 n d)

/-- The 8192 x 8192 result: at (n, c) the expanded row c / 2048 of row n at position c % 2048. -/
def Ky (A0 : S8192x8192.Idx → EReal) (A1 : S8192x2048.Idx → EReal) (A2 : S24x8192.Idx → EReal)
    (A3 : S1x3.Idx → EReal) (A4 : S1x24.Idx → EReal) : S8192x8192.Idx → EReal := fun i =>
  Cert.Mix.expand (rowsX A0 (i 0)) (rowsO A1 (i 0)) (wblock A2) (sblock A3) (bblock A4)
    ⟨(i 1).val / 2048, Nat.div_lt_of_lt_mul (i 1).isLt⟩ ⟨(i 1).val % 2048, Nat.mod_lt _ (by norm_num)⟩

/-- The 8192 x 2048 result: at (n, d) the collapsed row of row n at position d. -/
def Kc (A0 : S8192x8192.Idx → EReal) (A2 : S24x8192.Idx → EReal)
    (A3 : S1x3.Idx → EReal) (A4 : S1x24.Idx → EReal) : S8192x2048.Idx → EReal := fun i =>
  Cert.Mix.collapsed (rowsX A0 (i 0)) (wblock A2) (sblock A3) (bblock A4) (i 1)

/-- What one grid point leaves in the 64 x 8192 output block, read at any entry of the block. -/
theorem out5_apply (hY : PayY) (x0 : Vec Ideal S64x8192 .f32) (x1 : Vec Ideal S64x2048 .f32) (x2 : Vec Ideal S24x8192 .f32)
    (x3 : Vec Ideal S1x3 .f32) (x4 : Vec Ideal S1x24 .f32) (y : S64x8192.Idx) :
    out0_5 (F := Ideal) x0 x1 x2 x3 x4 y
      = Cert.Mix.expand (xblockRow x0 (y 0)) (oblockRow x1 (y 0)) (wblock x2) (sblock x3) (bblock x4)
          ⟨(y 1).val / 2048, Nat.div_lt_of_lt_mul (y 1).isLt⟩ ⟨(y 1).val % 2048, Nat.mod_lt _ (by norm_num)⟩ := by
  obtain ⟨p, q, rfl⟩ : ∃ (p : Fin 64) (q : Fin 8192), y = ix2 p q := ⟨y 0, y 1, eq_ix2 y⟩
  have hq : q = ⟨2048 * (q.val / 2048) + q.val % 2048, by have := q.isLt; omega⟩ := Fin.ext (Nat.div_add_mod q.val 2048).symm
  refine (congrArg (fun q' => out0_5 (F := Ideal) x0 x1 x2 x3 x4 (ix2 p q')) hq).trans ?_
  exact hY x0 x1 x2 x3 x4 p ⟨q.val / 2048, Nat.div_lt_of_lt_mul q.isLt⟩ ⟨q.val % 2048, Nat.mod_lt _ (by norm_num)⟩

/-- What one grid point leaves in the 64 x 2048 output block, read at any entry of the block. -/
theorem out6_apply (hC : PayC) (x0 : Vec Ideal S64x8192 .f32) (x1 : Vec Ideal S64x2048 .f32) (x2 : Vec Ideal S24x8192 .f32)
    (x3 : Vec Ideal S1x3 .f32) (x4 : Vec Ideal S1x24 .f32) (y : S64x2048.Idx) :
    out0_6 (F := Ideal) x0 x1 x2 x3 x4 y
      = Cert.Mix.collapsed (xblockRow x0 (y 0)) (wblock x2) (sblock x3) (bblock x4) (y 1) := by
  obtain ⟨p, q, rfl⟩ : ∃ (p : Fin 64) (q : Fin 2048), y = ix2 p q := ⟨y 0, y 1, eq_ix2 y⟩
  exact hC x0 x1 x2 x3 x4 p q

end Cert.KernelIdeal.Bridge

end
-- ==== Proof.BlkRead.lean ====
/-
  Each window's block at a grid point, read entry by entry off the array it is a block of: point t takes rows
  64 t .. 64 t + 63 of the two row-blocked inputs and of the two results, and the whole of the weights, the
  scales and the biases.
-/
import proofs.«117766_j9637906612574_2_alg».proof.Proof.BlkFn
import Idealize.ShloMosaic.Lib.Pipeline.Value

noncomputable section

namespace Cert.KernelIdeal.Bridge

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The seven index maps over the grid: the row-blocked windows sit at block row t, the others at the origin. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Entry x of the first input's block at point t is the array's entry 64 t rows further down. -/
theorem iblk0_apply (c : Dev nD) (t : Fin cfg0.N) (x : S64x8192.Idx) (k : S8192x8192.Idx)
    (hk0 : (k 0).val = 64 * t.val + (x 0).val) (hk1 : (k 1).val = (x 1).val) :
    (iblk m c 0 t : Vec Ideal S64x8192 .f32) x = (V m c main_v0 : S8192x8192.Idx → EReal) k := by
  have hi := (index_facts t).1
  unfold iblk
  rw [View.read_apply]
  show V m c main_v0 _ = V m c main_v0 _
  congr 1
  funext a
  apply Fin.ext
  match a with
  | ⟨0, _⟩ => show win0_0.index t 0 * 64 + 1 * (x 0).val = (k 0).val; rw [hi.1, hk0]; omega
  | ⟨1, _⟩ => show win0_0.index t 1 * 8192 + 1 * (x 1).val = (k 1).val; rw [hi.2, hk1]; omega

/-- Entry x of the second input's block at point t is the array's entry 64 t rows further down. -/
theorem iblk1_apply (c : Dev nD) (t : Fin cfg0.N) (x : S64x2048.Idx) (k : S8192x2048.Idx)
    (hk0 : (k 0).val = 64 * t.val + (x 0).val) (hk1 : (k 1).val = (x 1).val) :
    (iblk m c 1 t : Vec Ideal S64x2048 .f32) x = (V m c main_v1 : S8192x2048.Idx → EReal) k := by
  have hi := (index_facts t).2.1
  unfold iblk
  rw [View.read_apply]
  show V m c main_v1 _ = V m c main_v1 _
  congr 1
  funext a
  apply Fin.ext
  match a with
  | ⟨0, _⟩ => show win0_1.index t 0 * 64 + 1 * (x 0).val = (k 0).val; rw [hi.1, hk0]; omega
  | ⟨1, _⟩ => show win0_1.index t 1 * 2048 + 1 * (x 1).val = (k 1).val; rw [hi.2, hk1]; omega

/-- The weights' block at every point is the whole matrix. -/
theorem iblk2_eq (c : Dev nD) (t : Fin cfg0.N) :
    (iblk m c 2 t : Vec Ideal S24x8192 .f32) = (V m c main_arg2 : S24x8192.Idx → EReal) := by
  have hi := (index_facts t).2.2.1
  funext x
  unfold iblk
  rw [View.read_apply]
  show V m c main_arg2 _ = V m c main_arg2 x
  congr 1
  funext a
  apply Fin.ext
  match a with
  | ⟨0, _⟩ => show win0_2.index t 0 * 24 + 1 * (x 0).val = (x 0).val; rw [hi.1]; omega
  | ⟨1, _⟩ => show win0_2.index t 1 * 8192 + 1 * (x 1).val = (x 1).val; rw [hi.2]; omega

/-- The scales' block at every point is the whole one-row matrix. -/
theorem iblk3_eq (c : Dev nD) (t : Fin cfg0.N) :
    (iblk m c 3 t : Vec Ideal S1x3 .f32) = (V m c main_v2 : S1x3.Idx → EReal) := by
  have hi := (index_facts t).2.2.2.1
  funext x
  unfold iblk
  rw [View.read_apply]
  show V m c main_v2 _ = V m c main_v2 x
  congr 1
  funext a
  apply Fin.ext
  match a with
  | ⟨0, _⟩ => show win0_3.index t 0 * 1 + 1 * (x 0).val = (x 0).val; rw [hi.1]; omega
  | ⟨1, _⟩ => show win0_3.index t 1 * 3 + 1 * (x 1).val = (x 1).val; rw [hi.2]; omega

/-- The biases' block at every point is the whole one-row matrix. -/
theorem iblk4_eq (c : Dev nD) (t : Fin cfg0.N) :
    (iblk m c 4 t : Vec Ideal S1x24 .f32) = (V m c main_v3 : S1x24.Idx → EReal) := by
  have hi := (index_facts t).2.2.2.2.1
  funext x
  unfold iblk
  rw [View.read_apply]
  show V m c main_v3 _ = V m c main_v3 x
  congr 1
  funext a
  apply Fin.ext
  match a with
  | ⟨0, _⟩ => show win0_4.index t 0 * 1 + 1 * (x 0).val = (x 0).val; rw [hi.1]; omega
  | ⟨1, _⟩ => show win0_4.index t 1 * 24 + 1 * (x 1).val = (x 1).val; rw [hi.2]; omega

/-- Where entry y of the first result's block at point t sits in the array. -/
theorem emb5_val (t : Fin cfg0.N) (y : S64x8192.Idx) :
    ((((cfg0.win 5).blk t).view.emb y) 0).val = 64 * t.val + (y 0).val
    ∧ ((((cfg0.win 5).blk t).view.emb y) 1).val = (y 1).val := by
  have hi := (index_facts t).2.2.2.2.2.1
  constructor
  · show win0_5.index t 0 * 64 + 1 * (y 0).val = _; rw [hi.1]; omega
  · show win0_5.index t 1 * 8192 + 1 * (y 1).val = _; rw [hi.2]; omega

/-- Where entry y of the second result's block at point t sits in the array. -/
theorem emb6_val (t : Fin cfg0.N) (y : S64x2048.Idx) :
    ((((cfg0.win 6).blk t).view.emb y) 0).val = 64 * t.val + (y 0).val
    ∧ ((((cfg0.win 6).blk t).view.emb y) 1).val = (y 1).val := by
  have hi := (index_facts t).2.2.2.2.2.2
  constructor
  · show win0_6.index t 0 * 64 + 1 * (y 0).val = _; rw [hi.1]; omega
  · show win0_6.index t 1 * 2048 + 1 * (y 1).val = _; rw [hi.2]; omega

end Cert.KernelIdeal.Bridge

end
-- ==== Proof.BlkFlush.lean ====
/-
  What grid point t writes back to each result array is block t of the whole-array function: the body's
  output block, row by row, is the row specification applied to the matching rows of the input blocks,
  and those rows are rows 64 t .. 64 t + 63 of the arrays.
-/
import proofs.«117766_j9637906612574_2_alg».proof.Proof.BlkRead

noncomputable section

namespace Cert.KernelIdeal.Bridge

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- Point t writes back block t of the 8192 x 8192 result. -/
theorem flushed5_eq (hY : PayY) (c : Dev nD) (t : Fin cfg0.N) :
    (dats m 0 c).flushed 5 t = ((cfg0.win 5).blk t).view.read (Elt Ideal)
      (Ky (V m c main_v0) (V m c main_v1) (V m c main_arg2) (V m c main_v2) (V m c main_v3)) := by
  show (cfg0.win 5).cut (grid0.coords t) ((dats m 0 c).after 5 t) = _
  rw [after0_5]
  funext y
  show out0_5 (F := Ideal) (iblk m c 0 t) (iblk m c 1 t) (iblk m c 2 t) (iblk m c 3 t) (iblk m c 4 t) y
    = Ky (V m c main_v0) (V m c main_v1) (V m c main_arg2) (V m c main_v2) (V m c main_v3) (((cfg0.win 5).blk t).view.emb y)
  refine (out5_apply hY (iblk m c 0 t) (iblk m c 1 t) (iblk m c 2 t) (iblk m c 3 t) (iblk m c 4 t) y).trans ?_
  obtain ⟨e0, e1⟩ := emb5_val t y
  have h0 : xblockRow (iblk m c 0 t) (y 0) = rowsX (V m c main_v0) ((((cfg0.win 5).blk t).view.emb y) 0) :=
    funext fun f => iblk0_apply m c t (ix2 (y 0) f) (ix2 ((((cfg0.win 5).blk t).view.emb y) 0) f) e0 rfl
  have h1 : oblockRow (iblk m c 1 t) (y 0) = rowsO (V m c main_v1) ((((cfg0.win 5).blk t).view.emb y) 0) :=
    funext fun d => iblk1_apply m c t (ix2 (y 0) d) (ix2 ((((cfg0.win 5).blk t).view.emb y) 0) d) e0 rfl
  unfold Ky
  rw [h0, h1, iblk2_eq, iblk3_eq, iblk4_eq]
  congr 1
  · exact Fin.ext (congrArg (· / 2048) e1.symm)
  · exact Fin.ext (congrArg (· % 2048) e1.symm)

/-- Point t writes back block t of the 8192 x 2048 result. -/
theorem flushed6_eq (hC : PayC) (c : Dev nD) (t : Fin cfg0.N) :
    (dats m 0 c).flushed 6 t = ((cfg0.win 6).blk t).view.read (Elt Ideal)
      (Kc (V m c main_v0) (V m c main_arg2) (V m c main_v2) (V m c main_v3)) := by
  show (cfg0.win 6).cut (grid0.coords t) ((dats m 0 c).after 6 t) = _
  rw [after0_6]
  funext y
  show out0_6 (F := Ideal) (iblk m c 0 t) (iblk m c 1 t) (iblk m c 2 t) (iblk m c 3 t) (iblk m c 4 t) y
    = Kc (V m c main_v0) (V m c main_arg2) (V m c main_v2) (V m c main_v3) (((cfg0.win 6).blk t).view.emb y)
  refine (out6_apply hC (iblk m c 0 t) (iblk m c 1 t) (iblk m c 2 t) (iblk m c 3 t) (iblk m c 4 t) y).trans ?_
  obtain ⟨e0, e1⟩ := emb6_val t y
  have h0 : xblockRow (iblk m c 0 t) (y 0) = rowsX (V m c main_v0) ((((cfg0.win 6).blk t).view.emb y) 0) :=
    funext fun f => iblk0_apply m c t (ix2 (y 0) f) (ix2 ((((cfg0.win 6).blk t).view.emb y) 0) f) e0 rfl
  unfold Kc
  rw [h0, iblk2_eq, iblk3_eq, iblk4_eq]
  congr 1
  exact Fin.ext e1.symm

end Cert.KernelIdeal.Bridge

end
-- ==== Proof.BlkCover.lean ====
/-
  The blocks of the two result arrays tile them: row r lies in the block of point r / 64.  So after the
  last point each result array is the whole-array function.
-/
import proofs.«117766_j9637906612574_2_alg».proof.Proof.BlkFlush

noncomputable section

namespace Cert.KernelIdeal.Bridge

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- An entry of the first result is in point t's block iff each coordinate is in the block's range. -/
theorem mem_blk5 (t : Fin cfg0.N) (i : S8192x8192.Idx) :
    i ∈ ((cfg0.win 5).blk t).view.set ↔ ∀ a : Fin 2, win0_5.index t a * S64x8192.size a ≤ (i a).val
      ∧ (i a).val < win0_5.index t a * S64x8192.size a + S64x8192.size a := by
  show i ∈ ((View.whole main_v4_0).slice (win0_5.rect t)).set ↔ _
  rw [View.set_slice_whole, Rect.mem_set_unit]
  exact Iff.rfl

/-- An entry of the second result is in point t's block iff each coordinate is in the block's range. -/
theorem mem_blk6 (t : Fin cfg0.N) (i : S8192x2048.Idx) :
    i ∈ ((cfg0.win 6).blk t).view.set ↔ ∀ a : Fin 2, win0_6.index t a * S64x2048.size a ≤ (i a).val
      ∧ (i a).val < win0_6.index t a * S64x2048.size a + S64x2048.size a := by
  show i ∈ ((View.whole main_v4_1).slice (win0_6.rect t)).set ↔ _
  rw [View.set_slice_whole, Rect.mem_set_unit]
  exact Iff.rfl

/-- Every entry of the first result is written back by the point of its row's block. -/
theorem cover5 (i : S8192x8192.Idx) :
    ∃ t : Fin cfg0.N, (cfg0.win 5).flush t = true ∧ i ∈ ((cfg0.win 5).blk t).view.set := by
  have hi0 : (i 0).val < 8192 := (i 0).isLt
  have hi1 : (i 1).val < 8192 := (i 1).isLt
  obtain ⟨t, ht⟩ : ∃ t : Fin cfg0.N, t.val = (i 0).val / 64 :=
    ⟨⟨(i 0).val / 64, by have h : cfg0.N = 128 := N_0; omega⟩, rfl⟩
  obtain ⟨q0, q1⟩ := (index_facts t).2.2.2.2.2.1
  refine ⟨t, flush0_5 t, ?_⟩
  rw [mem_blk5]
  intro a
  match a with
  | ⟨0, _⟩ =>
    show win0_5.index t 0 * 64 ≤ (i 0).val ∧ (i 0).val < win0_5.index t 0 * 64 + 64
    rw [q0, ht]; omega
  | ⟨1, _⟩ =>
    show win0_5.index t 1 * 8192 ≤ (i 1).val ∧ (i 1).val < win0_5.index t 1 * 8192 + 8192
    rw [q1]; omega

/-- Every entry of the second result is written back by the point of its row's block. -/
theorem cover6 (i : S8192x2048.Idx) :
    ∃ t : Fin cfg0.N, (cfg0.win 6).flush t = true ∧ i ∈ ((cfg0.win 6).blk t).view.set := by
  have hi0 : (i 0).val < 8192 := (i 0).isLt
  have hi1 : (i 1).val < 2048 := (i 1).isLt
  obtain ⟨t, ht⟩ : ∃ t : Fin cfg0.N, t.val = (i 0).val / 64 :=
    ⟨⟨(i 0).val / 64, by have h : cfg0.N = 128 := N_0; omega⟩, rfl⟩
  obtain ⟨q0, q1⟩ := (index_facts t).2.2.2.2.2.2
  refine ⟨t, flush0_6 t, ?_⟩
  rw [mem_blk6]
  intro a
  match a with
  | ⟨0, _⟩ =>
    show win0_6.index t 0 * 64 ≤ (i 0).val ∧ (i 0).val < win0_6.index t 0 * 64 + 64
    rw [q0, ht]; omega
  | ⟨1, _⟩ =>
    show win0_6.index t 1 * 2048 ≤ (i 1).val ∧ (i 1).val < win0_6.index t 1 * 2048 + 2048
    rw [q1]; omega

/-- After the last point the first result array is the whole-array function of the arrays the region found. -/
theorem final5 (hY : PayY) (c : Dev nD) :
    (dats m 0 c).arrAt 5 cfg0.N = Ky (V m c main_v0) (V m c main_v1) (V m c main_arg2) (V m c main_v2) (V m c main_v3) :=
  (dats m 0 c).arrAt_eq_of_cover 5 (Ky (V m c main_v0) (V m c main_v1) (V m c main_arg2) (V m c main_v2) (V m c main_v3))
    (fun t _ => flushed5_eq m hY c t) cover5

/-- After the last point the second result array is the whole-array function of the arrays the region found. -/
theorem final6 (hC : PayC) (c : Dev nD) :
    (dats m 0 c).arrAt 6 cfg0.N = Kc (V m c main_v0) (V m c main_arg2) (V m c main_v2) (V m c main_v3) :=
  (dats m 0 c).arrAt_eq_of_cover 6 (Kc (V m c main_v0) (V m c main_arg2) (V m c main_v2) (V m c main_v3))
    (fun t _ => flushed6_eq m hC c t) cover6

end Cert.KernelIdeal.Bridge

end
-- ==== Proof.BlkIn.lean ====
/-
  The five arrays the kernel's grid reads blocks of, as the region finds them: the first two arguments
  reshaped to 8192 rows (row 4096 b + s is token (b, s)), the weights as passed, the scales and the biases as
  one-row matrices.  Each is read row by row against the argument it was reshaped from.
-/
import proofs.«117766_j9637906612574_2_alg».proof.Proof.BlkFn
import Idealize.ShloMosaic.Lib.StableHlo.Run
import Idealize.ShloMosaic.Lib.Pipeline.Value

noncomputable section

namespace Cert.KernelIdeal.Bridge

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The region finds the first argument reshaped to 8192 x 8192. -/
theorem V_main_v0 (c : Dev nD) : (V m c main_v0 : S8192x8192.Idx → EReal)
    = shapeCast S8192x8192 (m ((c : Thread nD τ).loc main_arg0) : S2x4096x4x2048.Idx → EReal) Facts₀.shapeCasts_S2x4096x4x2048_S8192x8192 := by
  show StableHlo.after hostOps0 (fun b => m (c, b)) (Proc.devRef .tc main_v0) = _
  after_results
  rfl

/-- The region finds the second argument reshaped to 8192 x 2048. -/
theorem V_main_v1 (c : Dev nD) : (V m c main_v1 : S8192x2048.Idx → EReal)
    = shapeCast S8192x2048 (m ((c : Thread nD τ).loc main_arg1) : S2x4096x2048.Idx → EReal) Facts₀.shapeCasts_S2x4096x2048_S8192x2048 := by
  show StableHlo.after hostOps0 (fun b => m (c, b)) (Proc.devRef .tc main_v1) = _
  after_results
  rfl

/-- The region finds the scales as a 1 x 3 matrix. -/
theorem V_main_v2 (c : Dev nD) : (V m c main_v2 : S1x3.Idx → EReal)
    = shapeCast S1x3 (m ((c : Thread nD τ).loc main_arg3) : S3.Idx → EReal) Facts₀.shapeCasts_S3_S1x3 := by
  show StableHlo.after hostOps0 (fun b => m (c, b)) (Proc.devRef .tc main_v2) = _
  after_results
  rfl

/-- The region finds the biases as a 1 x 24 matrix. -/
theorem V_main_v3 (c : Dev nD) : (V m c main_v3 : S1x24.Idx → EReal)
    = shapeCast S1x24 (m ((c : Thread nD τ).loc main_arg4) : S24.Idx → EReal) Facts₀.shapeCasts_S24_S1x24 := by
  show StableHlo.after hostOps0 (fun b => m (c, b)) (Proc.devRef .tc main_v3) = _
  after_results
  rfl

/-- Row n of the reshaped first argument is the flattened row of token (n / 4096, n % 4096). -/
theorem rowsX_V (c : Dev nD) (n : Fin 8192) :
    rowsX (V m c main_v0) n
      = Cert.Mix.xrow (m ((c : Thread nD τ).loc main_arg0)) ⟨n.val / 4096, by have := n.isLt; omega⟩ ⟨n.val % 4096, Nat.mod_lt _ (by norm_num)⟩ := by
  funext f
  unfold rowsX Cert.Mix.xrow
  rw [V_main_v0]
  refine shapeCast_apply (s := S2x4096x4x2048) (t := S8192x8192) _ _ _ _ ?_
  rw [Shape.rowMajor_val_four, Shape.rowMajor_val_two]
  show (((n.val / 4096) * 4096 + n.val % 4096) * 4 + f.val / 2048) * 2048 + f.val % 2048 = n.val * 8192 + f.val
  omega

/-- Row n of the reshaped second argument is the row of token (n / 4096, n % 4096). -/
theorem rowsO_V (c : Dev nD) (n : Fin 8192) :
    rowsO (V m c main_v1) n
      = Cert.Mix.orow (m ((c : Thread nD τ).loc main_arg1)) ⟨n.val / 4096, by have := n.isLt; omega⟩ ⟨n.val % 4096, Nat.mod_lt _ (by norm_num)⟩ := by
  funext d
  unfold rowsO Cert.Mix.orow
  rw [V_main_v1]
  refine shapeCast_apply (s := S2x4096x2048) (t := S8192x2048) _ _ _ _ ?_
  rw [Shape.rowMajor_val_three, Shape.rowMajor_val_two]
  show ((n.val / 4096) * 4096 + n.val % 4096) * 2048 + d.val = n.val * 2048 + d.val
  omega

/-- The weights are found as passed. -/
theorem wblock_V (c : Dev nD) : wblock (V m c main_arg2) = Cert.Mix.wmat (m ((c : Thread nD τ).loc main_arg2)) := by
  rw [V_main_arg2]
  rfl

/-- The one row of the scales' matrix is the scales. -/
theorem sblock_V (c : Dev nD) : sblock (V m c main_v2) = Cert.Mix.vec3 (m ((c : Thread nD τ).loc main_arg3)) := by
  funext i
  unfold sblock Cert.Mix.vec3
  rw [V_main_v2]
  refine shapeCast_apply (s := S3) (t := S1x3) _ _ _ _ ?_
  rw [Shape.rowMajor_val_one, Shape.rowMajor_val_two]
  show i.val = 0 * 3 + i.val
  omega

/-- The one row of the biases' matrix is the biases. -/
theorem bblock_V (c : Dev nD) : bblock (V m c main_v3) = Cert.Mix.vec24 (m ((c : Thread nD τ).loc main_arg4)) := by
  funext j
  unfold bblock Cert.Mix.vec24
  rw [V_main_v3]
  refine shapeCast_apply (s := S24) (t := S1x24) _ _ _ _ ?_
  rw [Shape.rowMajor_val_one, Shape.rowMajor_val_two]
  show j.val = 0 * 24 + j.val
  omega

end Cert.KernelIdeal.Bridge

end
-- ==== Proof.BlkTail.lean ====
/-
  The two reshapes after the grid: the 8192 x 8192 result read as [2, 4096, 4, 2048] and the 8192 x 2048 one as
  [2, 4096, 2048].  Entry (b, s, h, d) of the first is entry (4096 b + s, 2048 h + d) of the whole-array function,
  which is expanded row h of token (b, s) at position d; likewise the collapsed row for the second.
-/
import proofs.«117766_j9637906612574_2_alg».proof.Proof.BlkCover
import proofs.«117766_j9637906612574_2_alg».proof.Proof.BlkIn

noncomputable section

namespace Cert.KernelIdeal.Bridge

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The first result, after the reshape that follows the grid, is the specification's y. -/
theorem tail5 (hY : PayY) (c : Dev nD) :
    (Pipeline.afterTail₀ cfgs (dats m) 0 (V0 m) [hostOps1] c main_v5 : S2x4096x4x2048.Idx → EReal)
      = Cert.Mix.Gy (m ((c : Thread nD τ).loc main_arg0)) (m ((c : Thread nD τ).loc main_arg1))
          (m ((c : Thread nD τ).loc main_arg2)) (m ((c : Thread nD τ).loc main_arg3)) (m ((c : Thread nD τ).loc main_arg4)) := by
  have e : (Pipeline.afterTail₀ cfgs (dats m) 0 (V0 m) [hostOps1] c main_v5 : S2x4096x4x2048.Idx → EReal)
      = shapeCast S2x4096x4x2048 (Ky (V m c main_v0) (V m c main_v1) (V m c main_arg2) (V m c main_v2) (V m c main_v3))
          Facts₀.shapeCasts_S8192x8192_S2x4096x4x2048 := by
    unfold Pipeline.afterTail₀
    show StableHlo.after hostOps1 _ (Proc.devRef .tc main_v5) = _
    after_results
    rw [(Pipeline.withArrays_arr spec0 launch0.win.arr_inj c _ _ 5).trans (final5 m hY c)]
    rfl
  rw [e]
  funext i
  obtain ⟨b, s, h, d, rfl⟩ : ∃ (b : Fin 2) (s : Fin 4096) (h : Fin 4) (d : Fin 2048), i = ix4 b s h d :=
    ⟨i 0, i 1, i 2, i 3, eq_ix4 i⟩
  refine (shapeCast_apply (s := S8192x8192) (t := S2x4096x4x2048) _ _ (ix4 b s h d)
    (ix2 ⟨4096 * b.val + s.val, by have := b.isLt; have := s.isLt; omega⟩ ⟨2048 * h.val + d.val, by have := h.isLt; have := d.isLt; omega⟩) ?_).trans ?_
  · rw [Shape.rowMajor_val_two, Shape.rowMajor_val_four]
    show (4096 * b.val + s.val) * 8192 + (2048 * h.val + d.val) = ((b.val * 4096 + s.val) * 4 + h.val) * 2048 + d.val
    omega
  unfold Ky
  rw [rowsX_V, rowsO_V, wblock_V, sblock_V, bblock_V]
  have key : ∀ (B : Fin 2) (S : Fin 4096) (H : Fin 4) (D : Fin 2048), B.val = b.val → S.val = s.val → H.val = h.val → D.val = d.val →
      Cert.Mix.expand (Cert.Mix.xrow (m ((c : Thread nD τ).loc main_arg0)) B S) (Cert.Mix.orow (m ((c : Thread nD τ).loc main_arg1)) B S)
        (Cert.Mix.wmat (m ((c : Thread nD τ).loc main_arg2))) (Cert.Mix.vec3 (m ((c : Thread nD τ).loc main_arg3)))
        (Cert.Mix.vec24 (m ((c : Thread nD τ).loc main_arg4))) H D
      = Cert.Mix.Gy (m ((c : Thread nD τ).loc main_arg0)) (m ((c : Thread nD τ).loc main_arg1))
          (m ((c : Thread nD τ).loc main_arg2)) (m ((c : Thread nD τ).loc main_arg3)) (m ((c : Thread nD τ).loc main_arg4)) (ix4 b s h d) := by
    intro B S H D hB hS hH hD
    obtain rfl := Fin.ext hB
    obtain rfl := Fin.ext hS
    obtain rfl := Fin.ext hH
    obtain rfl := Fin.ext hD
    rfl
  have hb := b.isLt
  have hs := s.isLt
  have hh := h.isLt
  have hd := d.isLt
  exact key _ _ _ _ (by show (4096 * b.val + s.val) / 4096 = b.val; omega) (by show (4096 * b.val + s.val) % 4096 = s.val; omega)
    (by show (2048 * h.val + d.val) / 2048 = h.val; omega) (by show (2048 * h.val + d.val) % 2048 = d.val; omega)

/-- The second result, after the reshape that follows the grid, is the specification's collapsed array. -/
theorem tail6 (hC : PayC) (c : Dev nD) :
    (Pipeline.afterTail₀ cfgs (dats m) 0 (V0 m) [hostOps1] c main_v6 : S2x4096x2048.Idx → EReal)
      = Cert.Mix.Gc (m ((c : Thread nD τ).loc main_arg0))
          (m ((c : Thread nD τ).loc main_arg2)) (m ((c : Thread nD τ).loc main_arg3)) (m ((c : Thread nD τ).loc main_arg4)) := by
  have e : (Pipeline.afterTail₀ cfgs (dats m) 0 (V0 m) [hostOps1] c main_v6 : S2x4096x2048.Idx → EReal)
      = shapeCast S2x4096x2048 (Kc (V m c main_v0) (V m c main_arg2) (V m c main_v2) (V m c main_v3))
          Facts₀.shapeCasts_S8192x2048_S2x4096x2048 := by
    unfold Pipeline.afterTail₀
    show StableHlo.after hostOps1 _ (Proc.devRef .tc main_v6) = _
    after_results
    rw [(Pipeline.withArrays_arr spec0 launch0.win.arr_inj c _ _ 6).trans (final6 m hC c)]
    rfl
  rw [e]
  funext i
  obtain ⟨b, s, d, rfl⟩ : ∃ (b : Fin 2) (s : Fin 4096) (d : Fin 2048), i = ix3 b s d :=
    ⟨i 0, i 1, i 2, eq_ix3 i⟩
  refine (shapeCast_apply (s := S8192x2048) (t := S2x4096x2048) _ _ (ix3 b s d)
    (ix2 ⟨4096 * b.val + s.val, by have := b.isLt; have := s.isLt; omega⟩ d) ?_).trans ?_
  · rw [Shape.rowMajor_val_two, Shape.rowMajor_val_three]
    show (4096 * b.val + s.val) * 2048 + d.val = (b.val * 4096 + s.val) * 2048 + d.val
    omega
  unfold Kc
  rw [rowsX_V, wblock_V, sblock_V, bblock_V]
  have key : ∀ (B : Fin 2) (S : Fin 4096), B.val = b.val → S.val = s.val →
      Cert.Mix.collapsed (Cert.Mix.xrow (m ((c : Thread nD τ).loc main_arg0)) B S)
        (Cert.Mix.wmat (m ((c : Thread nD τ).loc main_arg2))) (Cert.Mix.vec3 (m ((c : Thread nD τ).loc main_arg3)))
        (Cert.Mix.vec24 (m ((c : Thread nD τ).loc main_arg4))) d
      = Cert.Mix.Gc (m ((c : Thread nD τ).loc main_arg0))
          (m ((c : Thread nD τ).loc main_arg2)) (m ((c : Thread nD τ).loc main_arg3)) (m ((c : Thread nD τ).loc main_arg4)) (ix3 b s d) := by
    intro B S hB hS
    obtain rfl := Fin.ext hB
    obtain rfl := Fin.ext hS
    rfl
  have hb := b.isLt
  have hs := s.isLt
  exact key _ _ (by show (4096 * b.val + s.val) / 4096 = b.val; omega) (by show (4096 * b.val + s.val) % 4096 = s.val; omega)

end Cert.KernelIdeal.Bridge

end
-- ==== Proof.BlkRun.lean ====
/-
  The kernel's run, read: after it the two result arrays hold the specification's y and collapsed arrays of the
  five arguments, and the arguments are unchanged — given what one grid point leaves in its two output blocks.
-/
import proofs.«117766_j9637906612574_2_alg».proof.Proof.BlkTail

noncomputable section

namespace Cert.KernelIdeal.Bridge

open Idealize.ShloMosaic Idealize.ShloMosaic.ValueIdx Idealize.ShloMosaic.TcCoe Idealize.SL.Sem
open Cert.KernelIdeal Cert.KernelIdeal.Gen
open Idealize.ShloMosaic.Pipeline (Dat)

/-- Every execution of the kernel's program ends with y and the collapsed array in the two results. -/
theorem kernel_run (hC : PayC) (hY : PayY) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5)
          = Cert.Mix.Gy (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_v6)
          = Cert.Mix.Gc (m ((c.tc : Thread nD τ).loc main_arg0))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (tail5 m hY c),
      ((h c).2 main_v6 (Pipeline.mem_restRefs_of main_v6 (by decide) (by decide))).trans (tail6 m hC c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Bridge

end
-- ==== Proof.RefSteps.lean ====
/-
  One Sinkhorn normalisation of the reference as a function of whole arrays, and what it does to the
  4 x 4 matrix that sits at a token row (b, s).

  The reference holds the mixing matrices of all token rows in one array of shape [2, 4096, 4, 4].  A column
  normalisation divides the array by the broadcast of (its sum over axis 2, plus eps); a row normalisation does
  the same with axis 3.  Read at (b, s, h, k), the first is entry (h, k) of the matrix at (b, s) divided by the
  sum of that matrix's column k plus eps, the second the same with row h: the specification's colStep and rowStep.
-/
import proofs.«117766_j9637906612574_2_alg».proof.Proof.Gen.ReferenceIdeal
import proofs.«117766_j9637906612574_2_alg».proof.Proof.Spec
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The array of all token rows' 4 x 4 matrices. -/
abbrev Arr44 : Type := S2x4096x4x4.Idx → EReal

/-- The matrix at token row (b, s). -/
def cur (A : Arr44) (b : Fin 2) (s : Fin 4096) : Cert.Mix.Mat := fun h k => A (ix4 b s h k)

/-- Divide by the broadcast of (the sum over axis 2, plus eps). -/
def refCol (A : FVec Ideal S2x4096x4x4 .f32) : FVec Ideal S2x4096x4x4 .f32 :=
  Host.divf A (broadcastInDim S2x4096x4x4 ![0, 1, 2, 3] bcast_S2x4096x1x4_S2x4096x4x4_0_1_2_3 (addf (broadcastInDim S2x4096x1x4 ![0, 1, 3] bcast_S2x4096x4_S2x4096x1x4_0_1_3 (Host.reduceAdd A (constant S_ .f32 0x00000000#32) reducesTo_S2x4096x4x4_S2x4096x4_d2 h_S_)) (broadcastInDim S2x4096x1x4 ![] bcast_S_S2x4096x1x4 (constant S_ .f32 0x358637BD#32))))

/-- Divide by the broadcast of (the sum over axis 3, plus eps). -/
def refRow (A : FVec Ideal S2x4096x4x4 .f32) : FVec Ideal S2x4096x4x4 .f32 :=
  Host.divf A (broadcastInDim S2x4096x4x4 ![0, 1, 2, 3] bcast_S2x4096x4x1_S2x4096x4x4_0_1_2_3 (addf (broadcastInDim S2x4096x4x1 ![0, 1, 2] bcast_S2x4096x4_S2x4096x4x1_0_1_2 (Host.reduceAdd A (constant S_ .f32 0x00000000#32) reducesTo_S2x4096x4x4_S2x4096x4_d3 h_S_)) (broadcastInDim S2x4096x4x1 ![] bcast_S_S2x4096x4x1 (constant S_ .f32 0x358637BD#32))))

theorem red2 : S2x4096x4x4.Reduces [2] S2x4096x4 := by decide
theorem red3 : S2x4096x4x4.Reduces [3] S2x4096x4 := by decide

/-- The sum over axis 2 at (b, s, k) is the sum of column k of the matrix at (b, s). -/
theorem sumAxis2 (A : FVec Ideal S2x4096x4x4 .f32) (b : Fin 2) (s : Fin 4096) (k : Fin 4) :
    Host.reduceAdd A (constant S_ .f32 0x00000000#32) reducesTo_S2x4096x4x4_S2x4096x4_d2 h_S_ (ix3 b s k)
      = ∑ h' : Fin 4, A (ix4 b s h' k) := by
  show Ideal.hostReduceAdd reducesTo_S2x4096x4x4_S2x4096x4_d2 A (Ideal.ofBits .f32 0x00000000#32) (ix3 b s k) = _
  rw [Ideal.hostReduceAdd_single _ red2, Ideal.ofBits_zero_f32, zero_add]
  show ∑ h' : Fin 4, A (red2.lift (ix3 b s k) h') = _
  refine Finset.sum_congr rfl fun h' _ => congrArg A ?_
  funext a
  match a with
  | ⟨0, _⟩ => rfl
  | ⟨1, _⟩ => rfl
  | ⟨2, _⟩ => rfl
  | ⟨3, _⟩ => rfl

/-- The sum over axis 3 at (b, s, h) is the sum of row h of the matrix at (b, s). -/
theorem sumAxis3 (A : FVec Ideal S2x4096x4x4 .f32) (b : Fin 2) (s : Fin 4096) (h : Fin 4) :
    Host.reduceAdd A (constant S_ .f32 0x00000000#32) reducesTo_S2x4096x4x4_S2x4096x4_d3 h_S_ (ix3 b s h)
      = ∑ k' : Fin 4, A (ix4 b s h k') := by
  show Ideal.hostReduceAdd reducesTo_S2x4096x4x4_S2x4096x4_d3 A (Ideal.ofBits .f32 0x00000000#32) (ix3 b s h) = _
  rw [Ideal.hostReduceAdd_single _ red3, Ideal.ofBits_zero_f32, zero_add]
  show ∑ k' : Fin 4, A (red3.lift (ix3 b s h) k') = _
  refine Finset.sum_congr rfl fun k' _ => congrArg A ?_
  funext a
  match a with
  | ⟨0, _⟩ => rfl
  | ⟨1, _⟩ => rfl
  | ⟨2, _⟩ => rfl
  | ⟨3, _⟩ => rfl

/-- A column normalisation of the array is the column step of each token row's matrix. -/
theorem cur_refCol (A : FVec Ideal S2x4096x4x4 .f32) (b : Fin 2) (s : Fin 4096) :
    cur (refCol A) b s = Cert.Mix.colStep (cur A b s) := by
  funext h k
  show Ideal.div (A (ix4 b s h k)) _ = Ideal.div (A (ix4 b s h k)) _
  refine congrArg (Ideal.div (A (ix4 b s h k))) ?_
  rw [broadcastInDim_apply _ _ _ (ix4 b s h k) (ix4 b s (0 : Fin 1) k)
    (fun a => match a with | ⟨0, _⟩ => rfl | ⟨1, _⟩ => rfl | ⟨2, _⟩ => rfl | ⟨3, _⟩ => rfl)]
  rw [addf_apply]
  rw [broadcastInDim_apply _ _ _ (ix4 b s (0 : Fin 1) k) (ix3 b s k)
    (fun a => match a with | ⟨0, _⟩ => rfl | ⟨1, _⟩ => rfl | ⟨2, _⟩ => rfl)]
  rw [sumAxis2]
  rfl

/-- A row normalisation of the array is the row step of each token row's matrix. -/
theorem cur_refRow (A : FVec Ideal S2x4096x4x4 .f32) (b : Fin 2) (s : Fin 4096) :
    cur (refRow A) b s = Cert.Mix.rowStep (cur A b s) := by
  funext h k
  show Ideal.div (A (ix4 b s h k)) _ = Ideal.div (A (ix4 b s h k)) _
  refine congrArg (Ideal.div (A (ix4 b s h k))) ?_
  rw [broadcastInDim_apply _ _ _ (ix4 b s h k) (ix4 b s h (0 : Fin 1))
    (fun a => match a with | ⟨0, _⟩ => rfl | ⟨1, _⟩ => rfl | ⟨2, _⟩ => rfl | ⟨3, _⟩ => rfl)]
  rw [addf_apply]
  rw [broadcastInDim_apply _ _ _ (ix4 b s h (0 : Fin 1)) (ix3 b s h)
    (fun a => match a with | ⟨0, _⟩ => rfl | ⟨1, _⟩ => rfl | ⟨2, _⟩ => rfl)]
  rw [sumAxis3]
  rfl

end Cert.ReferenceIdeal.RefValue

end
-- ==== Proof.RefChain.lean ====
/-
  The 39 Sinkhorn normalisations of the reference, chained.

  The reference names the array after each of its first 38 normalisations; each is the column or the row
  normalisation of the one before, alternately, starting with a column normalisation of the softmax array, and the
  last column normalisation is applied where the result is used.  Read at a token row, each is the specification's
  column or row step of the 4 x 4 matrix there, so the whole chain is the specification's Sinkhorn iteration: one
  priming column step, then nineteen cycles of a row step followed by a column step.
-/
import proofs.«117766_j9637906612574_2_alg».proof.Proof.Gen.ReferenceIdeal.Run
import proofs.«117766_j9637906612574_2_alg».proof.Proof.RefSteps

noncomputable section

namespace Cert.ReferenceIdeal.RefValue

open Cert.ReferenceIdeal Cert.ReferenceIdeal.Gen Cert.ReferenceIdeal.Value Idealize.ShloMosaic Idealize.ShloMosaic.ValueIdx Idealize.ShloMosaic.TcCoe Idealize.SL.Sem Idealize.ShloMosaic.StableHlo

theorem v75_eq (V0 : Valuation τ sig (Elt Ideal)) : res_main_v75 V0 = refCol (res_main_v69 V0) := rfl
theorem v81_eq (V0 : Valuation τ sig (Elt Ideal)) : res_main_v81 V0 = refRow (res_main_v75 V0) := rfl
theorem v87_eq (V0 : Valuation τ sig (Elt Ideal)) : res_main_v87 V0 = refCol (res_main_v81 V0) := rfl
theorem v93_eq (V0 : Valuation τ sig (Elt Ideal)) : res_main_v93 V0 = refRow (res_main_v87 V0) := rfl
theorem v99_eq (V0 : Valuation τ sig (Elt Ideal)) : res_main_v99 V0 = refCol (res_main_v93 V0) := rfl
theorem v105_eq (V0 : Valuation τ sig (Elt Ideal)) : res_main_v105 V0 = refRow (res_main_v99 V0) := rfl
theorem v111_eq (V0 : Valuation τ sig (Elt Ideal)) : res_main_v111 V0 = refCol (res_main_v105 V0) := rfl
theorem v117_eq (V0 : Valuation τ sig (Elt Ideal)) : res_main_v117 V0 = refRow (res_main_v111 V0) := rfl
theorem v123_eq (V0 : Valuation τ sig (Elt Ideal)) : res_main_v123 V0 = refCol (res_main_v117 V0) := rfl
theorem v129_eq (V0 : Valuation τ sig (Elt Ideal)) : res_main_v129 V0 = refRow (res_main_v123 V0) := rfl
theorem v135_eq (V0 : Valuation τ sig (Elt Ideal)) : res_main_v135 V0 = refCol (res_main_v129 V0) := rfl
theorem v141_eq (V0 : Valuation τ sig (Elt Ideal)) : res_main_v141 V0 = refRow (res_main_v135 V0) := rfl
theorem v147_eq (V0 : Valuation τ sig (Elt Ideal)) : res_main_v147 V0 = refCol (res_main_v141 V0) := rfl
theorem v153_eq (V0 : Valuation τ sig (Elt Ideal)) : res_main_v153 V0 = refRow (res_main_v147 V0) := rfl
theorem v159_eq (V0 : Valuation τ sig (Elt Ideal)) : res_main_v159 V0 = refCol (res_main_v153 V0) := rfl
theorem v165_eq (V0 : Valuation τ sig (Elt Ideal)) : res_main_v165 V0 = refRow (res_main_v159 V0) := rfl
theorem v171_eq (V0 : Valuation τ sig (Elt Ideal)) : res_main_v171 V0 = refCol (res_main_v165 V0) := rfl
theorem v177_eq (V0 : Valuation τ sig (Elt Ideal)) : res_main_v177 V0 = refRow (res_main_v171 V0) := rfl
theorem v183_eq (V0 : Valuation τ sig (Elt Ideal)) : res_main_v183 V0 = refCol (res_main_v177 V0) := rfl
theorem v189_eq (V0 : Valuation τ sig (Elt Ideal)) : res_main_v189 V0 = refRow (res_main_v183 V0) := rfl
theorem v195_eq (V0 : Valuation τ sig (Elt Ideal)) : res_main_v195 V0 = refCol (res_main_v189 V0) := rfl
theorem v201_eq (V0 : Valuation τ sig (Elt Ideal)) : res_main_v201 V0 = refRow (res_main_v195 V0) := rfl
theorem v207_eq (V0 : Valuation τ sig (Elt Ideal)) : res_main_v207 V0 = refCol (res_main_v201 V0) := rfl
theorem v213_eq (V0 : Valuation τ sig (Elt Ideal)) : res_main_v213 V0 = refRow (res_main_v207 V0) := rfl
theorem v219_eq (V0 : Valuation τ sig (Elt Ideal)) : res_main_v219 V0 = refCol (res_main_v213 V0) := rfl
theorem v225_eq (V0 : Valuation τ sig (Elt Ideal)) : res_main_v225 V0 = refRow (res_main_v219 V0) := rfl
theorem v231_eq (V0 : Valuation τ sig (Elt Ideal)) : res_main_v231 V0 = refCol (res_main_v225 V0) := rfl
theorem v237_eq (V0 : Valuation τ sig (Elt Ideal)) : res_main_v237 V0 = refRow (res_main_v231 V0) := rfl
theorem v243_eq (V0 : Valuation τ sig (Elt Ideal)) : res_main_v243 V0 = refCol (res_main_v237 V0) := rfl
theorem v249_eq (V0 : Valuation τ sig (Elt Ideal)) : res_main_v249 V0 = refRow (res_main_v243 V0) := rfl
theorem v255_eq (V0 : Valuation τ sig (Elt Ideal)) : res_main_v255 V0 = refCol (res_main_v249 V0) := rfl
theorem v261_eq (V0 : Valuation τ sig (Elt Ideal)) : res_main_v261 V0 = refRow (res_main_v255 V0) := rfl
theorem v267_eq (V0 : Valuation τ sig (Elt Ideal)) : res_main_v267 V0 = refCol (res_main_v261 V0) := rfl
theorem v273_eq (V0 : Valuation τ sig (Elt Ideal)) : res_main_v273 V0 = refRow (res_main_v267 V0) := rfl
theorem v279_eq (V0 : Valuation τ sig (Elt Ideal)) : res_main_v279 V0 = refCol (res_main_v273 V0) := rfl
theorem v285_eq (V0 : Valuation τ sig (Elt Ideal)) : res_main_v285 V0 = refRow (res_main_v279 V0) := rfl
theorem v291_eq (V0 : Valuation τ sig (Elt Ideal)) : res_main_v291 V0 = refCol (res_main_v285 V0) := rfl
theorem v297_eq (V0 : Valuation τ sig (Elt Ideal)) : res_main_v297 V0 = refRow (res_main_v291 V0) := rfl

/-- The last column normalisation of the array after 38 steps, at a token row, is the Sinkhorn iteration of the
    softmax array's matrix there. -/
theorem cur_sinkhorn (V0 : Valuation τ sig (Elt Ideal)) (b : Fin 2) (s : Fin 4096) :
    cur (refCol (res_main_v297 V0)) b s = Cert.Mix.sinkhorn (cur (res_main_v69 V0) b s) := by
  rw [cur_refCol, v297_eq, cur_refRow, v291_eq, cur_refCol, v285_eq, cur_refRow, v279_eq, cur_refCol, v273_eq, cur_refRow, v267_eq, cur_refCol, v261_eq, cur_refRow, v255_eq, cur_refCol, v249_eq, cur_refRow, v243_eq, cur_refCol, v237_eq, cur_refRow, v231_eq, cur_refCol, v225_eq, cur_refRow, v219_eq, cur_refCol, v213_eq, cur_refRow, v207_eq, cur_refCol, v201_eq, cur_refRow, v195_eq, cur_refCol, v189_eq, cur_refRow, v183_eq, cur_refCol, v177_eq, cur_refRow, v171_eq, cur_refCol, v165_eq, cur_refRow, v159_eq, cur_refCol, v153_eq, cur_refRow, v147_eq, cur_refCol, v141_eq, cur_refRow, v135_eq, cur_refCol, v129_eq, cur_refRow, v123_eq, cur_refCol, v117_eq, cur_refRow, v111_eq, cur_refCol, v105_eq, cur_refRow, v99_eq, cur_refCol, v93_eq, cur_refRow, v87_eq, cur_refCol, v81_eq, cur_refRow, v75_eq, cur_refCol]
  rfl

end Cert.ReferenceIdeal.RefValue

end
-- ==== Proof.RefHead.lean ====
/-
  The head of the reference read at a token row: the flattened row, its RMS normaliser, and the 24 projections.

  The reference reshapes x from [2, 4096, 4, 2048] to [2, 4096, 8192]; entry (b, s, f) of the result is entry
  (b, s, f / 2048, f % 2048) of x, since both have the same row-major position.  The sum of squares over the last
  axis, divided by 8192, plus eps, under the reciprocal square root, is the row's normaliser; the product of the
  normalised rows with the transposed weights, a contraction over the 8192 entries, gives the logits.
-/
import proofs.«117766_j9637906612574_2_alg».proof.Proof.Gen.ReferenceIdeal
import proofs.«117766_j9637906612574_2_alg».proof.Proof.Spec
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The flattened rows. -/
def flat (a0 : FVec Ideal S2x4096x4x2048 .f32) : FVec Ideal S2x4096x8192 .f32 :=
  shapeCast _ a0 shapeCasts_S2x4096x4x2048_S2x4096x8192

/-- Entry (b, s, f) of the flattened array is entry f of the specification's row (b, s). -/
theorem flat_apply (a0 : FVec Ideal S2x4096x4x2048 .f32) (b : Fin 2) (s : Fin 4096) (f : Fin 8192) :
    flat a0 (ix3 b s f) = Cert.Mix.xrow a0 b s f := by
  unfold flat Cert.Mix.xrow
  refine shapeCast_apply a0 _ (ix3 b s f) _ ?_
  rw [Shape.rowMajor_val_four, Shape.rowMajor_val_three]
  show ((b.val * 4096 + s.val) * 4 + f.val / 2048) * 2048 + f.val % 2048 = (b.val * 4096 + s.val) * 8192 + f.val
  omega

theorem red8192 : S2x4096x8192.Reduces [2] S2x4096 := by decide

/-- The rows' sums of squares. -/
def sumsq (a0 : FVec Ideal S2x4096x4x2048 .f32) : FVec Ideal S2x4096 .f32 :=
  Host.reduceAdd (mulf (flat a0) (flat a0)) (constant S_ .f32 0x00000000#32) reducesTo_S2x4096x8192_S2x4096_d2 h_S_

theorem sumsq_apply (a0 : FVec Ideal S2x4096x4x2048 .f32) (b : Fin 2) (s : Fin 4096) :
    sumsq a0 (ix2 b s) = ∑ f : Fin 8192, Cert.Mix.xrow a0 b s f * Cert.Mix.xrow a0 b s f := by
  show Ideal.hostReduceAdd reducesTo_S2x4096x8192_S2x4096_d2 (mulf (flat a0) (flat a0)) (Ideal.ofBits .f32 0x00000000#32) (ix2 b s) = _
  rw [Ideal.hostReduceAdd_single _ red8192, Ideal.ofBits_zero_f32, zero_add]
  show ∑ f : Fin 8192, (mulf (flat a0) (flat a0)) (red8192.lift (ix2 b s) f) = _
  refine Finset.sum_congr rfl fun f _ => ?_
  have e : red8192.lift (ix2 b s) f = ix3 b s f := by
    funext a
    match a with
    | ⟨0, _⟩ => rfl
    | ⟨1, _⟩ => rfl
    | ⟨2, _⟩ => rfl
  rw [e, mulf_apply, flat_apply]

/-- The rows' normalisers. -/
def rnorm (a0 : FVec Ideal S2x4096x4x2048 .f32) : FVec Ideal S2x4096x1 .f32 :=
  Host.rsqrt (addf (Host.divf (broadcastInDim S2x4096x1 ![0, 1] bcast_S2x4096_S2x4096x1_0_1 (sumsq a0)) (broadcastInDim S2x4096x1 ![] bcast_S_S2x4096x1 (constant S_ .f32 0x46000000#32))) (broadcastInDim S2x4096x1 ![] bcast_S_S2x4096x1 (constant S_ .f32 0x358637BD#32)))

theorem rnorm_apply (a0 : FVec Ideal S2x4096x4x2048 .f32) (b : Fin 2) (s : Fin 4096) :
    rnorm a0 (ix3 b s (0 : Fin 1)) = Cert.Mix.rinv (Cert.Mix.xrow a0 b s) := by
  show Ideal.rsqrt (Ideal.div (broadcastInDim S2x4096x1 ![0, 1] bcast_S2x4096_S2x4096x1_0_1 (sumsq a0) (ix3 b s (0 : Fin 1))) (Ideal.ofBits .f32 0x46000000#32) + Ideal.ofBits .f32 0x358637BD#32) = _
  rw [broadcastInDim_apply _ _ _ (ix3 b s (0 : Fin 1)) (ix2 b s)
    (fun a => match a with | ⟨0, _⟩ => rfl | ⟨1, _⟩ => rfl), sumsq_apply]
  rfl

/-- The normalised rows. -/
def xn (a0 : FVec Ideal S2x4096x4x2048 .f32) : FVec Ideal S2x4096x8192 .f32 :=
  mulf (flat a0) (broadcastInDim S2x4096x8192 ![0, 1, 2] bcast_S2x4096x1_S2x4096x8192_0_1_2 (rnorm a0))

theorem xn_apply (a0 : FVec Ideal S2x4096x4x2048 .f32) (b : Fin 2) (s : Fin 4096) (f : Fin 8192) :
    xn a0 (ix3 b s f) = Cert.Mix.xrow a0 b s f * Cert.Mix.rinv (Cert.Mix.xrow a0 b s) := by
  unfold xn
  rw [mulf_apply, flat_apply, broadcastInDim_apply _ _ _ (ix3 b s f) (ix3 b s (0 : Fin 1))
    (fun a => match a with | ⟨0, _⟩ => rfl | ⟨1, _⟩ => rfl | ⟨2, _⟩ => rfl), rnorm_apply]

/-- The 24 projections of every row. -/
def lg (a0 : FVec Ideal S2x4096x4x2048 .f32) (a2 : FVec Ideal S24x8192 .f32) : FVec Ideal S2x4096x24 .f32 :=
  Host.dotGeneral dot_S2x4096x8192_S24x8192_S2x4096x24_2_1_01_0_n_n none (xn a0) a2

theorem lg_apply (a0 : FVec Ideal S2x4096x4x2048 .f32) (a2 : FVec Ideal S24x8192 .f32) (b : Fin 2) (s : Fin 4096) (j : Fin 24) :
    lg a0 a2 (ix3 b s j) = Cert.Mix.logit (Cert.Mix.xrow a0 b s) (Cert.Mix.wmat a2) j := by
  unfold lg
  show FloatOps.dotGeneral dot_S2x4096x8192_S24x8192_S2x4096x24_2_1_01_0_n_n none .single (xn a0) a2 (ix3 b s j) = _
  rw [Ideal.dotGeneral_apply]
  unfold Cert.Mix.logit
  refine Fintype.sum_equiv (contrEquiv1 dot_S2x4096x8192_S24x8192_S2x4096x24_2_1_01_0_n_n 8192 rfl rfl) _ _ fun q => ?_
  have hl : dot_S2x4096x8192_S24x8192_S2x4096x24_2_1_01_0_n_n.lhsIdx (ix3 b s j) q
      = ix3 b s (contrEquiv1 dot_S2x4096x8192_S24x8192_S2x4096x24_2_1_01_0_n_n 8192 rfl rfl q) := by
    funext a
    match a with
    | ⟨0, _⟩ => rfl
    | ⟨1, _⟩ => rfl
    | ⟨2, _⟩ => rfl
  have hr : dot_S2x4096x8192_S24x8192_S2x4096x24_2_1_01_0_n_n.rhsIdx (ix3 b s j) q
      = ix2 j (contrEquiv1 dot_S2x4096x8192_S24x8192_S2x4096x24_2_1_01_0_n_n 8192 rfl rfl q) := by
    funext a
    match a with
    | ⟨0, _⟩ => rfl
    | ⟨1, _⟩ => rfl
  rw [hl, hr, xn_apply]
  rfl

end Cert.ReferenceIdeal.RefValue

end
-- ==== Proof.RefMid.lean ====
/-
  The three groups of weights of the reference read at a token row.

  The 24 logits of a row split into 4 collapse logits, 4 write-back logits and 16 mixing logits; each group is
  scaled by one of the three scales and shifted by its slice of the 24 biases.  The collapse weights are the
  sigmoid of the first group plus eps, the write-back weights twice the sigmoid of the second, and the third group,
  reshaped to 4 x 4, is the matrix of mixing logits.  The sigmoid is spelled 1 / (1 + exp (-t)).
-/
import proofs.«117766_j9637906612574_2_alg».proof.Proof.RefHead
import Idealize.ShloMosaic.Lib.IdealHost

noncomputable section

namespace Cert.ReferenceIdeal.RefValue

open Cert.ReferenceIdeal Cert.ReferenceIdeal.Gen Idealize.ShloMosaic Idealize.ShloMosaic.ValueIdx

/-- Scale o as a scalar array: the slice [o, o + 1) of the three scales, reshaped to rank 0. -/
theorem scale_apply (a3 : FVec Ideal S3 .f32) (o : Nat) (ho : o < 3) (hs : S3.Slices ![o] S1) (j : S_.Idx) :
    shapeCast S_ (extractStridedSlice S1 ![o] a3 hs) shapeCasts_S1_S_ j = Cert.Mix.vec3 a3 ⟨o, ho⟩ := by
  have h1 : S_.numel = 1 := by decide
  rw [shapeCast_apply _ _ j (ix1 (0 : Fin 1)) (by
    rw [Shape.rowMajor_val_one]
    have := (S_.rowMajor j).isLt
    show 0 = _
    omega)]
  exact extractStridedSlice_apply _ a3 hs (ix1 (0 : Fin 1)) (ix1 (⟨o, ho⟩ : Fin 3))
    (fun a => match a with | ⟨0, _⟩ => rfl)

/-- Four consecutive biases from o on, broadcast over the token rows. -/
theorem bias4_apply (a4 : FVec Ideal S24 .f32) (o : Nat) (ho : o + 4 ≤ 24) (hs : S24.Slices ![o] S4)
    (b : Fin 2) (s : Fin 4096) (k : Fin 4) :
    broadcastInDim S2x4096x4 ![0, 1, 2] bcast_S1x1x4_S2x4096x4_0_1_2 (broadcastInDim S1x1x4 ![2] bcast_S4_S1x1x4_2 (extractStridedSlice S4 ![o] a4 hs)) (ix3 b s k)
      = Cert.Mix.vec24 a4 ⟨o + k.val, by omega⟩ := by
  rw [broadcastInDim_apply _ _ _ (ix3 b s k) (ix3 (0 : Fin 1) (0 : Fin 1) k)
    (fun a => match a with | ⟨0, _⟩ => rfl | ⟨1, _⟩ => rfl | ⟨2, _⟩ => rfl)]
  rw [broadcastInDim_apply _ _ _ (ix3 (0 : Fin 1) (0 : Fin 1) k) (ix1 k)
    (fun a => match a with | ⟨0, _⟩ => rfl)]
  exact extractStridedSlice_apply _ a4 hs (ix1 k) (ix1 (⟨o + k.val, by omega⟩ : Fin 24))
    (fun a => match a with | ⟨0, _⟩ => rfl)

/-- Four consecutive logits from o on. -/
theorem lg4_apply (L : FVec Ideal S2x4096x24 .f32) (o : Nat) (ho : o + 4 ≤ 24) (hs : S2x4096x24.Slices ![0, 0, o] S2x4096x4)
    (b : Fin 2) (s : Fin 4096) (k : Fin 4) :
    extractStridedSlice S2x4096x4 ![0, 0, o] L hs (ix3 b s k) = L (ix3 b s (⟨o + k.val, by omega⟩ : Fin 24)) :=
  extractStridedSlice_apply _ L hs (ix3 b s k) (ix3 b s (⟨o + k.val, by omega⟩ : Fin 24))
    (fun a => match a with
      | ⟨0, _⟩ => (Nat.zero_add _).symm
      | ⟨1, _⟩ => (Nat.zero_add _).symm
      | ⟨2, _⟩ => rfl)

/-- The collapse weights of every row. -/
def preArr (a0 : FVec Ideal S2x4096x4x2048 .f32) (a2 : FVec Ideal S24x8192 .f32) (a3 : FVec Ideal S3 .f32)
    (a4 : FVec Ideal S24 .f32) : FVec Ideal S2x4096x4 .f32 :=
  addf (Host.divf (broadcastInDim S2x4096x4 ![] bcast_S_S2x4096x4 (constant S_ .f32 0x3F800000#32)) (addf (broadcastInDim S2x4096x4 ![] bcast_S_S2x4096x4 (constant S_ .f32 0x3F800000#32)) (Host.exp (Host.negf (addf (mulf (extractStridedSlice S2x4096x4 ![0, 0, 0] (lg a0 a2) slices_S2x4096x24_S2x4096x4_0_0_0) (broadcastInDim S2x4096x4 ![] bcast_S_S2x4096x4 (shapeCast _ (extractStridedSlice S1 ![0] a3 slices_S3_S1_0) shapeCasts_S1_S_))) (broadcastInDim S2x4096x4 ![0, 1, 2] bcast_S1x1x4_S2x4096x4_0_1_2 (broadcastInDim S1x1x4 ![2] bcast_S4_S1x1x4_2 (extractStridedSlice S4 ![0] a4 slices_S24_S4_0)))))))) (broadcastInDim S2x4096x4 ![] bcast_S_S2x4096x4 (constant S_ .f32 0x358637BD#32))

theorem preArr_apply (a0 : FVec Ideal S2x4096x4x2048 .f32) (a2 : FVec Ideal S24x8192 .f32) (a3 : FVec Ideal S3 .f32)
    (a4 : FVec Ideal S24 .f32) (b : Fin 2) (s : Fin 4096) (k : Fin 4) :
    preArr a0 a2 a3 a4 (ix3 b s k)
      = Cert.Mix.pre (Cert.Mix.xrow a0 b s) (Cert.Mix.wmat a2) (Cert.Mix.vec3 a3) (Cert.Mix.vec24 a4) k := by
  show Ideal.div (Ideal.ofBits .f32 0x3F800000#32) (Ideal.ofBits .f32 0x3F800000#32 + Ideal.exp (-(
      extractStridedSlice S2x4096x4 ![0, 0, 0] (lg a0 a2) slices_S2x4096x24_S2x4096x4_0_0_0 (ix3 b s k)
        * shapeCast S_ (extractStridedSlice S1 ![0] a3 slices_S3_S1_0) shapeCasts_S1_S_ _
        + broadcastInDim S2x4096x4 ![0, 1, 2] bcast_S1x1x4_S2x4096x4_0_1_2 (broadcastInDim S1x1x4 ![2] bcast_S4_S1x1x4_2 (extractStridedSlice S4 ![0] a4 slices_S24_S4_0)) (ix3 b s k))))
      + Ideal.ofBits .f32 0x358637BD#32 = _
  rw [lg4_apply _ 0 (by omega), scale_apply _ 0 (by omega), bias4_apply _ 0 (by omega), lg_apply, Ideal.ofBits_one_f32]
  unfold Cert.Mix.pre Ideal.logistic
  simp only [Nat.zero_add]
  rfl

/-- The write-back weights of every row. -/
def postArr (a0 : FVec Ideal S2x4096x4x2048 .f32) (a2 : FVec Ideal S24x8192 .f32) (a3 : FVec Ideal S3 .f32)
    (a4 : FVec Ideal S24 .f32) : FVec Ideal S2x4096x4 .f32 :=
  mulf (broadcastInDim S2x4096x4 ![] bcast_S_S2x4096x4 (constant S_ .f32 0x40000000#32)) (Host.divf (broadcastInDim S2x4096x4 ![] bcast_S_S2x4096x4 (constant S_ .f32 0x3F800000#32)) (addf (broadcastInDim S2x4096x4 ![] bcast_S_S2x4096x4 (constant S_ .f32 0x3F800000#32)) (Host.exp (Host.negf (addf (mulf (extractStridedSlice S2x4096x4 ![0, 0, 4] (lg a0 a2) slices_S2x4096x24_S2x4096x4_0_0_4) (broadcastInDim S2x4096x4 ![] bcast_S_S2x4096x4 (shapeCast _ (extractStridedSlice S1 ![1] a3 slices_S3_S1_1) shapeCasts_S1_S_))) (broadcastInDim S2x4096x4 ![0, 1, 2] bcast_S1x1x4_S2x4096x4_0_1_2 (broadcastInDim S1x1x4 ![2] bcast_S4_S1x1x4_2 (extractStridedSlice S4 ![4] a4 slices_S24_S4_4))))))))

theorem postArr_apply (a0 : FVec Ideal S2x4096x4x2048 .f32) (a2 : FVec Ideal S24x8192 .f32) (a3 : FVec Ideal S3 .f32)
    (a4 : FVec Ideal S24 .f32) (b : Fin 2) (s : Fin 4096) (h : Fin 4) :
    postArr a0 a2 a3 a4 (ix3 b s h)
      = Cert.Mix.post (Cert.Mix.xrow a0 b s) (Cert.Mix.wmat a2) (Cert.Mix.vec3 a3) (Cert.Mix.vec24 a4) h := by
  show Ideal.ofBits .f32 0x40000000#32 * Ideal.div (Ideal.ofBits .f32 0x3F800000#32) (Ideal.ofBits .f32 0x3F800000#32 + Ideal.exp (-(
      extractStridedSlice S2x4096x4 ![0, 0, 4] (lg a0 a2) slices_S2x4096x24_S2x4096x4_0_0_4 (ix3 b s h)
        * shapeCast S_ (extractStridedSlice S1 ![1] a3 slices_S3_S1_1) shapeCasts_S1_S_ _
        + broadcastInDim S2x4096x4 ![0, 1, 2] bcast_S1x1x4_S2x4096x4_0_1_2 (broadcastInDim S1x1x4 ![2] bcast_S4_S1x1x4_2 (extractStridedSlice S4 ![4] a4 slices_S24_S4_4)) (ix3 b s h)))) = _
  rw [lg4_apply _ 4 (by omega), scale_apply _ 1 (by omega), bias4_apply _ 4 (by omega), lg_apply, Ideal.ofBits_one_f32]
  rfl

end Cert.ReferenceIdeal.RefValue

end
-- ==== Proof.RefSoft.lean ====
/-
  The mixing logits, their shifted exponentials and the softmax plus eps, read at a token row.

  The 16 mixing logits of row (b, s) are logits 8 .. 23, reshaped so that entry (h, k) is logit 8 + 4 h + k, times
  the third scale, plus the matching bias.  The reference then subtracts each row's maximum (the maximum of the
  host's max-reduce from minus infinity and minus infinity again, which changes nothing), exponentiates, divides
  by the row's sum, and adds eps.
-/
import proofs.«117766_j9637906612574_2_alg».proof.Proof.RefMid
import proofs.«117766_j9637906612574_2_alg».proof.Proof.RefSteps

noncomputable section

namespace Cert.ReferenceIdeal.RefValue

open Cert.ReferenceIdeal Cert.ReferenceIdeal.Gen Idealize.ShloMosaic Idealize.ShloMosaic.ValueIdx

/-- The index over (b, s, h) with k inserted on the last axis. -/
theorem lift3_eq (b : Fin 2) (s : Fin 4096) (h : Fin 4) (k : Fin 4) : red3.lift (ix3 b s h) k = ix4 b s h k := by
  funext a
  match a with
  | ⟨0, _⟩ => rfl
  | ⟨1, _⟩ => rfl
  | ⟨2, _⟩ => rfl
  | ⟨3, _⟩ => rfl

/-- The mixing logits of every row. -/
def A40 (a0 : FVec Ideal S2x4096x4x2048 .f32) (a2 : FVec Ideal S24x8192 .f32) (a3 : FVec Ideal S3 .f32)
    (a4 : FVec Ideal S24 .f32) : FVec Ideal S2x4096x4x4 .f32 :=
  addf (mulf (shapeCast _ (extractStridedSlice S2x4096x16 ![0, 0, 8] (lg a0 a2) slices_S2x4096x24_S2x4096x16_0_0_8) shapeCasts_S2x4096x16_S2x4096x4x4) (broadcastInDim S2x4096x4x4 ![] bcast_S_S2x4096x4x4 (shapeCast _ (extractStridedSlice S1 ![2] a3 slices_S3_S1_2) shapeCasts_S1_S_))) (broadcastInDim S2x4096x4x4 ![0, 1, 2, 3] bcast_S1x1x4x4_S2x4096x4x4_0_1_2_3 (broadcastInDim S1x1x4x4 ![2, 3] bcast_S4x4_S1x1x4x4_2_3 (shapeCast _ (extractStridedSlice S16 ![8] a4 slices_S24_S16_8) shapeCasts_S16_S4x4)))

theorem cur_A40 (a0 : FVec Ideal S2x4096x4x2048 .f32) (a2 : FVec Ideal S24x8192 .f32) (a3 : FVec Ideal S3 .f32)
    (a4 : FVec Ideal S24 .f32) (b : Fin 2) (s : Fin 4096) :
    cur (A40 a0 a2 a3 a4) b s
      = Cert.Mix.combLogit (Cert.Mix.xrow a0 b s) (Cert.Mix.wmat a2) (Cert.Mix.vec3 a3) (Cert.Mix.vec24 a4) := by
  funext h k
  have hh := h.isLt
  have hk := k.isLt
  show shapeCast S2x4096x4x4 (extractStridedSlice S2x4096x16 ![0, 0, 8] (lg a0 a2) slices_S2x4096x24_S2x4096x16_0_0_8) shapeCasts_S2x4096x16_S2x4096x4x4 (ix4 b s h k)
      * shapeCast S_ (extractStridedSlice S1 ![2] a3 slices_S3_S1_2) shapeCasts_S1_S_ _
      + broadcastInDim S2x4096x4x4 ![0, 1, 2, 3] bcast_S1x1x4x4_S2x4096x4x4_0_1_2_3 (broadcastInDim S1x1x4x4 ![2, 3] bcast_S4x4_S1x1x4x4_2_3 (shapeCast S4x4 (extractStridedSlice S16 ![8] a4 slices_S24_S16_8) shapeCasts_S16_S4x4)) (ix4 b s h k) = _
  rw [shapeCast_apply _ _ (ix4 b s h k) (ix3 b s (⟨4 * h.val + k.val, by omega⟩ : Fin 16)) (by
    rw [Shape.rowMajor_val_three, Shape.rowMajor_val_four]
    show (b.val * 4096 + s.val) * 16 + (4 * h.val + k.val) = ((b.val * 4096 + s.val) * 4 + h.val) * 4 + k.val
    omega)]
  rw [extractStridedSlice_apply _ _ _ (ix3 b s (⟨4 * h.val + k.val, by omega⟩ : Fin 16))
    (ix3 b s (⟨8 + (4 * h.val + k.val), by omega⟩ : Fin 24))
    (fun a => match a with
      | ⟨0, _⟩ => (Nat.zero_add _).symm
      | ⟨1, _⟩ => (Nat.zero_add _).symm
      | ⟨2, _⟩ => rfl)]
  rw [lg_apply, scale_apply _ 2 (by omega)]
  rw [broadcastInDim_apply _ _ _ (ix4 b s h k) (ix4 (0 : Fin 1) (0 : Fin 1) h k)
    (fun a => match a with | ⟨0, _⟩ => rfl | ⟨1, _⟩ => rfl | ⟨2, _⟩ => rfl | ⟨3, _⟩ => rfl)]
  rw [broadcastInDim_apply _ _ _ (ix4 (0 : Fin 1) (0 : Fin 1) h k) (ix2 h k)
    (fun a => match a with | ⟨0, _⟩ => rfl | ⟨1, _⟩ => rfl)]
  rw [shapeCast_apply _ _ (ix2 h k) (ix1 (⟨4 * h.val + k.val, by omega⟩ : Fin 16)) (by
    rw [Shape.rowMajor_val_one, Shape.rowMajor_val_two]
    show 4 * h.val + k.val = h.val * 4 + k.val
    omega)]
  rw [extractStridedSlice_apply _ _ _ (ix1 (⟨4 * h.val + k.val, by omega⟩ : Fin 16))
    (ix1 (⟨8 + (4 * h.val + k.val), by omega⟩ : Fin 24))
    (fun a => match a with | ⟨0, _⟩ => rfl)]
  rfl

/-- exp (entry minus the row's maximum), as the reference writes it. -/
def E63 (A : FVec Ideal S2x4096x4x4 .f32) : FVec Ideal S2x4096x4x4 .f32 :=
  Host.exp (subf A (broadcastInDim S2x4096x4x4 ![0, 1, 2, 3] bcast_S2x4096x4x1_S2x4096x4x4_0_1_2_3 (broadcastInDim S2x4096x4x1 ![0, 1, 2] bcast_S2x4096x4_S2x4096x4x1_0_1_2 (maximumf (broadcastInDim S2x4096x4 ![] bcast_S_S2x4096x4 (constant S_ .f32 0xFF800000#32)) (Host.reduce FloatOps.maximumf A (constant S_ .f32 0xFF800000#32) reducesTo_S2x4096x4x4_S2x4096x4_d3 h_S_)))))

/-- The host's max-reduce over the last axis at (b, s, h) is the row maximum of the matrix at (b, s). -/
theorem rowMax_apply (A : FVec Ideal S2x4096x4x4 .f32) (b : Fin 2) (s : Fin 4096) (h : Fin 4) :
    Host.reduce FloatOps.maximumf A (constant S_ .f32 0xFF800000#32) reducesTo_S2x4096x4x4_S2x4096x4_d3 h_S_ (ix3 b s h)
      = Cert.Mix.rowMax (cur A b s) h := by
  rw [Host.reduce_eq_fold_single (FloatOps.maximumf (F := Ideal) (φ := .f32)) A _ _ red3 h_S_ (ix3 b s h)]
  have e : (A ∘ red3.lift (ix3 b s h)) = fun k' : Fin 4 => A (ix4 b s h k') :=
    funext fun k' => congrArg A (lift3_eq b s h k')
  rw [e]
  rfl

theorem cur_E63 (A : FVec Ideal S2x4096x4x4 .f32) (b : Fin 2) (s : Fin 4096) :
    cur (E63 A) b s = Cert.Mix.expShift (cur A b s) := by
  funext h k
  show Ideal.exp (A (ix4 b s h k) - _) = Ideal.exp (A (ix4 b s h k) - Cert.Mix.rowMax (cur A b s) h)
  refine congrArg (fun t => Ideal.exp (A (ix4 b s h k) - t)) ?_
  rw [broadcastInDim_apply _ _ _ (ix4 b s h k) (ix4 b s h (0 : Fin 1))
    (fun a => match a with | ⟨0, _⟩ => rfl | ⟨1, _⟩ => rfl | ⟨2, _⟩ => rfl | ⟨3, _⟩ => rfl)]
  rw [broadcastInDim_apply _ _ _ (ix4 b s h (0 : Fin 1)) (ix3 b s h)
    (fun a => match a with | ⟨0, _⟩ => rfl | ⟨1, _⟩ => rfl | ⟨2, _⟩ => rfl)]
  rw [maximumf_apply, rowMax_apply]
  show max Cert.Mix.negInf (Cert.Mix.rowMax (cur A b s) h) = _
  exact max_eq_right ((Finset.le_fold_max _).mpr (Or.inl le_rfl))

/-- Divide by the row sums and add eps, as the reference writes it. -/
def S69 (E : FVec Ideal S2x4096x4x4 .f32) : FVec Ideal S2x4096x4x4 .f32 :=
  addf (Host.divf E (broadcastInDim S2x4096x4x4 ![0, 1, 2, 3] bcast_S2x4096x4x1_S2x4096x4x4_0_1_2_3 (broadcastInDim S2x4096x4x1 ![0, 1, 2] bcast_S2x4096x4_S2x4096x4x1_0_1_2 (Host.reduceAdd E (constant S_ .f32 0x00000000#32) reducesTo_S2x4096x4x4_S2x4096x4_d3 h_S_)))) (broadcastInDim S2x4096x4x4 ![] bcast_S_S2x4096x4x4 (constant S_ .f32 0x358637BD#32))

theorem cur_S69_E63 (A : FVec Ideal S2x4096x4x4 .f32) (b : Fin 2) (s : Fin 4096) :
    cur (S69 (E63 A)) b s = Cert.Mix.softmaxEps (cur A b s) := by
  funext h k
  show Ideal.div (E63 A (ix4 b s h k)) _ + Cert.Mix.eps
    = Ideal.div (Cert.Mix.expShift (cur A b s) h k) (∑ k' : Fin 4, Cert.Mix.expShift (cur A b s) h k') + Cert.Mix.eps
  rw [broadcastInDim_apply _ _ _ (ix4 b s h k) (ix4 b s h (0 : Fin 1))
    (fun a => match a with | ⟨0, _⟩ => rfl | ⟨1, _⟩ => rfl | ⟨2, _⟩ => rfl | ⟨3, _⟩ => rfl)]
  rw [broadcastInDim_apply _ _ _ (ix4 b s h (0 : Fin 1)) (ix3 b s h)
    (fun a => match a with | ⟨0, _⟩ => rfl | ⟨1, _⟩ => rfl | ⟨2, _⟩ => rfl)]
  rw [sumAxis3, ← cur_E63]
  rfl

end Cert.ReferenceIdeal.RefValue

end
-- ==== Proof.RefTail.lean ====
/-
  The tail of the reference read at a token row: the collapsed row and the expanded rows.

  The collapsed array is the sum over the stream axis of the collapse weights, broadcast along the positions, times
  x.  The expanded array is the write-back weights, broadcast along the positions, times the sub-block output,
  broadcast along the streams, plus the batched product of the mixing matrices with x, a contraction over the
  stream axis of extent 4.  Entry (b, s, k, d) of x is entry 2048 k + d of the specification's flattened row (b, s).
-/
import proofs.«117766_j9637906612574_2_alg».proof.Proof.RefMid
import proofs.«117766_j9637906612574_2_alg».proof.Proof.RefSteps

noncomputable section

namespace Cert.ReferenceIdeal.RefValue

open Cert.ReferenceIdeal Cert.ReferenceIdeal.Gen Idealize.ShloMosaic Idealize.ShloMosaic.ValueIdx

/-- Stream k at position d of the flattened row (b, s) is x at (b, s, k, d). -/
theorem stream_xrow (a0 : FVec Ideal S2x4096x4x2048 .f32) (b : Fin 2) (s : Fin 4096) (k : Fin 4) (d : Fin 2048) :
    Cert.Mix.stream (Cert.Mix.xrow a0 b s) k d = a0 (ix4 b s k d) := by
  unfold Cert.Mix.stream Cert.Mix.xrow
  refine congrArg a0 ?_
  have hk := k.isLt
  have hd := d.isLt
  funext a
  match a with
  | ⟨0, _⟩ => rfl
  | ⟨1, _⟩ => rfl
  | ⟨2, _⟩ => exact Fin.ext (by show (2048 * k.val + d.val) / 2048 = k.val; omega)
  | ⟨3, _⟩ => exact Fin.ext (by show (2048 * k.val + d.val) % 2048 = d.val; omega)

theorem redStream : S2x4096x4x2048.Reduces [2] S2x4096x2048 := by decide

/-- The collapsed array as the reference writes it, from the collapse weights' array. -/
def cArr (a0 : FVec Ideal S2x4096x4x2048 .f32) (a2 : FVec Ideal S24x8192 .f32) (a3 : FVec Ideal S3 .f32)
    (a4 : FVec Ideal S24 .f32) : FVec Ideal S2x4096x2048 .f32 :=
  Host.reduceAdd (mulf (broadcastInDim S2x4096x4x2048 ![0, 1, 2, 3] bcast_S2x4096x4x1_S2x4096x4x2048_0_1_2_3 (broadcastInDim S2x4096x4x1 ![0, 1, 2] bcast_S2x4096x4_S2x4096x4x1_0_1_2 (preArr a0 a2 a3 a4))) a0) (constant S_ .f32 0x00000000#32) reducesTo_S2x4096x4x2048_S2x4096x2048_d2 h_S_

theorem cArr_eq (a0 : FVec Ideal S2x4096x4x2048 .f32) (a2 : FVec Ideal S24x8192 .f32) (a3 : FVec Ideal S3 .f32)
    (a4 : FVec Ideal S24 .f32) : cArr a0 a2 a3 a4 = Cert.Mix.Gc a0 a2 a3 a4 := by
  funext i
  obtain ⟨b, s, d, rfl⟩ : ∃ (b : Fin 2) (s : Fin 4096) (d : Fin 2048), i = ix3 b s d := ⟨i 0, i 1, i 2, eq_ix3 i⟩
  show Ideal.hostReduceAdd reducesTo_S2x4096x4x2048_S2x4096x2048_d2 _ (Ideal.ofBits .f32 0x00000000#32) (ix3 b s d)
    = Cert.Mix.collapsed (Cert.Mix.xrow a0 b s) (Cert.Mix.wmat a2) (Cert.Mix.vec3 a3) (Cert.Mix.vec24 a4) d
  rw [Ideal.hostReduceAdd_single _ redStream, Ideal.ofBits_zero_f32, zero_add]
  unfold Cert.Mix.collapsed
  show ∑ k : Fin 4, _ = ∑ k : Fin 4, _
  refine Finset.sum_congr rfl fun k _ => ?_
  have e : redStream.lift (ix3 b s d) k = ix4 b s k d := by
    funext a
    match a with
    | ⟨0, _⟩ => rfl
    | ⟨1, _⟩ => rfl
    | ⟨2, _⟩ => rfl
    | ⟨3, _⟩ => rfl
  rw [e, mulf_apply, stream_xrow]
  refine congrArg (· * a0 (ix4 b s k d)) ?_
  rw [broadcastInDim_apply _ _ _ (ix4 b s k d) (ix4 b s k (0 : Fin 1))
    (fun a => match a with | ⟨0, _⟩ => rfl | ⟨1, _⟩ => rfl | ⟨2, _⟩ => rfl | ⟨3, _⟩ => rfl)]
  rw [broadcastInDim_apply _ _ _ (ix4 b s k (0 : Fin 1)) (ix3 b s k)
    (fun a => match a with | ⟨0, _⟩ => rfl | ⟨1, _⟩ => rfl | ⟨2, _⟩ => rfl)]
  exact preArr_apply a0 a2 a3 a4 b s k

/-- The expanded array as the reference writes it, from the write-back weights' array and any array C of
    mixing matrices. -/
def yArr (a0 : FVec Ideal S2x4096x4x2048 .f32) (a1 : FVec Ideal S2x4096x2048 .f32) (a2 : FVec Ideal S24x8192 .f32)
    (a3 : FVec Ideal S3 .f32) (a4 : FVec Ideal S24 .f32) (C : FVec Ideal S2x4096x4x4 .f32) : FVec Ideal S2x4096x4x2048 .f32 :=
  addf (mulf (broadcastInDim S2x4096x4x2048 ![0, 1, 2, 3] bcast_S2x4096x4x1_S2x4096x4x2048_0_1_2_3 (broadcastInDim S2x4096x4x1 ![0, 1, 2] bcast_S2x4096x4_S2x4096x4x1_0_1_2 (postArr a0 a2 a3 a4))) (broadcastInDim S2x4096x4x2048 ![0, 1, 2, 3] bcast_S2x4096x1x2048_S2x4096x4x2048_0_1_2_3 (broadcastInDim S2x4096x1x2048 ![0, 1, 3] bcast_S2x4096x2048_S2x4096x1x2048_0_1_3 a1))) (Host.dotGeneral dot_S2x4096x4x4_S2x4096x4x2048_S2x4096x4x2048_3_2_2_3_01_01 none C a0)

theorem yArr_apply (a0 : FVec Ideal S2x4096x4x2048 .f32) (a1 : FVec Ideal S2x4096x2048 .f32) (a2 : FVec Ideal S24x8192 .f32)
    (a3 : FVec Ideal S3 .f32) (a4 : FVec Ideal S24 .f32) (C : FVec Ideal S2x4096x4x4 .f32)
    (b : Fin 2) (s : Fin 4096) (h : Fin 4) (d : Fin 2048) :
    yArr a0 a1 a2 a3 a4 C (ix4 b s h d)
      = Cert.Mix.post (Cert.Mix.xrow a0 b s) (Cert.Mix.wmat a2) (Cert.Mix.vec3 a3) (Cert.Mix.vec24 a4) h * Cert.Mix.orow a1 b s d
        + ∑ k : Fin 4, cur C b s h k * Cert.Mix.stream (Cert.Mix.xrow a0 b s) k d := by
  unfold yArr
  rw [addf_apply, mulf_apply]
  rw [broadcastInDim_apply _ _ _ (ix4 b s h d) (ix4 b s h (0 : Fin 1))
    (fun a => match a with | ⟨0, _⟩ => rfl | ⟨1, _⟩ => rfl | ⟨2, _⟩ => rfl | ⟨3, _⟩ => rfl)]
  rw [broadcastInDim_apply _ _ _ (ix4 b s h (0 : Fin 1)) (ix3 b s h)
    (fun a => match a with | ⟨0, _⟩ => rfl | ⟨1, _⟩ => rfl | ⟨2, _⟩ => rfl)]
  rw [postArr_apply]
  rw [broadcastInDim_apply _ _ _ (ix4 b s h d) (ix4 b s (0 : Fin 1) d)
    (fun a => match a with | ⟨0, _⟩ => rfl | ⟨1, _⟩ => rfl | ⟨2, _⟩ => rfl | ⟨3, _⟩ => rfl)]
  rw [broadcastInDim_apply _ _ _ (ix4 b s (0 : Fin 1) d) (ix3 b s d)
    (fun a => match a with | ⟨0, _⟩ => rfl | ⟨1, _⟩ => rfl | ⟨2, _⟩ => rfl)]
  refine congrArg (Cert.Mix.post (Cert.Mix.xrow a0 b s) (Cert.Mix.wmat a2) (Cert.Mix.vec3 a3) (Cert.Mix.vec24 a4) h * Cert.Mix.orow a1 b s d + ·) ?_
  show FloatOps.dotGeneral dot_S2x4096x4x4_S2x4096x4x2048_S2x4096x4x2048_3_2_2_3_01_01 none .single C a0 (ix4 b s h d) = _
  rw [Ideal.dotGeneral_apply]
  refine Fintype.sum_equiv (contrEquiv1 dot_S2x4096x4x4_S2x4096x4x2048_S2x4096x4x2048_3_2_2_3_01_01 4 rfl rfl) _ _ fun q => ?_
  have hl : dot_S2x4096x4x4_S2x4096x4x2048_S2x4096x4x2048_3_2_2_3_01_01.lhsIdx (ix4 b s h d) q
      = ix4 b s h (contrEquiv1 dot_S2x4096x4x4_S2x4096x4x2048_S2x4096x4x2048_3_2_2_3_01_01 4 rfl rfl q) := by
    funext a
    match a with
    | ⟨0, _⟩ => rfl
    | ⟨1, _⟩ => rfl
    | ⟨2, _⟩ => rfl
    | ⟨3, _⟩ => rfl
  have hr : dot_S2x4096x4x4_S2x4096x4x2048_S2x4096x4x2048_3_2_2_3_01_01.rhsIdx (ix4 b s h d) q
      = ix4 b s (contrEquiv1 dot_S2x4096x4x4_S2x4096x4x2048_S2x4096x4x2048_3_2_2_3_01_01 4 rfl rfl q) d := by
    funext a
    match a with
    | ⟨0, _⟩ => rfl
    | ⟨1, _⟩ => rfl
    | ⟨2, _⟩ => rfl
    | ⟨3, _⟩ => rfl
  rw [hl, hr, stream_xrow]
  rfl

end Cert.ReferenceIdeal.RefValue

end
-- ==== Proof.RefRun.lean ====
/-
  The reference's run, restated against the specification: every weakly fair execution of the reference ends with
  its first result equal to the specification's expanded rows Gy of the five arguments and its second result equal
  to the specification's collapsed rows Gc, the arguments unchanged.

  The generated run states the two results as composed terms of the arguments' contents.  Each named intermediate
  array of those terms is one of the whole-array functions read at a token row in the modules before this one:
  the flattened rows, the logits, the mixing logits, their shifted exponentials, the softmax plus eps, and the 39
  Sinkhorn normalisations; the two result terms are the collapsed and the expanded arrays over them.
-/
import proofs.«117766_j9637906612574_2_alg».proof.Proof.Gen.ReferenceIdeal.Run
import proofs.«117766_j9637906612574_2_alg».proof.Proof.RefChain
import proofs.«117766_j9637906612574_2_alg».proof.Proof.RefSoft
import proofs.«117766_j9637906612574_2_alg».proof.Proof.RefTail

noncomputable section

namespace Cert.ReferenceIdeal.RefValue

open Cert.ReferenceIdeal Cert.ReferenceIdeal.Gen Cert.ReferenceIdeal.Value Idealize.ShloMosaic Idealize.ShloMosaic.ValueIdx Idealize.ShloMosaic.TcCoe Idealize.SL.Sem Idealize.ShloMosaic.StableHlo

/-- Argument 0's contents as an array of extended reals. -/
abbrev arg0 (V0 : Valuation τ sig (Elt Ideal)) : FVec Ideal S2x4096x4x2048 .f32 := V0 (Proc.devRef .tc main_arg0)
/-- Argument 1's contents as an array of extended reals. -/
abbrev arg1 (V0 : Valuation τ sig (Elt Ideal)) : FVec Ideal S2x4096x2048 .f32 := V0 (Proc.devRef .tc main_arg1)
/-- Argument 2's contents as an array of extended reals. -/
abbrev arg2 (V0 : Valuation τ sig (Elt Ideal)) : FVec Ideal S24x8192 .f32 := V0 (Proc.devRef .tc main_arg2)
/-- Argument 3's contents as an array of extended reals. -/
abbrev arg3 (V0 : Valuation τ sig (Elt Ideal)) : FVec Ideal S3 .f32 := V0 (Proc.devRef .tc main_arg3)
/-- Argument 4's contents as an array of extended reals. -/
abbrev arg4 (V0 : Valuation τ sig (Elt Ideal)) : FVec Ideal S24 .f32 := V0 (Proc.devRef .tc main_arg4)

theorem v11_eq (V0 : Valuation τ sig (Elt Ideal)) :
    res_main_v11 V0 = lg (arg0 V0) (arg2 V0) := rfl
theorem v40_eq (V0 : Valuation τ sig (Elt Ideal)) :
    res_main_v40 V0 = A40 (arg0 V0) (arg2 V0) (arg3 V0) (arg4 V0) := rfl
theorem v63_eq (V0 : Valuation τ sig (Elt Ideal)) : res_main_v63 V0 = E63 (res_main_v40 V0) := rfl
theorem v69_eq (V0 : Valuation τ sig (Elt Ideal)) : res_main_v69 V0 = S69 (res_main_v63 V0) := rfl

/-- The array after all 39 normalisations, at a token row, is the specification's mixing matrix of that row. -/
theorem cur_comb (V0 : Valuation τ sig (Elt Ideal)) (b : Fin 2) (s : Fin 4096) :
    cur (refCol (res_main_v297 V0)) b s
      = Cert.Mix.comb (Cert.Mix.xrow (arg0 V0) b s) (Cert.Mix.wmat (arg2 V0)) (Cert.Mix.vec3 (arg3 V0)) (Cert.Mix.vec24 (arg4 V0)) := by
  rw [cur_sinkhorn, v69_eq, v63_eq, cur_S69_E63, v40_eq, cur_A40]
  rfl

set_option maxRecDepth 8192 in
/-- The first result's term is the specification's expanded rows. -/
theorem y_eq (V0 : Valuation τ sig (Elt Ideal)) :
    addf (mulf (broadcastInDim S2x4096x4x2048 ![0, 1, 2, 3] bcast_S2x4096x4x1_S2x4096x4x2048_0_1_2_3 (broadcastInDim S2x4096x4x1 ![0, 1, 2] bcast_S2x4096x4_S2x4096x4x1_0_1_2 (mulf (broadcastInDim S2x4096x4 ![] bcast_S_S2x4096x4 (constant S_ .f32 0x40000000#32)) (Host.divf (broadcastInDim S2x4096x4 ![] bcast_S_S2x4096x4 (constant S_ .f32 0x3F800000#32)) (addf (broadcastInDim S2x4096x4 ![] bcast_S_S2x4096x4 (constant S_ .f32 0x3F800000#32)) (Host.exp (Host.negf (addf (mulf (extractStridedSlice S2x4096x4 ![0, 0, 4] (res_main_v11 V0) slices_S2x4096x24_S2x4096x4_0_0_4) (broadcastInDim S2x4096x4 ![] bcast_S_S2x4096x4 (shapeCast _ (extractStridedSlice S1 ![1] (arg3 V0) slices_S3_S1_1) shapeCasts_S1_S_))) (broadcastInDim S2x4096x4 ![0, 1, 2] bcast_S1x1x4_S2x4096x4_0_1_2 (broadcastInDim S1x1x4 ![2] bcast_S4_S1x1x4_2 (extractStridedSlice S4 ![4] (arg4 V0) slices_S24_S4_4))))))))))) (broadcastInDim S2x4096x4x2048 ![0, 1, 2, 3] bcast_S2x4096x1x2048_S2x4096x4x2048_0_1_2_3 (broadcastInDim S2x4096x1x2048 ![0, 1, 3] bcast_S2x4096x2048_S2x4096x1x2048_0_1_3 (arg1 V0)))) (Host.dotGeneral dot_S2x4096x4x4_S2x4096x4x2048_S2x4096x4x2048_3_2_2_3_01_01 none (Host.divf (res_main_v297 V0) (broadcastInDim S2x4096x4x4 ![0, 1, 2, 3] bcast_S2x4096x1x4_S2x4096x4x4_0_1_2_3 (addf (broadcastInDim S2x4096x1x4 ![0, 1, 3] bcast_S2x4096x4_S2x4096x1x4_0_1_3 (Host.reduceAdd (res_main_v297 V0) (constant S_ .f32 0x00000000#32) reducesTo_S2x4096x4x4_S2x4096x4_d2 h_S_)) (broadcastInDim S2x4096x1x4 ![] bcast_S_S2x4096x1x4 (constant S_ .f32 0x358637BD#32))))) (arg0 V0))
      = Cert.Mix.Gy (arg0 V0) (arg1 V0) (arg2 V0) (arg3 V0) (arg4 V0) := by
  show yArr (arg0 V0) (arg1 V0) (arg2 V0) (arg3 V0) (arg4 V0) (refCol (res_main_v297 V0)) = _
  funext i
  obtain ⟨b, s, h, d, rfl⟩ : ∃ (b : Fin 2) (s : Fin 4096) (h : Fin 4) (d : Fin 2048), i = ix4 b s h d :=
    ⟨i 0, i 1, i 2, i 3, eq_ix4 i⟩
  rw [yArr_apply, cur_comb]
  rfl

set_option maxRecDepth 8192 in
/-- The second result's term is the specification's collapsed rows. -/
theorem c_eq (V0 : Valuation τ sig (Elt Ideal)) :
    Host.reduceAdd (mulf (broadcastInDim S2x4096x4x2048 ![0, 1, 2, 3] bcast_S2x4096x4x1_S2x4096x4x2048_0_1_2_3 (broadcastInDim S2x4096x4x1 ![0, 1, 2] bcast_S2x4096x4_S2x4096x4x1_0_1_2 (addf (Host.divf (broadcastInDim S2x4096x4 ![] bcast_S_S2x4096x4 (constant S_ .f32 0x3F800000#32)) (addf (broadcastInDim S2x4096x4 ![] bcast_S_S2x4096x4 (constant S_ .f32 0x3F800000#32)) (Host.exp (Host.negf (addf (mulf (extractStridedSlice S2x4096x4 ![0, 0, 0] (res_main_v11 V0) slices_S2x4096x24_S2x4096x4_0_0_0) (broadcastInDim S2x4096x4 ![] bcast_S_S2x4096x4 (shapeCast _ (extractStridedSlice S1 ![0] (arg3 V0) slices_S3_S1_0) shapeCasts_S1_S_))) (broadcastInDim S2x4096x4 ![0, 1, 2] bcast_S1x1x4_S2x4096x4_0_1_2 (broadcastInDim S1x1x4 ![2] bcast_S4_S1x1x4_2 (extractStridedSlice S4 ![0] (arg4 V0) slices_S24_S4_0)))))))) (broadcastInDim S2x4096x4 ![] bcast_S_S2x4096x4 (constant S_ .f32 0x358637BD#32))))) (arg0 V0)) (constant S_ .f32 0x00000000#32) reducesTo_S2x4096x4x2048_S2x4096x2048_d2 h_S_
      = Cert.Mix.Gc (arg0 V0) (arg2 V0) (arg3 V0) (arg4 V0) :=
  cArr_eq (arg0 V0) (arg2 V0) (arg3 V0) (arg4 V0)

set_option maxRecDepth 8192 in
/-- On every device, from any memory with zero counters: every weakly fair execution of the reference terminates
    with its two results the specification's Gy and Gc of the arguments, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v314) = Cert.Mix.Gy (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v307) = Cert.Mix.Gc (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (y_eq (launchContents m c)),
      (h c).2.1.trans (c_eq (launchContents m c)), (h c).2.2⟩)
    (Cert.ReferenceIdeal.Value.run (F := Ideal) m ρ)

end Cert.ReferenceIdeal.RefValue

end
-- ==== Proof.lean ====
/-
  The certificate of the stream mixer: a Pallas kernel over row blocks against its jnp reference.

  Per token row both programs RMS-normalise the four flattened streams, project them to 24 logits, turn
  those into collapse weights (a sigmoid plus eps), write-back weights (twice a sigmoid) and a 4 x 4 mixing
  matrix (a row softmax plus eps, then thirty-nine alternating column and row normalisations), and return
  the weighted collapse of the streams and, per stream, the write-back of the sub-block output plus the
  mixed streams (Proof/Spec.lean states this row function; `Cert.Mix.Gy`, `Cert.Mix.Gc` are the two results as
  functions of the five argument arrays).

  The kernel computes it on blocks of 64 rows of the arrays reshaped to 8192 rows, and reshapes its two
  results back; the reference computes it on the whole arrays.  At the extended reals every operation of
  the two is the same operation on the same numbers — a change of float format is the identity, the
  kernel's sigmoid is 1 / (1 + exp (-x)) as the reference spells it, a matrix product is a finite sum —
  so the two results agree entry by entry, and no finiteness of the inputs is used.

  The three frames are the generated ones (the reference's is its run with the results dropped); nothing
  was rewritten when the kernel was idealized, so that claim is trivial.
-/
import proofs.«117766_j9637906612574_2_alg».proof.Defs
import proofs.«117766_j9637906612574_2_alg».proof.Proof.Gen.Kernel
import proofs.«117766_j9637906612574_2_alg».proof.Proof.Gen.Kernel.Skeleton
import proofs.«117766_j9637906612574_2_alg».proof.Proof.Gen.Kernel.Launch
import proofs.«117766_j9637906612574_2_alg».proof.Proof.Gen.Kernel.Points
import proofs.«117766_j9637906612574_2_alg».proof.Proof.Gen.Kernel.Frame
import proofs.«117766_j9637906612574_2_alg».proof.Proof.Gen.KernelIdeal
import proofs.«117766_j9637906612574_2_alg».proof.Proof.Gen.KernelIdeal.Skeleton
import proofs.«117766_j9637906612574_2_alg».proof.Proof.Gen.KernelIdeal.Launch
import proofs.«117766_j9637906612574_2_alg».proof.Proof.Gen.KernelIdeal.Points
import proofs.«117766_j9637906612574_2_alg».proof.Proof.Gen.KernelIdeal.Frame
import proofs.«117766_j9637906612574_2_alg».proof.Proof.Gen.ReferenceIdeal
import proofs.«117766_j9637906612574_2_alg».proof.Proof.Gen.Pre_finite_inputs
import proofs.«117766_j9637906612574_2_alg».proof.Proof.Gen.ReferenceIdeal.Run
import proofs.«117766_j9637906612574_2_alg».proof.Proof.KTail
import proofs.«117766_j9637906612574_2_alg».proof.Proof.BlkRun
import proofs.«117766_j9637906612574_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end with the two results at the row function of the argument arrays; the memories agree on
    the arguments, so the results are equal. -/
theorem algebraic : Cert.algebraic_KernelIdeal_ReferenceIdeal := by
  intro m ρ m' ρ' _ hagree
  refine ⟨_, _, Cert.KernelIdeal.Bridge.kernel_run Cert.KernelIdeal.Bridge.payC Cert.KernelIdeal.Bridge.payY m ρ, ?_⟩
  refine (θ_run Cert.ReferenceIdeal.defs _ _).mono (fun _ h c => ?_) (Cert.ReferenceIdeal.RefValue.ref_run m' ρ')
  obtain ⟨h0, h1, h2, h3, h4⟩ := hagree c
  obtain ⟨hy, hc, ha⟩ := h c
  refine ⟨?_, ?_, ha⟩
  · rw [hy, h0, h1, h2, h3, h4]
  · rw [hc, h0, h2, h3, h4]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
